-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S2x1600000 32) (main_arg1 : FVec F S1600000 .f32) (main_arg2 : FVec F S100000x128 .f32) (main_arg3 : FVec F S128x128 .f32) (main_arg4 : FVec F S128 .f32) (main_arg5 : FVec F S128x128 .f32) (main_arg6 : FVec F S128 .f32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S2x1600000 : Shape := ⟨2, ![2, 1600000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S1600000x128 : Shape := ⟨2, ![1600000, 128]⟩
abbrev S1x128 : Shape := ⟨2, ![1, 128]⟩

abbrev nBuf : Space → Nat
  | .hbm => 87
  | .vmem => 20
  | .smem => 0
  | _ => 0

abbrev bufTy : (tb : Table) → Fin (tcTables nBuf tb) → BufTy
  | .hbm, ⟨0, _⟩ => ⟨S2x1600000, .i32⟩
  | .hbm, ⟨1, _⟩ => ⟨S1600000, .f32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S100000, .f32⟩
  | .hbm, ⟨41, _⟩ => ⟨S100000x1, .f32⟩
  | .hbm, ⟨42, _⟩ => ⟨S100000x128, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S1600000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .bf16⟩
  | .hbm, ⟨64, _⟩ => ⟨S100000x128, .bf16⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .bf16⟩
  | .hbm, ⟨74, _⟩ => ⟨S1600000x128, .f32⟩
  | .hbm, ⟨75, _⟩ => ⟨S1600000x1, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .bf16⟩
  | .hbm, ⟨86, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S10000x128, .bf16⟩
  | .local _ .vmem, ⟨8, _⟩ => ⟨S10000x128, .bf16⟩
  | .local _ .vmem, ⟨9, _⟩ => ⟨S128, .f32⟩
  | .local _ .vmem, ⟨10, _⟩ => ⟨S128x128, .f32⟩
  | .local _ .vmem, ⟨11, _⟩ => ⟨S10000x128, .bf16⟩
  | .local _ .vmem, ⟨12, _⟩ => ⟨S10000x128, .bf16⟩
  | .local _ .vmem, ⟨13, _⟩ => ⟨S10000x128, .f32⟩
  | .local _ .vmem, ⟨14, _⟩ => ⟨S10000x128, .f32⟩
  | .local _ .vmem, ⟨15, _⟩ => ⟨S10000x128, .bf16⟩
  | .local _ .vmem, ⟨16, _⟩ => ⟨S10000x128, .bf16⟩
  | .local _ .vmem, ⟨17, _⟩ => ⟨S128, .f32⟩
  | .local _ .vmem, ⟨18, _⟩ => ⟨S10000x128, .f32⟩
  | .local _ .vmem, ⟨19, _⟩ => ⟨S10000x128, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .bf16 = 32 ∨ (Rect.block (s := S100000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .bf16 = 32 ∨ (Rect.block (s := S100000x128) S10000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .bf16 = 32 ∨ (Rect.block (s := S100000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg2) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v61) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x1600000 : Shape := ⟨2, ![2, 1600000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 126
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S1600000, .f32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000, .i32⟩
  | .hbm, ⟨72, _⟩ => ⟨S1700000, .i32⟩
  | .hbm, ⟨73, _⟩ => ⟨S1700000, .i32⟩
  | .hbm, ⟨74, _⟩ => ⟨S_, .f32⟩
  | .hbm, ⟨75, _⟩ => ⟨S1700000, .f32⟩
  | .hbm, ⟨76, _⟩ => ⟨S_, .f32⟩
  | .hbm, ⟨77, _⟩ => ⟨S100000, .f32⟩
  | .hbm, ⟨78, _⟩ => ⟨S1700000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .i1⟩
  | .hbm, ⟨83, _⟩ => ⟨S100000, .f32⟩
  | .hbm, ⟨84, _⟩ => ⟨S_, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000, .f32⟩
  | .hbm, ⟨106, _⟩ => ⟨S1700000, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x128, .f32⟩
  | .hbm, ⟨116, _⟩ => ⟨S1700000x1, .f32⟩
  | .hbm, ⟨117, _⟩ => ⟨S1700000x128, .f32⟩
  | .hbm, ⟨118, _⟩ => ⟨S1700000x128, .f32⟩
  | .hbm, ⟨119, _⟩ => ⟨S_, .f32⟩
  | .hbm, ⟨120, _⟩ => ⟨S100000x128, .f32⟩
  | .hbm, ⟨121, _⟩ => ⟨S1700000x1, .i32⟩
  | .hbm, ⟨122, _⟩ => ⟨S100000x128, .f32⟩
  | .hbm, ⟨123, _⟩ => ⟨S1x128, .f32⟩
  | .hbm, ⟨124, _⟩ => ⟨S100000x128, .f32⟩
  | .hbm, ⟨125, _⟩ => ⟨S100000x128, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The idealized kernel's run with every buffer named: every weakly fair execution of the program terminates,
  nothing faulting, and in the final memory each unscoped buffer of every core holds the contents the last segment
  boundary assigns it — the fold of the three host stretches and the three pipelines' write-backs from the launch
  memory.  In particular the program's result array is read there, and through it the last pipeline's output
  blocks.
-/
import proofs.«164795_j30382598652232_2_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program runs to the end, and every unscoped buffer of every core then
    holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Gcn.KRun

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.K0.lean ====
/-
  The first pipeline: node features times a weight matrix, ten row blocks of 10000 nodes.

  At grid point `t` the body loads rows `10000·t … 10000·t + 9999` of the feature array and the whole 128×128
  weight matrix, multiplies them into a zero accumulator, and stores the product as block `t` of the output.
  Row `p` of a block's product depends only on row `p` of the block, so block `t` of the output is block `t`
  of the product of the WHOLE arrays, and the ten blocks tile the output: after the pipeline the output array is
  `(X · W)(i, f) = ∑ c, X(i, c) · W(c, f)` of the arrays as the pipeline found them.
-/
import proofs.«164795_j30382598652232_2_alg».proof.Proof.Gen.KernelIdeal.Frame
import proofs.«164795_j30382598652232_2_alg».proof.Proof.LibPlainMatmul
import Idealize.ShloMosaic.Lib.Pipeline.Value
import Idealize.ShloMosaic.Lib.ValueIdx

set_option maxRecDepth 16384

noncomputable section

namespace Cert.Gcn.K0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The dense product of whole arrays, entry by entry. -/
def prod (X : S100000x128.Idx → EReal) (W : S128x128.Idx → EReal) : S100000x128.Idx → EReal :=
  fun i => ∑ c : Fin 128, X (ix2 (i 0) c) * W (ix2 c (i 1))

theorem hz : (![0, 0] : Fin 2 → Nat) = fun _ => 0 := funext fun a => by fin_cases a <;> rfl

/-- The body's stored value at an entry of the block: the row of the loaded feature block against the column of
    the loaded weights (a change of float format is the identity on exact values). -/
theorem pay_apply (x0 : Vec Ideal S10000x128 .f32) (x1 : Vec Ideal S128x128 .f32) (j : S10000x128.Idx) :
    k0_pay1 x0 x1 j = ∑ c : Fin 128, x0 (ix2 (j 0) c) * x1 (ix2 c (j 1)) := by
  obtain ⟨p, q, rfl⟩ : ∃ (p : Fin 10000) (q : Fin 128), j = ix2 p q := ⟨j 0, j 1, eq_ix2 j⟩
  unfold k0_pay1
  exact matmul_plain_zero_apply (m := 10000) (k := 128) (n := 128) (φ₁ := .bf16) (φ₂ := .bf16) none
    (truncf .bf16 x0 bitsLt_bf16_f32) (truncf .bf16 x1 bitsLt_bf16_f32) p q

/-- The printed index maps over the ten points: the feature and output windows sit at row block `t`, column
    block 0; the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point `t` writes back is block `t` of the product of the whole arrays. -/
theorem flushed_eq (c : Dev nD) (t : Fin cfg0.N) :
    (dat0 V c).flushed 2 t
      = ((cfg0.win 2).blk t).view.read (Elt Ideal) (prod (V c main_arg2) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  show k0_pay1 (iblk0 V c 0 t) (iblk0 V c 1 t) j = prod (V c main_arg2) (V c main_arg3) (((cfg0.win 2).blk t).view.emb j)
  refine (pay_apply (iblk0 V c 0 t) (iblk0 V c 1 t) j).trans ?_
  unfold prod
  refine Finset.sum_congr rfl fun k _ => ?_
  have h0 : iblk0 V c 0 t (ix2 (j 0) k) = V c main_arg2 (ix2 ((((cfg0.win 2).blk t).view.emb j) 0) k) := by
    show V c main_arg2 (((cfg0.win 0).blk t).view.emb (ix2 (j 0) k)) = _
    congr 1
    funext a; apply Fin.ext
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  have h1 : iblk0 V c 1 t (ix2 k (j 1)) = V c main_arg3 (ix2 k ((((cfg0.win 2).blk t).view.emb j) 1)) := by
    show V c main_arg3 (((cfg0.win 1).blk t).view.emb (ix2 k (j 1))) = _
    congr 1
    funext a; apply Fin.ext
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega
  rw [h0, h1]

/-- An index of the output array is in point `t`'s block iff each coordinate is in the block's range. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v28).slice (win0_2.rect t)).set ↔ _
  rw [View.set_slice_whole, Rect.mem_set_unit]
  exact Iff.rfl

/-- The ten blocks cover the output: row `r` is in block `r / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e0, e1, e2, e3, e4, e5⟩ := idx_facts t
  refine ⟨t, flush0_2 t, ?_⟩
  rw [mem_blk]
  intro a
  have ht : t.val = (i 0).val / 10000 := rfl
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- THE OUTPUT ARRAY after the pipeline: the product of the arrays as the pipeline found them. -/
theorem final (c : Dev nD) :
    (dat0 V c).arrAt 2 cfg0.N = prod (V c main_arg2) (V c main_arg3) :=
  (dat0 V c).arrAt_eq_of_cover 2 (prod (V c main_arg2) (V c main_arg3)) (fun t _ => flushed_eq V c t) (cover)

end

end Cert.Gcn.K0

end
-- ==== Proof.K2.lean ====
/-
  The third pipeline: aggregated messages plus self-loop messages plus the bias, ten row blocks of 10000 nodes.

  At grid point `t` the body loads block `t` of the aggregate and of the self term and the whole bias vector,
  and stores `(agg + self) + bias`, the bias repeated down the rows, as block `t` of the output.  The operation
  is entry by entry, so block `t` of the output is block `t` of the same expression of the WHOLE arrays, and
  the ten blocks tile the output.
-/
import proofs.«164795_j30382598652232_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.Gcn.K2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- Aggregate plus self term plus the bias of the entry's feature, over whole arrays. -/
def biased (A : S100000x128.Idx → EReal) (Sf : S100000x128.Idx → EReal) (b : S128.Idx → EReal) :
    S100000x128.Idx → EReal :=
  fun i => (A i + Sf i) + b (ix1 (i 1))

theorem hz : (![0, 0] : Fin 2 → Nat) = fun _ => 0 := funext fun a => by fin_cases a <;> rfl
theorem hz1 : (![0] : Fin 1 → Nat) = fun _ => 0 := funext fun a => by fin_cases a <;> rfl

/-- The bias vector laid out as one row and repeated down a block's rows reads, at `(p, q)`, the bias of
    feature `q`. -/
theorem biasRow_apply (v6 : Vec Ideal S128 .f32) (p : Fin 10000) (q : Fin 128) :
    broadcastTo S10000x128 (shapeCast S1x128 v6 shapeCasts_S128_S1x128) broadcasts_S1x128_S10000x128 (ix2 p q)
      = v6 (ix1 q) :=
  (broadcastTo_1b_ab_apply (a := 10000) (b := 128) _ broadcasts_S1x128_S10000x128 p q).trans
    (shapeCast_a_1a_apply (a := 128) v6 shapeCasts_S128_S1x128 0 q)

/-- The body's stored value at an entry of the block (a cast to the same shape and a change of float format
    are the identity on exact values). -/
theorem pay_apply (v0 : Vec Ideal S10000x128 .f32) (v2 : Vec Ideal S10000x128 .bf16) (v6 : Vec Ideal S128 .f32)
    (j : S10000x128.Idx) : k2_pay1 v0 v2 v6 j = (v0 j + v2 j) + v6 (ix1 (j 1)) := by
  obtain ⟨p, q, rfl⟩ : ∃ (p : Fin 10000) (q : Fin 128), j = ix2 p q := ⟨j 0, j 1, eq_ix2 j⟩
  have e1 : shapeCast S10000x128 v0 shapeCasts_S10000x128_S10000x128 = v0 := shapeCast_self _ _
  have e2 : shapeCast S10000x128 v2 shapeCasts_S10000x128_S10000x128 = v2 := shapeCast_self _ _
  have e3 := biasRow_apply v6 p q
  show (shapeCast S10000x128 v0 shapeCasts_S10000x128_S10000x128 (ix2 p q)
      + shapeCast S10000x128 v2 shapeCasts_S10000x128_S10000x128 (ix2 p q))
      + broadcastTo S10000x128 (shapeCast S1x128 v6 shapeCasts_S128_S1x128) broadcasts_S1x128_S10000x128 (ix2 p q) = _
  rw [e1, e2, e3]

/-- The printed index maps over the ten points: aggregate, self term and output at row block `t`, column block
    0; the bias at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- What point `t` writes back is block `t` of the biased sum of the whole arrays. -/
theorem flushed_eq (c : Dev nD) (t : Fin cfg2.N) :
    (dat2 V c).flushed 3 t
      = ((cfg2.win 3).blk t).view.read (Elt Ideal) (biased (V c main_v61) (V c main_v65) (V c main_arg6)) := by
  show (cfg2.win 3).cut (grid2.coords t) ((dat2 V c).after 3 t) = _
  rw [after2_3]
  unfold out2_3
  rw [View.canon_unit_zero hz]
  simp only [View.ld_unit_zero (S := S10000x128) hz, View.ld_unit_zero (S := S128) hz1]
  obtain ⟨e0, e1, e2, e3, e4, e5, e6⟩ := idx_facts t
  funext j
  show k2_pay1 (iblk2 V c 0 t) (iblk2 V c 1 t) (iblk2 V c 2 t) j
    = biased (V c main_v61) (V c main_v65) (V c main_arg6) (((cfg2.win 3).blk t).view.emb j)
  refine (pay_apply (iblk2 V c 0 t) (iblk2 V c 1 t) (iblk2 V c 2 t) j).trans ?_
  unfold biased
  have h0 : iblk2 V c 0 t j = V c main_v61 (((cfg2.win 3).blk t).view.emb j) := by
    show V c main_v61 (((cfg2.win 0).blk t).view.emb j) = _
    rfl
  have h1 : iblk2 V c 1 t j = V c main_v65 (((cfg2.win 3).blk t).view.emb j) := by
    show V c main_v65 (((cfg2.win 1).blk t).view.emb j) = _
    rfl
  have h2 : iblk2 V c 2 t (ix1 (j 1)) = V c main_arg6 (ix1 ((((cfg2.win 3).blk t).view.emb j) 1)) := by
    show V c main_arg6 (((cfg2.win 2).blk t).view.emb (ix1 (j 1))) = _
    congr 1
    funext a; apply Fin.ext
    match a with
    | ⟨0, _⟩ =>
      show win2_2.index t (0 : Fin 1) * 128 + 1 * (j 1).val = win2_3.index t (1 : Fin 2) * 128 + 1 * (j 1).val
      omega
  rw [h0, h1, h2]

/-- An index of the output array is in point `t`'s block iff each coordinate is in the block's range. -/
theorem mem_blk (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v66).slice (win2_3.rect t)).set ↔ _
  rw [View.set_slice_whole, Rect.mem_set_unit]
  exact Iff.rfl

/-- The ten blocks cover the output: row `r` is in block `r / 10000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨e0, e1, e2, e3, e4, e5, e6⟩ := idx_facts t
  refine ⟨t, flush2_3 t, ?_⟩
  rw [mem_blk]
  intro a
  have ht : t.val = (i 0).val / 10000 := rfl
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 128 ≤ (i 1).val ∧ (i 1).val < win2_3.index t (1 : Fin 2) * 128 + 128
    omega

/-- THE OUTPUT ARRAY after the pipeline: the biased sum of the arrays as the pipeline found them. -/
theorem final (c : Dev nD) :
    (dat2 V c).arrAt 3 cfg2.N = biased (V c main_v61) (V c main_v65) (V c main_arg6) :=
  (dat2 V c).arrAt_eq_of_cover 3 (biased (V c main_v61) (V c main_v65) (V c main_arg6))
    (fun t _ => flushed_eq V c t) (cover)

end

end Cert.Gcn.K2

end
-- ==== Proof.K1.lean ====
/-
  The second pipeline: the first layer's activation times the second weight matrix, ten row blocks of 10000 nodes.

  At grid point `t` the body loads block `t` of the first layer's aggregate and self term, the whole bias vector
  and the whole 128×128 weight matrix; forms `relu ((agg + self) + bias)`, the bias repeated down the rows;
  multiplies it with the weights into a zero accumulator; and stores the product as block `t` of the output.
  Row `p` of the product depends only on row `p` of the block, so block `t` of the output is block `t` of
  the same expression of the WHOLE arrays, and the ten blocks tile the output.
-/
import proofs.«164795_j30382598652232_2_alg».proof.Proof.Gen.KernelIdeal.Frame
import proofs.«164795_j30382598652232_2_alg».proof.Proof.LibPlainMatmul
import proofs.«164795_j30382598652232_2_alg».proof.Proof.K2
import Idealize.ShloMosaic.Lib.Pipeline.Value
import Idealize.ShloMosaic.Lib.ValueIdx

set_option maxRecDepth 16384

noncomputable section

namespace Cert.Gcn.K1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- `relu ((A + Sf) + b)` times `W`, over whole arrays, entry by entry. -/
def reluProd (A : S100000x128.Idx → EReal) (Sf : S100000x128.Idx → EReal) (b : S128.Idx → EReal)
    (W : S128x128.Idx → EReal) : S100000x128.Idx → EReal :=
  fun i => ∑ c : Fin 128,
    max ((A (ix2 (i 0) c) + Sf (ix2 (i 0) c)) + b (ix1 c)) (Ideal.ofBits .f32 0x00000000#32) * W (ix2 c (i 1))

/-- The body's stored value at an entry of the block: the activated row against the weights' column. -/
theorem pay_apply (v0 : Vec Ideal S10000x128 .f32) (v2 : Vec Ideal S10000x128 .bf16) (v6 : Vec Ideal S128 .f32)
    (v13 : Vec Ideal S128x128 .f32) (j : S10000x128.Idx) :
    k1_pay1 v0 v2 v6 v13 j = ∑ c : Fin 128,
      max ((v0 (ix2 (j 0) c) + v2 (ix2 (j 0) c)) + v6 (ix1 c)) (Ideal.ofBits .f32 0x00000000#32)
        * v13 (ix2 c (j 1)) := by
  obtain ⟨p, q, rfl⟩ : ∃ (p : Fin 10000) (q : Fin 128), j = ix2 p q := ⟨j 0, j 1, eq_ix2 j⟩
  have h := matmul_plain_zero_apply (m := 10000) (k := 128) (n := 128) (φ₁ := .bf16) (φ₂ := .bf16) none
    (truncf .bf16 (maximumf (k2_pay1 v0 v2 v6) (broadcast S10000x128 (Scalar.ofBits .f32 0x00000000#32)))
      bitsLt_bf16_f32) (truncf .bf16 v13 bitsLt_bf16_f32) p q
  refine Eq.trans h (Finset.sum_congr rfl fun c _ => ?_)
  show max (k2_pay1 v0 v2 v6 (ix2 p c)) (Ideal.ofBits .f32 0x00000000#32) * v13 (ix2 c q) = _
  rw [K2.pay_apply]

/-- The printed index maps over the ten points: aggregate, self term and output at row block `t`, column block
    0; the bias at block 0; the weights at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- What point `t` writes back is block `t` of the activated product of the whole arrays. -/
theorem flushed_eq (c : Dev nD) (t : Fin cfg1.N) :
    (dat1 V c).flushed 4 t = ((cfg1.win 4).blk t).view.read (Elt Ideal)
      (reluProd (V c main_v42) (V c main_v46) (V c main_arg4) (V c main_arg5)) := by
  show (cfg1.win 4).cut (grid1.coords t) ((dat1 V c).after 4 t) = _
  rw [after1_4]
  unfold out1_4
  rw [View.canon_unit_zero K2.hz]
  simp only [View.ld_unit_zero (S := S10000x128) K2.hz, View.ld_unit_zero (S := S128) K2.hz1,
    View.ld_unit_zero (S := S128x128) K2.hz]
  obtain ⟨e0, e1, e2, e3, e4, e5, e6, e7, e8⟩ := idx_facts t
  funext j
  show k1_pay1 (iblk1 V c 0 t) (iblk1 V c 1 t) (iblk1 V c 2 t) (iblk1 V c 3 t) j
    = reluProd (V c main_v42) (V c main_v46) (V c main_arg4) (V c main_arg5) (((cfg1.win 4).blk t).view.emb j)
  refine (pay_apply (iblk1 V c 0 t) (iblk1 V c 1 t) (iblk1 V c 2 t) (iblk1 V c 3 t) j).trans ?_
  unfold reluProd
  refine Finset.sum_congr rfl fun k _ => ?_
  have h0 : iblk1 V c 0 t (ix2 (j 0) k) = V c main_v42 (ix2 ((((cfg1.win 4).blk t).view.emb j) 0) k) := by
    show V c main_v42 (((cfg1.win 0).blk t).view.emb (ix2 (j 0) k)) = _
    congr 1
    funext a; apply Fin.ext
    match a with
    | ⟨0, _⟩ =>
      show win1_0.index t (0 : Fin 2) * 10000 + 1 * (j 0).val = win1_4.index t (0 : Fin 2) * 10000 + 1 * (j 0).val
      omega
    | ⟨1, _⟩ =>
      show win1_0.index t (1 : Fin 2) * 128 + 1 * k.val = k.val
      omega
  have h1 : iblk1 V c 1 t (ix2 (j 0) k) = V c main_v46 (ix2 ((((cfg1.win 4).blk t).view.emb j) 0) k) := by
    show V c main_v46 (((cfg1.win 1).blk t).view.emb (ix2 (j 0) k)) = _
    congr 1
    funext a; apply Fin.ext
    match a with
    | ⟨0, _⟩ =>
      show win1_1.index t (0 : Fin 2) * 10000 + 1 * (j 0).val = win1_4.index t (0 : Fin 2) * 10000 + 1 * (j 0).val
      omega
    | ⟨1, _⟩ =>
      show win1_1.index t (1 : Fin 2) * 128 + 1 * k.val = k.val
      omega
  have h2 : iblk1 V c 2 t (ix1 k) = V c main_arg4 (ix1 k) := by
    show V c main_arg4 (((cfg1.win 2).blk t).view.emb (ix1 k)) = _
    congr 1
    funext a; apply Fin.ext
    match a with
    | ⟨0, _⟩ =>
      show win1_2.index t (0 : Fin 1) * 128 + 1 * k.val = k.val
      omega
  have h3 : iblk1 V c 3 t (ix2 k (j 1)) = V c main_arg5 (ix2 k ((((cfg1.win 4).blk t).view.emb j) 1)) := by
    show V c main_arg5 (((cfg1.win 3).blk t).view.emb (ix2 k (j 1))) = _
    congr 1
    funext a; apply Fin.ext
    match a with
    | ⟨0, _⟩ =>
      show win1_3.index t (0 : Fin 2) * 128 + 1 * k.val = k.val
      omega
    | ⟨1, _⟩ =>
      show win1_3.index t (1 : Fin 2) * 128 + 1 * (j 1).val = win1_4.index t (1 : Fin 2) * 128 + 1 * (j 1).val
      omega
  rw [h0, h1, h2, h3]

/-- An index of the output array is in point `t`'s block iff each coordinate is in the block's range. -/
theorem mem_blk (t : Fin cfg1.N) (i : S100000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_v47).slice (win1_4.rect t)).set ↔ _
  rw [View.set_slice_whole, Rect.mem_set_unit]
  exact Iff.rfl

/-- The ten blocks cover the output: row `r` is in block `r / 10000`. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨e0, e1, e2, e3, e4, e5, e6, e7, e8⟩ := idx_facts t
  refine ⟨t, flush1_4 t, ?_⟩
  rw [mem_blk]
  intro a
  have ht : t.val = (i 0).val / 10000 := rfl
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 128 ≤ (i 1).val ∧ (i 1).val < win1_4.index t (1 : Fin 2) * 128 + 128
    omega

/-- THE OUTPUT ARRAY after the pipeline: the activated product of the arrays as the pipeline found them. -/
theorem final (c : Dev nD) :
    (dat1 V c).arrAt 4 cfg1.N = reluProd (V c main_v42) (V c main_v46) (V c main_arg4) (V c main_arg5) :=
  (dat1 V c).arrAt_eq_of_cover 4 (reluProd (V c main_v42) (V c main_v46) (V c main_arg4) (V c main_arg5))
    (fun t _ => flushed_eq V c t) (cover)

end

end Cert.Gcn.K1

end
-- ==== Proof.KTerms.lean ====
/-
  The host stretches of the idealized kernel as whole-array terms, and the kernel's result as one composite.

  Between the three pipelines the program computes, by host operations on whole arrays: the edges' source and
  target words (two rows of the edge array); the degree (a scatter-add of ones over the target words, plus one),
  `dis = deg ^ (-1/2)`, the edge weights `dis[source] · dis[target]` (gathers at the wrapped words) and the
  column `dis²`; and, once per layer, the aggregate (gather the source rows of the layer's features, scale each
  row by its edge weight, scatter-add the rows over the target words) and the self term (`dis²` times the
  features).  Each is named here as the composition of the operations the program applies.  `kernelOut` chains
  them with the three pipelines' whole-array functions: product, aggregate and self term, activated product,
  aggregate and self term, biased sum.
-/
import proofs.«164795_j30382598652232_2_alg».proof.Proof.Gen.KernelIdeal.Frame
import proofs.«164795_j30382598652232_2_alg».proof.Proof.K0
import proofs.«164795_j30382598652232_2_alg».proof.Proof.K1
import proofs.«164795_j30382598652232_2_alg».proof.Proof.K2

noncomputable section

namespace Cert.Gcn.KHost

open Cert.KernelIdeal Cert.KernelIdeal.Gen
open Idealize.ShloMosaic Idealize.ShloMosaic.TcCoe

/-! ## The terms -/

/-- Row `r` of the `[2, 1600000]` edge array as a vector of words. -/
def srcV (x0 : IVec S2x1600000 32) : IVec S1600000 32 :=
  shapeCast S1600000 (extractStridedSlice S1x1600000 ![0, 0] x0 slices_S2x1600000_S1x1600000_0_0)
    shapeCasts_S1x1600000_S1600000
def dstV (x0 : IVec S2x1600000 32) : IVec S1600000 32 :=
  shapeCast S1600000 (extractStridedSlice S1x1600000 ![1, 0] x0 slices_S2x1600000_S1x1600000_1_0)
    shapeCasts_S1x1600000_S1600000

/-- The wrapped words: a negative word gets the node count added. -/
def wrapV (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- A vector over the edges laid out as a column. -/
def colV {α : Type} (v : S1600000.Idx → α) : S1600000x1.Idx → α :=
  broadcastInDim S1600000x1 ![0] bcast_S1600000_S1600000x1_0 v

/-- The degree: ones scattered over the target words into zeros, plus one. -/
def degV (d : IVec S1600000 32) : FVec Ideal S100000 .f32 :=
  addf (Host.scatterAdd scatter_S100000_S1600000x1_S1600000_n_0_0_1
      (broadcastInDim S100000 ![] bcast_S_S100000 (constant S_ .f32 0x00000000#32)) (colV d)
      (broadcastInDim S1600000 ![] bcast_S_S1600000 (constant S_ .f32 0x3F800000#32)))
    (broadcastInDim S100000 ![] bcast_S_S100000 (constant S_ .f32 0x3F800000#32))

def disV (d : IVec S1600000 32) : FVec Ideal S100000 .f32 := Host.rsqrt (degV d)

/-- The edge weights. -/
def nrmV (s d : IVec S1600000 32) : FVec Ideal S1600000 .f32 :=
  mulf (Host.gather gather_S100000_S1600000x1_S1600000_n_0_n_n_0_1_1 (disV d) (colV (wrapV s)))
    (Host.gather gather_S100000_S1600000x1_S1600000_n_0_n_n_0_1_1 (disV d) (colV (wrapV d)))

/-- The column `dis²`. -/
def dis2V (d : IVec S1600000 32) : FVec Ideal S100000x1 .f32 :=
  broadcastInDim S100000x1 ![0] bcast_S100000_S100000x1_0 (mulf (disV d) (disV d))

/-- A layer's aggregate of the features `h`. -/
def aggV (h : FVec Ideal S100000x128 .bf16) (s d : IVec S1600000 32) (n : FVec Ideal S1600000 .f32) :
    FVec Ideal S100000x128 .f32 :=
  Host.scatterAdd scatter_S100000x128_S1600000x1_S1600000x128_1_0_0_1
    (broadcastInDim S100000x128 ![] bcast_S_S100000x128 (constant S_ .f32 0x00000000#32)) (colV d)
    (mulf (extf .f32 (Host.gather gather_S100000x128_S1600000x1_S1600000x128_1_0_n_n_0_1_1128 h (colV (wrapV s)))
        bitsLt_bf16_f32)
      (broadcastInDim S1600000x128 ![0, 1] bcast_S1600000x1_S1600000x128_0_1 (colV n)))

/-- A layer's self term of the features `h`. -/
def selfV (d2 : FVec Ideal S100000x1 .f32) (h : FVec Ideal S100000x128 .bf16) : FVec Ideal S100000x128 .bf16 :=
  truncf .bf16 (mulf (broadcastInDim S100000x128 ![0, 1] bcast_S100000x1_S100000x128_0_1 d2)
    (extf .f32 h bitsLt_bf16_f32)) bitsLt_bf16_f32

/-! ## The kernel's result -/

/-- The program's result array as one function of its argument arrays. -/
def kernelOut (x0 : IVec S2x1600000 32) (emb : FVec Ideal S100000x128 .f32) (W1 : FVec Ideal S128x128 .f32)
    (b1 : FVec Ideal S128 .f32) (W2 : FVec Ideal S128x128 .f32) (b2 : FVec Ideal S128 .f32) :
    FVec Ideal S100000x128 .f32 :=
  let s := srcV x0
  let d := dstV x0
  let n := nrmV s d
  let d2 := dis2V d
  let h1 : FVec Ideal S100000x128 .bf16 := K0.prod emb W1
  let h2 : FVec Ideal S100000x128 .bf16 := K1.reluProd (aggV h1 s d n) (selfV d2 h1) b1 W2
  K2.biased (aggV h2 s d n) (selfV d2 h2) b2

end Cert.Gcn.KHost

end
-- ==== Proof.KValue.lean ====
/-
  The idealized kernel's result array as one function of its argument arrays.

  The program is three pipelines among three stretches of host operations.  The buffer contents at each boundary
  are a fold from the launch memory: a stretch rewrites the buffers its operations write, each to its operation's
  function of buffers written before, and leaves every other buffer alone; a pipeline leaves in its output array
  what its write-backs cover it with and leaves alone every buffer it has no window on.  Read at the result
  buffer, the fold is: the first stretch's index words, edge weights and squared `dis` column; the first pipeline's
  product; the second stretch's aggregate and self term of it; the second pipeline's activated product; the third
  stretch's aggregate and self term of that; the third pipeline's biased sum.
-/
import proofs.«164795_j30382598652232_2_alg».proof.Proof.Gen.KernelIdeal.Frame
import proofs.«164795_j30382598652232_2_alg».proof.Proof.KTerms
import Idealize.ShloMosaic.Lib.StableHlo.Run

set_option maxRecDepth 16384

noncomputable section

namespace Cert.Gcn.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## A buffer a stretch does not write keeps its contents across it -/

/-- Across the first stretch. -/
local macro "keep0 " b:term : tactic => `(tactic|
  exact StableHlo.after_of_forall_not_mem (b := Proc.devRef .tc $b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-- Across the second stretch. -/
local macro "keep1 " b:term : tactic => `(tactic|
  exact StableHlo.after_of_forall_not_mem (b := Proc.devRef .tc $b) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-- Across the third stretch. -/
local macro "keep2 " b:term : tactic => `(tactic|
  exact StableHlo.after_of_forall_not_mem (b := Proc.devRef .tc $b) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## After the first stretch -/

/-- The source words. -/
theorem W1_v1 : W1 m ρ c (Proc.devRef .tc main_v1) = KHost.srcV (m ((c : Thread nD τ).loc main_arg0)) := by
  show StableHlo.after hostOps0 (W0 m ρ c) (Proc.devRef .tc main_v1) = _
  after_results
  rfl

/-- The target words. -/
theorem W1_v3 : W1 m ρ c (Proc.devRef .tc main_v3) = KHost.dstV (m ((c : Thread nD τ).loc main_arg0)) := by
  show StableHlo.after hostOps0 (W0 m ρ c) (Proc.devRef .tc main_v3) = _
  after_results
  rfl

set_option maxHeartbeats 1600000 in
/-- The edge weights. -/
theorem W1_v25 : W1 m ρ c (Proc.devRef .tc main_v25)
    = KHost.nrmV (KHost.srcV (m ((c : Thread nD τ).loc main_arg0))) (KHost.dstV (m ((c : Thread nD τ).loc main_arg0))) := by
  show StableHlo.after hostOps0 (W0 m ρ c) (Proc.devRef .tc main_v25) = _
  after_results_simp
  rfl

/-- The column of squared `dis`. -/
theorem W1_v27 : W1 m ρ c (Proc.devRef .tc main_v27) = KHost.dis2V (KHost.dstV (m ((c : Thread nD τ).loc main_arg0))) := by
  show StableHlo.after hostOps0 (W0 m ρ c) (Proc.devRef .tc main_v27) = _
  after_results
  rfl

/-! The first stretch writes no argument. -/
theorem W1_arg2 : W1 m ρ c (Proc.devRef .tc main_arg2) = m ((c : Thread nD τ).loc main_arg2) :=
  (show W1 m ρ c (Proc.devRef .tc main_arg2) = W0 m ρ c (Proc.devRef .tc main_arg2) by keep0 main_arg2).trans rfl
theorem W1_arg3 : W1 m ρ c (Proc.devRef .tc main_arg3) = m ((c : Thread nD τ).loc main_arg3) :=
  (show W1 m ρ c (Proc.devRef .tc main_arg3) = W0 m ρ c (Proc.devRef .tc main_arg3) by keep0 main_arg3).trans rfl
theorem W1_arg4 : W1 m ρ c (Proc.devRef .tc main_arg4) = m ((c : Thread nD τ).loc main_arg4) :=
  (show W1 m ρ c (Proc.devRef .tc main_arg4) = W0 m ρ c (Proc.devRef .tc main_arg4) by keep0 main_arg4).trans rfl
theorem W1_arg5 : W1 m ρ c (Proc.devRef .tc main_arg5) = m ((c : Thread nD τ).loc main_arg5) :=
  (show W1 m ρ c (Proc.devRef .tc main_arg5) = W0 m ρ c (Proc.devRef .tc main_arg5) by keep0 main_arg5).trans rfl
theorem W1_arg6 : W1 m ρ c (Proc.devRef .tc main_arg6) = m ((c : Thread nD τ).loc main_arg6) :=
  (show W1 m ρ c (Proc.devRef .tc main_arg6) = W0 m ρ c (Proc.devRef .tc main_arg6) by keep0 main_arg6).trans rfl

/-! ## After the first pipeline: its product in its output array, every other buffer as entered -/

theorem W2_v28 : W2 m ρ c (Proc.devRef .tc main_v28) = K0.prod (m ((c : Thread nD τ).loc main_arg2)) (m ((c : Thread nD τ).loc main_arg3)) := by
  have h2 : V1 m ρ c main_arg2 = m ((c : Thread nD τ).loc main_arg2) := W1_arg2 m ρ c
  have h3 : V1 m ρ c main_arg3 = m ((c : Thread nD τ).loc main_arg3) := W1_arg3 m ρ c
  have h := (W2_arr m ρ c 2).trans (K0.final (V1 m ρ) c)
  rw [h2, h3] at h
  exact h

theorem W2_v1 : W2 m ρ c (Proc.devRef .tc main_v1) = KHost.srcV (m ((c : Thread nD τ).loc main_arg0)) :=
  (W2_of_ne m ρ c main_v1 (by decide)).trans (W1_v1 m ρ c)
theorem W2_v3 : W2 m ρ c (Proc.devRef .tc main_v3) = KHost.dstV (m ((c : Thread nD τ).loc main_arg0)) :=
  (W2_of_ne m ρ c main_v3 (by decide)).trans (W1_v3 m ρ c)
theorem W2_v25 : W2 m ρ c (Proc.devRef .tc main_v25)
    = KHost.nrmV (KHost.srcV (m ((c : Thread nD τ).loc main_arg0))) (KHost.dstV (m ((c : Thread nD τ).loc main_arg0))) :=
  (W2_of_ne m ρ c main_v25 (by decide)).trans (W1_v25 m ρ c)
theorem W2_v27 : W2 m ρ c (Proc.devRef .tc main_v27) = KHost.dis2V (KHost.dstV (m ((c : Thread nD τ).loc main_arg0))) :=
  (W2_of_ne m ρ c main_v27 (by decide)).trans (W1_v27 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)

/-! ## After the second stretch: the first layer's aggregate and self term -/

set_option maxHeartbeats 1600000 in
theorem W3_v42 : W3 m ρ c (Proc.devRef .tc main_v42)
    = KHost.aggV (W2 m ρ c (Proc.devRef .tc main_v28)) (W2 m ρ c (Proc.devRef .tc main_v1))
        (W2 m ρ c (Proc.devRef .tc main_v3)) (W2 m ρ c (Proc.devRef .tc main_v25)) := by
  show StableHlo.after hostOps1 (W2 m ρ c) (Proc.devRef .tc main_v42) = _
  after_results_simp
  rfl

theorem W3_v46 : W3 m ρ c (Proc.devRef .tc main_v46)
    = KHost.selfV (W2 m ρ c (Proc.devRef .tc main_v27)) (W2 m ρ c (Proc.devRef .tc main_v28)) := by
  show StableHlo.after hostOps1 (W2 m ρ c) (Proc.devRef .tc main_v46) = _
  after_results
  rfl

theorem W3_v1 : W3 m ρ c (Proc.devRef .tc main_v1) = KHost.srcV (m ((c : Thread nD τ).loc main_arg0)) :=
  (show W3 m ρ c (Proc.devRef .tc main_v1) = W2 m ρ c (Proc.devRef .tc main_v1) by keep1 main_v1).trans (W2_v1 m ρ c)
theorem W3_v3 : W3 m ρ c (Proc.devRef .tc main_v3) = KHost.dstV (m ((c : Thread nD τ).loc main_arg0)) :=
  (show W3 m ρ c (Proc.devRef .tc main_v3) = W2 m ρ c (Proc.devRef .tc main_v3) by keep1 main_v3).trans (W2_v3 m ρ c)
theorem W3_v25 : W3 m ρ c (Proc.devRef .tc main_v25)
    = KHost.nrmV (KHost.srcV (m ((c : Thread nD τ).loc main_arg0))) (KHost.dstV (m ((c : Thread nD τ).loc main_arg0))) :=
  (show W3 m ρ c (Proc.devRef .tc main_v25) = W2 m ρ c (Proc.devRef .tc main_v25) by keep1 main_v25).trans (W2_v25 m ρ c)
theorem W3_v27 : W3 m ρ c (Proc.devRef .tc main_v27)
    = KHost.dis2V (KHost.dstV (m ((c : Thread nD τ).loc main_arg0))) :=
  (show W3 m ρ c (Proc.devRef .tc main_v27) = W2 m ρ c (Proc.devRef .tc main_v27) by keep1 main_v27).trans (W2_v27 m ρ c)
theorem W3_arg4 : W3 m ρ c (Proc.devRef .tc main_arg4) = m ((c : Thread nD τ).loc main_arg4) :=
  (show W3 m ρ c (Proc.devRef .tc main_arg4) = W2 m ρ c (Proc.devRef .tc main_arg4) by keep1 main_arg4).trans
    (W2_arg4 m ρ c)
theorem W3_arg5 : W3 m ρ c (Proc.devRef .tc main_arg5) = m ((c : Thread nD τ).loc main_arg5) :=
  (show W3 m ρ c (Proc.devRef .tc main_arg5) = W2 m ρ c (Proc.devRef .tc main_arg5) by keep1 main_arg5).trans
    (W2_arg5 m ρ c)
theorem W3_arg6 : W3 m ρ c (Proc.devRef .tc main_arg6) = m ((c : Thread nD τ).loc main_arg6) :=
  (show W3 m ρ c (Proc.devRef .tc main_arg6) = W2 m ρ c (Proc.devRef .tc main_arg6) by keep1 main_arg6).trans
    (W2_arg6 m ρ c)

/-! ## After the second pipeline: its activated product in its output array -/

theorem W4_v47 : W4 m ρ c (Proc.devRef .tc main_v47)
    = K1.reluProd (W3 m ρ c (Proc.devRef .tc main_v42)) (W3 m ρ c (Proc.devRef .tc main_v46))
        (W3 m ρ c (Proc.devRef .tc main_arg4)) (W3 m ρ c (Proc.devRef .tc main_arg5)) :=
  (W4_arr m ρ c 4).trans (K1.final (V3 m ρ) c)

theorem W4_v1 : W4 m ρ c (Proc.devRef .tc main_v1) = KHost.srcV (m ((c : Thread nD τ).loc main_arg0)) :=
  (W4_of_ne m ρ c main_v1 (by decide)).trans (W3_v1 m ρ c)
theorem W4_v3 : W4 m ρ c (Proc.devRef .tc main_v3) = KHost.dstV (m ((c : Thread nD τ).loc main_arg0)) :=
  (W4_of_ne m ρ c main_v3 (by decide)).trans (W3_v3 m ρ c)
theorem W4_v25 : W4 m ρ c (Proc.devRef .tc main_v25)
    = KHost.nrmV (KHost.srcV (m ((c : Thread nD τ).loc main_arg0))) (KHost.dstV (m ((c : Thread nD τ).loc main_arg0))) :=
  (W4_of_ne m ρ c main_v25 (by decide)).trans (W3_v25 m ρ c)
theorem W4_v27 : W4 m ρ c (Proc.devRef .tc main_v27)
    = KHost.dis2V (KHost.dstV (m ((c : Thread nD τ).loc main_arg0))) :=
  (W4_of_ne m ρ c main_v27 (by decide)).trans (W3_v27 m ρ c)
theorem W4_arg6 : W4 m ρ c (Proc.devRef .tc main_arg6) = m ((c : Thread nD τ).loc main_arg6) :=
  (W4_of_ne m ρ c main_arg6 (by decide)).trans (W3_arg6 m ρ c)

/-! ## After the third stretch: the second layer's aggregate and self term -/

set_option maxHeartbeats 1600000 in
theorem W5_v61 : W5 m ρ c (Proc.devRef .tc main_v61)
    = KHost.aggV (W4 m ρ c (Proc.devRef .tc main_v47)) (W4 m ρ c (Proc.devRef .tc main_v1))
        (W4 m ρ c (Proc.devRef .tc main_v3)) (W4 m ρ c (Proc.devRef .tc main_v25)) := by
  show StableHlo.after hostOps2 (W4 m ρ c) (Proc.devRef .tc main_v61) = _
  after_results_simp
  rfl

theorem W5_v65 : W5 m ρ c (Proc.devRef .tc main_v65)
    = KHost.selfV (W4 m ρ c (Proc.devRef .tc main_v27)) (W4 m ρ c (Proc.devRef .tc main_v47)) := by
  show StableHlo.after hostOps2 (W4 m ρ c) (Proc.devRef .tc main_v65) = _
  after_results
  rfl

theorem W5_arg6 : W5 m ρ c (Proc.devRef .tc main_arg6) = m ((c : Thread nD τ).loc main_arg6) :=
  (show W5 m ρ c (Proc.devRef .tc main_arg6) = W4 m ρ c (Proc.devRef .tc main_arg6) by keep2 main_arg6).trans
    (W4_arg6 m ρ c)

/-! ## After the third pipeline: the result -/

theorem W6_v66 : W6 m ρ c (Proc.devRef .tc main_v66)
    = K2.biased (W5 m ρ c (Proc.devRef .tc main_v61)) (W5 m ρ c (Proc.devRef .tc main_v65))
        (W5 m ρ c (Proc.devRef .tc main_arg6)) :=
  (W6_arr m ρ c 3).trans (K2.final (V5 m ρ) c)

/-- THE KERNEL'S RESULT: the result buffer after the run is `kernelOut` of the argument arrays as launched. -/
theorem value : W6 m ρ c (Proc.devRef .tc main_v66)
    = KHost.kernelOut (m ((c : Thread nD τ).loc main_arg0)) (m ((c : Thread nD τ).loc main_arg2))
        (m ((c : Thread nD τ).loc main_arg3)) (m ((c : Thread nD τ).loc main_arg4))
        (m ((c : Thread nD τ).loc main_arg5)) (m ((c : Thread nD τ).loc main_arg6)) := by
  rw [W6_v66, W5_v61, W5_v65, W5_arg6, W4_v47, W4_v1, W4_v3, W4_v25, W4_v27, W3_v42, W3_v46, W3_arg4, W3_arg5,
    W2_v28, W2_v1, W2_v3, W2_v25, W2_v27]
  rfl

end Cert.Gcn.KValue

end
-- ==== Proof.Spec.lean ====
/-
  The specification: a two-layer graph convolution with self loops and symmetric normalisation, as one function
  of the argument arrays, index by index, on the extended reals.

  Nodes are `Fin 100000`, features `Fin 128`, edges `Fin 1600000`; an edge `e` carries two 32-bit words, its
  source `s e` and its target `d e`.  A word addresses a node in two ways.  As the TARGET of a scatter-add it is
  read signed and taken as it is: edge `e` lands on node `i` exactly when `(d e).toInt = i`, and an edge whose
  word is no node lands nowhere.  As the index of a GATHER it is first wrapped (a negative word gets the node
  count added) and then clamped into the node range: `row (wrap v)`.

  With `deg i` one more than the number of edges landing on `i` (the one is the node's self loop) and
  `dis i = deg i ^ (-1/2)`, one layer sends node features `h` to
    `conv h b i f = (∑ over edges e landing on i, h (source row of e) f * (dis (source row) * dis (target row)))
                     + (dis i * dis i) * h i f + b f`,
  the middle term being the self loop's message.  The network is
    `conv (relu (conv (emb · W1) b1) · W2) b2`.
  Float literals stay the words the programs print; none is evaluated here.
-/
import Idealize.ShloMosaic.PureOps.Ideal
import Idealize.ShloMosaic.Lib.ValueIdx

noncomputable section

namespace Cert.Gcn

open Idealize.ShloMosaic Idealize.ShloMosaic.ValueIdx

/-- A negative index word gets the node count added; any other word is kept. -/
def wrap (v : BitVec 32) : BitVec 32 :=
  Scalar.select (IntOp.cmpi .slt v 0#32) (IntOp.addi v 100000#32) v

/-- The node a gather reads for the index word `v`: `v` read signed, clamped into the node range. -/
def row (v : BitVec 32) : Fin 100000 := ⟨min v.toInt.toNat (100000 - 1), by omega⟩

/-- The word of the float one, and of the float zero. -/
abbrev one : EReal := Ideal.ofBits .f32 0x3F800000#32
abbrev zero : EReal := Ideal.ofBits .f32 0x00000000#32

section
variable (s d : Fin 1600000 → BitVec 32)

/-- The edges that land on node `i`: those whose target word, read signed, is `i`. -/
def landing (i : Fin 100000) : Finset (Fin 1600000) :=
  Finset.univ.filter fun e => (d e).toInt = (i.val : Int)

/-- The degree of node `i` with its self loop: one per landing edge, plus one. -/
def deg (i : Fin 100000) : EReal := (∑ _e ∈ landing d i, one) + one

/-- `deg ^ (-1/2)`. -/
def dis (i : Fin 100000) : EReal := Ideal.rsqrt (deg d i)

/-- The weight of edge `e`: the product of `dis` at its source row and at its target row. -/
def nrm (e : Fin 1600000) : EReal := dis d (row (wrap (s e))) * dis d (row (wrap (d e)))

/-- What the edges landing on `i` bring to feature `f`. -/
def agg (h : Fin 100000 → Fin 128 → EReal) (i : Fin 100000) (f : Fin 128) : EReal :=
  ∑ e ∈ landing d i, h (row (wrap (s e))) f * nrm s d e

/-- One layer: the landing edges' messages, the self loop's message, the bias. -/
def conv (h : Fin 100000 → Fin 128 → EReal) (b : Fin 128 → EReal) (i : Fin 100000) (f : Fin 128) : EReal :=
  (agg s d h i f + dis d i * dis d i * h i f) + b f

end

/-- The dense product of node features with a weight matrix. -/
def mm (h : Fin 100000 → Fin 128 → EReal) (W : Fin 128 → Fin 128 → EReal) (i : Fin 100000) (f : Fin 128) : EReal :=
  ∑ c : Fin 128, h i c * W c f

/-- The two layers. -/
def net (s d : Fin 1600000 → BitVec 32) (emb : Fin 100000 → Fin 128 → EReal) (W1 : Fin 128 → Fin 128 → EReal)
    (b1 : Fin 128 → EReal) (W2 : Fin 128 → Fin 128 → EReal) (b2 : Fin 128 → EReal) :
    Fin 100000 → Fin 128 → EReal :=
  conv s d (mm (fun i c => max (conv s d (mm emb W1) b1 i c) zero) W2) b2

/-- The source and target words of the edges, off the `[2, 1600000]` edge array. -/
def srcOf (x0 : (⟨2, ![2, 1600000]⟩ : Shape).Idx → BitVec 32) : Fin 1600000 → BitVec 32 :=
  fun e => x0 (ix2 (0 : Fin 2) e)
def dstOf (x0 : (⟨2, ![2, 1600000]⟩ : Shape).Idx → BitVec 32) : Fin 1600000 → BitVec 32 :=
  fun e => x0 (ix2 (1 : Fin 2) e)

/-- The result array: `net` of the argument arrays, at every index. -/
def result (x0 : (⟨2, ![2, 1600000]⟩ : Shape).Idx → BitVec 32)
    (x2 : (⟨2, ![100000, 128]⟩ : Shape).Idx → EReal) (x3 : (⟨2, ![128, 128]⟩ : Shape).Idx → EReal)
    (x4 : (⟨1, ![128]⟩ : Shape).Idx → EReal) (x5 : (⟨2, ![128, 128]⟩ : Shape).Idx → EReal)
    (x6 : (⟨1, ![128]⟩ : Shape).Idx → EReal) : (⟨2, ![100000, 128]⟩ : Shape).Idx → EReal :=
  fun j => net (srcOf x0) (dstOf x0) (fun i c => x2 (ix2 i c)) (fun c f => x3 (ix2 c f)) (fun f => x4 (ix1 f))
    (fun c f => x5 (ix2 c f)) (fun f => x6 (ix1 f)) (j 0) (j 1)

end Cert.Gcn

end
-- ==== Proof.LibGatherRows.lean ====
/-
  A general lemma: `stablehlo.gather` of a flat array at a column of start indices, read at an index.

  What `x[idx]` of a flat array `x : [N]` at an integer vector `idx : [R]` lowers to: a gather with no offset
  axes, the operand's one axis collapsed, start index map `[0]`, slice size one and the index vector on axis 1 of
  the start indices laid out as `[R, 1]`.  Result element `t` is `x` at the start index `idx[t, 0]`, read as a
  signed integer and clamped into `[0, N − 1]`.  It is the rank-one twin of the library's reading of a gather at
  an `[R, C, 1]` array of start indices, and is proved the same way.
-/
import Idealize.ShloMosaic.Lib.ValueIdx

noncomputable section

namespace Idealize.ShloMosaic.GatherRows

open Idealize.ShloMosaic Idealize.ShloMosaic.ValueIdx

variable {α : Type}

/-- The dimension numbers of `x[idx]` for an operand `[N]`, start indices `[R, 1]` and result `[R]`; their
    conditions `wf` are decided on a program's literal shapes. -/
abbrev rowDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `t`: the operand at the start index `idx[t, 0]`, read signed and clamped into
    `[0, N − 1]`. -/
theorem gather_rows_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (t : Fin R) :
    Host.gather (rowDims N R wf) x idx (ix1 t)
      = x (ix1 ⟨min (idx (ix2 t (0 : Fin 1))).toInt.toNat (N - 1), by omega⟩) := by
  unfold Host.gather
  congr 1
  funext a
  obtain rfl : a = 0 := Subsingleton.elim _ _
  refine Fin.ext ?_
  show (rowDims N R wf).start (ix1 t) idx 0 + (rowDims N R wf).batchCoord (ix1 t) 0
    + (rowDims N R wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims N R wf).startIndexMap from List.mem_singleton.mpr rfl)]
  have hsi : (rowDims N R wf).siIdx (ix1 t) ⟨List.idxOf (0 : Fin 1) (rowDims N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

end Idealize.ShloMosaic.GatherRows

end
-- ==== Proof.LibGatherRows2.lean ====
/-
  A general lemma: `stablehlo.gather` of whole ROWS of a matrix at a column of start indices, read at an index.

  What `x[idx]` of a matrix `x : [N, C]` at an integer vector `idx : [R]` lowers to: a gather whose result
  `[R, C]` has one offset axis (the features), the operand's row axis collapsed, start index map `[0]`, slice
  sizes `[1, C]` and the index vector on axis 1 of the start indices laid out as `[R, 1]`.  Result element
  `(t, f)` is `x` at row `idx[t, 0]` — read as a signed integer and clamped into `[0, N − 1]` — and feature `f`.
  It is the matrix twin of the flat gather read at an index, and is proved the same way.
-/
import Idealize.ShloMosaic.Lib.ValueIdx

noncomputable section

namespace Idealize.ShloMosaic.GatherRows2

open Idealize.ShloMosaic Idealize.ShloMosaic.ValueIdx

variable {α : Type}

/-- The dimension numbers of `x[idx]` for an operand `[N, C]`, start indices `[R, 1]` and result `[R, C]`. -/
abbrev matDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, f)`: the operand at row `idx[t, 0]`, read signed and clamped into
    `[0, N − 1]`, and feature `f`. -/
theorem gather_mat_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (f : Fin C) :
    Host.gather (matDims N R C wf) x idx (ix2 t f)
      = x (ix2 ⟨min (idx (ix2 t (0 : Fin 1))).toInt.toNat (N - 1), by omega⟩ f) := by
  unfold Host.gather
  congr 1
  funext a
  refine Fin.ext ?_
  match a with
  | ⟨0, _⟩ =>
    show (matDims N R C wf).start (ix2 t f) idx 0 + (matDims N R C wf).batchCoord (ix2 t f) 0
      + (matDims N R C wf).offCoord (ix2 t f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (matDims N R C wf).startIndexMap from List.mem_singleton.mpr rfl)]
    have hsi : (matDims N R C wf).siIdx (ix2 t f) ⟨List.idxOf (0 : Fin 2) (matDims N R C wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    show (matDims N R C wf).start (ix2 t f) idx 1 + (matDims N R C wf).batchCoord (ix2 t f) 1
      + (matDims N R C wf).offCoord (ix2 t f) 1 = f.val
    rw [GatherDims.batchCoord_eq_zero _ _ _ List.not_mem_nil]
    have hs : (matDims N R C wf).start (ix2 t f) idx 1 = 0 := by
      unfold GatherDims.start
      rw [dif_neg (by simp)]
    have ho : (matDims N R C wf).offCoord (ix2 t f) 1 = f.val := by
      unfold GatherDims.offCoord
      rw [dif_pos ((GatherDims.mem_sKept _ _).mpr ⟨by simp, List.not_mem_nil⟩)]
      rfl
    rw [hs, ho]
    simp

end Idealize.ShloMosaic.GatherRows2

end
-- ==== Proof.LibScatterRows.lean ====
/-
  A general lemma: the host's accumulating float `stablehlo.scatter` of ROWS, read at an index as a sum.

  What `jax.ops.segment_sum(upd, idx, N)` lowers to: a scatter with an `add` body whose scatter indices are the
  integer vector `idx : [R]` laid out as a column `[R, 1]` (index vector on axis 1), the operand's leading axis
  inserted, scatter-dims-to-operand-dims `[0]`.  Update row `k` lands on operand row `p` exactly when the
  index word `idx[k, 0]`, read as a SIGNED integer and not clamped, is `p`; a row whose word names no operand
  row is dropped.  So at the extended reals the result at row `p` is the operand there plus the sum of the update
  rows that land on `p`: for a flat update `[R]` into `[N]`, and for rows of `C` features `[R, C]` into
  `[N, C]`, feature by feature.
-/
import Idealize.ShloMosaic.PureOps.Ideal
import Idealize.ShloMosaic.Lib.ValueIdx

noncomputable section

namespace Idealize.ShloMosaic.ScatterRows

open Idealize.ShloMosaic Idealize.ShloMosaic.ValueIdx

/-! ## A flat update `[R]` into `[N]` -/

/-- The dimension numbers of a segment sum of a flat `[R]` update into `[N]`. -/
abbrev flatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section flat
variable {N R w : Nat} (wf : ScatterDims.WF ⟨1, ![N]⟩ ⟨2, ![R, 1]⟩ ⟨1, ![R]⟩ [] [0] [0] 1)
  (idx : IVec ⟨2, ![R, 1]⟩ w)

/-- On the operand's one axis the landing coordinate of update `k` is its index word read signed. -/
theorem flat_coord (k : Fin R) (a : Fin 1) :
    (flatDims N R wf).start (ix1 k) idx a + ((flatDims N R wf).window (ix1 k) a : Int)
      = (idx (ix2 k (0 : Fin 1))).toInt := by
  obtain rfl : a = 0 := Subsingleton.elim _ _
  have hw : (flatDims N R wf).window (ix1 k) 0 = 0 := by
    unfold ScatterDims.window
    rw [dif_neg (by simp [ScatterDims.sKept, Shape.kept])]
  rw [hw]
  unfold ScatterDims.start
  rw [dif_pos (show (0 : Fin 1) ∈ (flatDims N R wf).scatterDimsToOperandDims from List.mem_singleton.mpr rfl)]
  have hsi : (flatDims N R wf).siIdx (ix1 k) ⟨List.idxOf (0 : Fin 1) (flatDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- Update `k` lands on operand row `p` exactly when its index word, read signed, is `p`. -/
theorem flat_lands_iff (k : Fin R) (p : Fin N) :
    (flatDims N R wf).resultIdx? (ix1 k) idx = some (ix1 p) ↔ (idx (ix2 k (0 : Fin 1))).toInt = (p.val : Int) := by
  unfold ScatterDims.resultIdx?
  constructor
  · intro h
    split at h
    · have h0 := congrFun (Option.some.inj h) (0 : Fin 1)
      have h1 : ((flatDims N R wf).start (ix1 k) idx 0 + ((flatDims N R wf).window (ix1 k) 0 : Int)).toNat = p.val :=
        congrArg Fin.val h0
      rename_i hall
      have h2 := (hall 0).1
      rw [flat_coord] at h1 h2
      omega
    · cases h
  · intro hv
    have hall : ∀ a : Fin 1, 0 ≤ (flatDims N R wf).start (ix1 k) idx a + ((flatDims N R wf).window (ix1 k) a : Int)
        ∧ (flatDims N R wf).start (ix1 k) idx a + ((flatDims N R wf).window (ix1 k) a : Int)
          < ((⟨1, ![N]⟩ : Shape).size a : Int) := by
      intro a
      rw [flat_coord, hv]
      obtain rfl : a = 0 := Subsingleton.elim _ _
      have : (⟨1, ![N]⟩ : Shape).size 0 = N := rfl
      rw [this]
      have := p.isLt
      omega
    rw [dif_pos hall]
    congr 1
    funext a
    obtain rfl : a = 0 := Subsingleton.elim _ _
    refine Fin.ext ?_
    show ((flatDims N R wf).start (ix1 k) idx 0 + ((flatDims N R wf).window (ix1 k) 0 : Int)).toNat = p.val
    rw [flat_coord, hv]
    simp

/-- THE FLAT SCATTER-ADD READ AT ROW `p`: the operand there plus the sum of the updates landing on `p`. -/
theorem scatterAdd_flat_apply (x : (⟨1, ![N]⟩ : Shape).Idx → EReal) (upd : (⟨1, ![R]⟩ : Shape).Idx → EReal)
    (p : Fin N) :
    Ideal.hostScatterAdd (flatDims N R wf) x idx upd (ix1 p)
      = x (ix1 p) + ∑ k ∈ Finset.univ.filter (fun k : Fin R => (idx (ix2 k (0 : Fin 1))).toInt = (p.val : Int)),
          upd (ix1 k) := by
  unfold Ideal.hostScatterAdd
  congr 1
  rw [Finset.sum_filter, Finset.sum_filter]
  let e : (⟨1, ![R]⟩ : Shape).Idx ≃ Fin R :=
    { toFun := fun j => j 0, invFun := ix1, left_inv := fun j => (eq_ix1 j).symm, right_inv := fun _ => rfl }
  refine Fintype.sum_equiv e _ _ (fun j => ?_)
  obtain ⟨k, rfl⟩ : ∃ k : Fin R, j = ix1 k := ⟨j 0, eq_ix1 j⟩
  exact if_congr (flat_lands_iff wf idx k p) rfl rfl

end flat

/-! ## Rows of `C` features `[R, C]` into `[N, C]` -/

/-- The dimension numbers of a segment sum of `[R, C]` rows into `[N, C]`. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section rows
variable {N R C w : Nat} (wf : ScatterDims.WF ⟨2, ![N, C]⟩ ⟨2, ![R, 1]⟩ ⟨2, ![R, C]⟩ [1] [0] [0] 1)
  (idx : IVec ⟨2, ![R, 1]⟩ w)

/-- On the node axis the landing coordinate of update `(k, f)` is row `k`'s index word read signed. -/
theorem row_coord0 (k : Fin R) (f : Fin C) :
    (rowDims N R C wf).start (ix2 k f) idx 0 + ((rowDims N R C wf).window (ix2 k f) 0 : Int)
      = (idx (ix2 k (0 : Fin 1))).toInt := by
  have hw : (rowDims N R C wf).window (ix2 k f) 0 = 0 := by
    unfold ScatterDims.window
    rw [dif_neg (by simp [ScatterDims.sKept, Shape.kept])]
  rw [hw]
  unfold ScatterDims.start
  rw [dif_pos (show (0 : Fin 2) ∈ (rowDims N R C wf).scatterDimsToOperandDims from List.mem_singleton.mpr rfl)]
  have hsi : (rowDims N R C wf).siIdx (ix2 k f) ⟨List.idxOf (0 : Fin 2) (rowDims N R C wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- On the feature axis the landing coordinate of update `(k, f)` is `f`. -/
theorem row_coord1 (k : Fin R) (f : Fin C) :
    (rowDims N R C wf).start (ix2 k f) idx 1 + ((rowDims N R C wf).window (ix2 k f) 1 : Int) = (f.val : Int) := by
  have hs : (rowDims N R C wf).start (ix2 k f) idx 1 = 0 := by
    unfold ScatterDims.start
    rw [dif_neg (by simp)]
  have hw : (rowDims N R C wf).window (ix2 k f) 1 = f.val := by
    unfold ScatterDims.window
    rw [dif_pos (by simp [ScatterDims.sKept, Shape.kept])]
    rfl
  rw [hs, hw]
  simp

/-- Update `(k, f)` lands on `(p, q)` exactly when row `k`'s index word, read signed, is `p`, and `f = q`. -/
theorem row_lands_iff (k : Fin R) (f : Fin C) (p : Fin N) (q : Fin C) :
    (rowDims N R C wf).resultIdx? (ix2 k f) idx = some (ix2 p q)
      ↔ (idx (ix2 k (0 : Fin 1))).toInt = (p.val : Int) ∧ f = q := by
  unfold ScatterDims.resultIdx?
  constructor
  · intro h
    split at h
    · rename_i hall
      have e := Option.some.inj h
      have h0 : ((rowDims N R C wf).start (ix2 k f) idx 0 + ((rowDims N R C wf).window (ix2 k f) 0 : Int)).toNat = p.val :=
        congrArg Fin.val (congrFun e 0)
      have h1 : ((rowDims N R C wf).start (ix2 k f) idx 1 + ((rowDims N R C wf).window (ix2 k f) 1 : Int)).toNat = q.val :=
        congrArg Fin.val (congrFun e 1)
      have h2 := (hall 0).1
      rw [row_coord0] at h0 h2
      rw [row_coord1] at h1
      exact ⟨by omega, Fin.ext (by omega)⟩
    · cases h
  · rintro ⟨hv, rfl⟩
    have hall : ∀ a : Fin 2, 0 ≤ (rowDims N R C wf).start (ix2 k f) idx a + ((rowDims N R C wf).window (ix2 k f) a : Int)
        ∧ (rowDims N R C wf).start (ix2 k f) idx a + ((rowDims N R C wf).window (ix2 k f) a : Int)
          < ((⟨2, ![N, C]⟩ : Shape).size a : Int) := by
      refine Fin.forall_fin_two.mpr ⟨?_, ?_⟩
      · rw [row_coord0, hv]
        have := p.isLt
        refine ⟨by omega, ?_⟩
        show (p.val : Int) < (N : Int)
        omega
      · rw [row_coord1]
        have := f.isLt
        refine ⟨by omega, ?_⟩
        show (f.val : Int) < (C : Int)
        omega
    rw [dif_pos hall]
    congr 1
    funext a
    refine Fin.ext ?_
    match a with
    | ⟨0, _⟩ =>
      show ((rowDims N R C wf).start (ix2 k f) idx 0 + ((rowDims N R C wf).window (ix2 k f) 0 : Int)).toNat = p.val
      rw [row_coord0, hv]; simp
    | ⟨1, _⟩ =>
      show ((rowDims N R C wf).start (ix2 k f) idx 1 + ((rowDims N R C wf).window (ix2 k f) 1 : Int)).toNat = f.val
      rw [row_coord1]; simp

/-- THE ROW SCATTER-ADD READ AT `(p, q)`: the operand there plus the sum, over the update rows landing on `p`,
    of their feature `q`. -/
theorem scatterAdd_rows_apply (x : (⟨2, ![N, C]⟩ : Shape).Idx → EReal) (upd : (⟨2, ![R, C]⟩ : Shape).Idx → EReal)
    (p : Fin N) (q : Fin C) :
    Ideal.hostScatterAdd (rowDims N R C wf) x idx upd (ix2 p q)
      = x (ix2 p q) + ∑ k ∈ Finset.univ.filter (fun k : Fin R => (idx (ix2 k (0 : Fin 1))).toInt = (p.val : Int)),
          upd (ix2 k q) := by
  unfold Ideal.hostScatterAdd
  congr 1
  rw [Finset.sum_filter, sum_idx2, Finset.sum_filter]
  refine Finset.sum_congr rfl fun k _ => ?_
  by_cases hk : (idx (ix2 k (0 : Fin 1))).toInt = (p.val : Int)
  · rw [if_pos hk]
    rw [Finset.sum_eq_single q]
    · rw [if_pos ((row_lands_iff wf idx k q p q).mpr ⟨hk, rfl⟩)]
    · intro b _ hb
      rw [if_neg (fun h => hb ((row_lands_iff wf idx k b p q).mp h).2)]
    · intro h; exact absurd (Finset.mem_univ q) h
  · rw [if_neg hk]
    refine Finset.sum_eq_zero fun b _ => ?_
    rw [if_neg (fun h => hk ((row_lands_iff wf idx k b p q).mp h).1)]

end rows

end Idealize.ShloMosaic.ScatterRows

end
-- ==== Proof.KHost.lean ====
/-
  The host stretches of the idealized kernel, as whole-array terms and read at an index.

  Between the three pipelines the program computes, by host operations on whole arrays: the edges' source and
  target words (two rows of the edge array); the degree (a scatter-add of ones over the target words, plus one),
  `dis = deg ^ (-1/2)`, the edge weights `dis[source] · dis[target]` (gathers at the wrapped words) and the
  column `dis²`; and, once per layer, the aggregate (gather the source rows of the layer's features, scale each
  row by its edge weight, scatter-add the rows over the target words) and the self term (`dis²` times the
  features).  Each is named here as the composition of the operations the program applies, and read at an index
  in the terms of the specification.
-/
import proofs.«164795_j30382598652232_2_alg».proof.Proof.Gen.KernelIdeal.Frame
import proofs.«164795_j30382598652232_2_alg».proof.Proof.KTerms
import proofs.«164795_j30382598652232_2_alg».proof.Proof.Spec
import proofs.«164795_j30382598652232_2_alg».proof.Proof.LibGatherRows
import proofs.«164795_j30382598652232_2_alg».proof.Proof.LibGatherRows2
import proofs.«164795_j30382598652232_2_alg».proof.Proof.LibScatterRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.KHost

open Cert.KernelIdeal Cert.KernelIdeal.Gen
open Idealize.ShloMosaic Idealize.ShloMosaic.TcCoe Idealize.ShloMosaic.ValueIdx

/-! ## Read at an index -/

theorem srcV_apply (x0 : IVec S2x1600000 32) (e : Fin 1600000) : srcV x0 (ix1 e) = srcOf x0 e := by
  unfold srcV srcOf
  refine (shapeCast_1a_a_apply (a := 1600000) _ shapeCasts_S1x1600000_S1600000 e).trans ?_
  refine extractStridedSlice_apply ![0, 0] x0 slices_S2x1600000_S1x1600000_0_0 _ (ix2 (0 : Fin 2) e) fun a => ?_
  match a with
  | ⟨0, _⟩ => rfl
  | ⟨1, _⟩ => show e.val = 0 + e.val; omega

theorem dstV_apply (x0 : IVec S2x1600000 32) (e : Fin 1600000) : dstV x0 (ix1 e) = dstOf x0 e := by
  unfold dstV dstOf
  refine (shapeCast_1a_a_apply (a := 1600000) _ shapeCasts_S1x1600000_S1600000 e).trans ?_
  refine extractStridedSlice_apply ![1, 0] x0 slices_S2x1600000_S1x1600000_1_0 _ (ix2 (1 : Fin 2) e) fun a => ?_
  match a with
  | ⟨0, _⟩ => rfl
  | ⟨1, _⟩ => show e.val = 0 + e.val; omega

theorem colV_apply {α : Type} (v : S1600000.Idx → α) (k : Fin 1600000) : colV v (ix2 k (0 : Fin 1)) = v (ix1 k) :=
  broadcastInDim_apply _ bcast_S1600000_S1600000x1_0 v _ (ix1 k) (fun a => match a with
    | ⟨0, _⟩ => by show k.val = if (1600000 : Nat) = 1 then 0 else k.val; rw [if_neg (by decide)])

theorem wrapV_apply (v : IVec S1600000 32) (i : S1600000.Idx) : wrapV v i = wrap (v i) := by
  have h0 : broadcastInDim S1600000 ![] bcast_S_S1600000 (constantI S_ 32 0#32) i = 0#32 :=
    broadcastInDim_apply _ bcast_S_S1600000 _ i ix0 (fun a => a.elim0)
  have h1 : broadcastInDim S1600000 ![] bcast_S_S1600000 (constantI S_ 32 100000#32) i = 100000#32 :=
    broadcastInDim_apply _ bcast_S_S1600000 _ i ix0 (fun a => a.elim0)
  show Scalar.select (IntOp.cmpi .slt (v i) (broadcastInDim S1600000 ![] bcast_S_S1600000 (constantI S_ 32 0#32) i))
    (IntOp.addi (v i) (broadcastInDim S1600000 ![] bcast_S_S1600000 (constantI S_ 32 100000#32) i)) (v i) = _
  rw [h0, h1]
  rfl

/-- The printed dimension numbers are the flat segment sum's and the flat gather's. -/
theorem scatterFlat_eq (x : FVec Ideal S100000 .f32) (idx : IVec S1600000x1 32) (upd : FVec Ideal S1600000 .f32) :
    Host.scatterAdd scatter_S100000_S1600000x1_S1600000_n_0_0_1 x idx upd
      = Ideal.hostScatterAdd (ScatterRows.flatDims 100000 1600000 scatter_S100000_S1600000x1_S1600000_n_0_0_1_wf)
          x idx upd := rfl

theorem gatherFlat_eq (x : FVec Ideal S100000 .f32) (idx : IVec S1600000x1 32) :
    Host.gather gather_S100000_S1600000x1_S1600000_n_0_n_n_0_1_1 x idx
      = Host.gather (GatherRows.rowDims 100000 1600000 gather_S100000_S1600000x1_S1600000_n_0_n_n_0_1_1_wf) x idx := rfl

theorem zeros_apply (i : S100000.Idx) :
    broadcastInDim S100000 ![] bcast_S_S100000 (constant (F := Ideal) S_ .f32 0x00000000#32) i = 0 :=
  (broadcastInDim_apply _ bcast_S_S100000 _ i ix0 (fun a => a.elim0)).trans Ideal.ofBits_zero_f32

theorem onesN_apply (i : S100000.Idx) :
    broadcastInDim S100000 ![] bcast_S_S100000 (constant (F := Ideal) S_ .f32 0x3F800000#32) i = one :=
  broadcastInDim_apply _ bcast_S_S100000 _ i ix0 (fun a => a.elim0)

theorem onesE_apply (k : S1600000.Idx) :
    broadcastInDim S1600000 ![] bcast_S_S1600000 (constant (F := Ideal) S_ .f32 0x3F800000#32) k = one :=
  broadcastInDim_apply _ bcast_S_S1600000 _ k ix0 (fun a => a.elim0)

/-- The degree at node `i`. -/
theorem degV_apply (d : IVec S1600000 32) (i : Fin 100000) : degV d (ix1 i) = deg (fun e => d (ix1 e)) i := by
  unfold degV
  rw [addf_apply, scatterFlat_eq, ScatterRows.scatterAdd_flat_apply, zeros_apply, onesN_apply, zero_add]
  unfold deg landing
  refine congrArg₂ (· + ·) ?_ rfl
  refine Finset.sum_congr (Finset.filter_congr fun k _ => ?_) (fun k _ => onesE_apply _)
  rw [colV_apply]

/-- The host's reciprocal square root is entry by entry. -/
theorem rsqrt_apply (x : FVec Ideal S100000 .f32) (i : S100000.Idx) : Host.rsqrt x i = Ideal.rsqrt (x i) := rfl

theorem disV_apply (d : IVec S1600000 32) (i : Fin 100000) : disV d (ix1 i) = dis (fun e => d (ix1 e)) i := by
  unfold disV dis
  rw [rsqrt_apply, degV_apply]

/-- A flat gather of `dis` at a column of wrapped words reads `dis` at the word's row. -/
theorem gatherDis_apply (d v : IVec S1600000 32) (e : Fin 1600000) :
    Host.gather gather_S100000_S1600000x1_S1600000_n_0_n_n_0_1_1 (disV d) (colV (wrapV v)) (ix1 e)
      = dis (fun e => d (ix1 e)) (row (wrap (v (ix1 e)))) := by
  rw [gatherFlat_eq, GatherRows.gather_rows_apply (by omega), disV_apply]
  refine congrArg (dis fun e => d (ix1 e)) (Fin.ext ?_)
  show min (colV (wrapV v) (ix2 e (0 : Fin 1))).toInt.toNat (100000 - 1) = (row (wrap (v (ix1 e)))).val
  rw [colV_apply, wrapV_apply]
  rfl
theorem nrmV_apply (s d : IVec S1600000 32) (e : Fin 1600000) :
    nrmV s d (ix1 e) = nrm (fun e => s (ix1 e)) (fun e => d (ix1 e)) e := by
  unfold nrmV nrm
  rw [mulf_apply, gatherDis_apply, gatherDis_apply]

theorem dis2V_apply (d : IVec S1600000 32) (i : Fin 100000) :
    dis2V d (ix2 i (0 : Fin 1)) = dis (fun e => d (ix1 e)) i * dis (fun e => d (ix1 e)) i := by
  unfold dis2V
  refine (broadcastInDim_apply _ bcast_S100000_S100000x1_0 _ _ (ix1 i) (fun a => match a with
    | ⟨0, _⟩ => by show i.val = if (100000 : Nat) = 1 then 0 else i.val; rw [if_neg (by decide)])).trans ?_
  rw [mulf_apply, disV_apply]

/-! ## The aggregate and the self term -/

theorem scatterRows_eq (x : FVec Ideal S100000x128 .f32) (idx : IVec S1600000x1 32)
    (upd : FVec Ideal S1600000x128 .f32) :
    Host.scatterAdd scatter_S100000x128_S1600000x1_S1600000x128_1_0_0_1 x idx upd
      = Ideal.hostScatterAdd
          (ScatterRows.rowDims 100000 1600000 128 scatter_S100000x128_S1600000x1_S1600000x128_1_0_0_1_wf) x idx upd := rfl

theorem gatherMat_eq (x : FVec Ideal S100000x128 .bf16) (idx : IVec S1600000x1 32) :
    Host.gather gather_S100000x128_S1600000x1_S1600000x128_1_0_n_n_0_1_1128 x idx
      = Host.gather (GatherRows2.matDims 100000 1600000 128
          gather_S100000x128_S1600000x1_S1600000x128_1_0_n_n_0_1_1128_wf) x idx := rfl

theorem zerosM_apply (i : S100000x128.Idx) :
    broadcastInDim S100000x128 ![] bcast_S_S100000x128 (constant (F := Ideal) S_ .f32 0x00000000#32) i = 0 :=
  (broadcastInDim_apply _ bcast_S_S100000x128 _ i ix0 (fun a => a.elim0)).trans Ideal.ofBits_zero_f32

/-- A vector over the edges repeated across the features reads, at `(k, f)`, its entry `k`. -/
theorem edgeRow_apply (n : FVec Ideal S1600000 .f32) (k : Fin 1600000) (f : Fin 128) :
    broadcastInDim S1600000x128 ![0, 1] bcast_S1600000x1_S1600000x128_0_1 (colV n) (ix2 k f) = n (ix1 k) :=
  (broadcastInDim_apply _ bcast_S1600000x1_S1600000x128_0_1 (colV n) _ (ix2 k (0 : Fin 1)) (fun a => match a with
    | ⟨0, _⟩ => by show k.val = if (1600000 : Nat) = 1 then 0 else k.val; rw [if_neg (by decide)]
    | ⟨1, _⟩ => by show 0 = if (1 : Nat) = 1 then 0 else f.val; rw [if_pos rfl])).trans (colV_apply n k)

/-- A column over the nodes repeated across the features reads, at `(i, f)`, its entry `i`. -/
theorem nodeRow_apply (v : FVec Ideal S100000x1 .f32) (i : Fin 100000) (f : Fin 128) :
    broadcastInDim S100000x128 ![0, 1] bcast_S100000x1_S100000x128_0_1 v (ix2 i f) = v (ix2 i (0 : Fin 1)) :=
  broadcastInDim_apply _ bcast_S100000x1_S100000x128_0_1 v _ (ix2 i (0 : Fin 1)) (fun a => match a with
    | ⟨0, _⟩ => by show i.val = if (100000 : Nat) = 1 then 0 else i.val; rw [if_neg (by decide)]
    | ⟨1, _⟩ => by show 0 = if (1 : Nat) = 1 then 0 else f.val; rw [if_pos rfl])

/-- One gathered and scaled message: the source row's feature times the edge's weight. -/
theorem msg_apply (h : FVec Ideal S100000x128 .bf16) (s : IVec S1600000 32) (n : FVec Ideal S1600000 .f32)
    (k : Fin 1600000) (f : Fin 128) :
    mulf (extf .f32 (Host.gather gather_S100000x128_S1600000x1_S1600000x128_1_0_n_n_0_1_1128 h (colV (wrapV s)))
        bitsLt_bf16_f32)
      (broadcastInDim S1600000x128 ![0, 1] bcast_S1600000x1_S1600000x128_0_1 (colV n)) (ix2 k f)
      = h (ix2 (row (wrap (s (ix1 k)))) f) * n (ix1 k) := by
  rw [mulf_apply, edgeRow_apply]
  refine congrArg (· * n (ix1 k)) ?_
  show Host.gather gather_S100000x128_S1600000x1_S1600000x128_1_0_n_n_0_1_1128 h (colV (wrapV s)) (ix2 k f) = _
  rw [gatherMat_eq, GatherRows2.gather_mat_apply (by omega)]
  refine congrArg (fun r => h (ix2 r f)) (Fin.ext ?_)
  show min (colV (wrapV s) (ix2 k (0 : Fin 1))).toInt.toNat (100000 - 1) = (row (wrap (s (ix1 k)))).val
  rw [colV_apply, wrapV_apply]
  rfl

/-- A layer's aggregate at `(i, f)`: the messages of the edges landing on `i`. -/
theorem aggV_apply (h : FVec Ideal S100000x128 .bf16) (s d : IVec S1600000 32) (i : Fin 100000) (f : Fin 128) :
    aggV h s d (nrmV s d) (ix2 i f)
      = agg (fun e => s (ix1 e)) (fun e => d (ix1 e)) (fun i f => h (ix2 i f)) i f := by
  unfold aggV
  rw [scatterRows_eq, ScatterRows.scatterAdd_rows_apply, zerosM_apply, zero_add]
  unfold agg landing
  refine Finset.sum_congr (Finset.filter_congr fun k _ => ?_) (fun k _ => ?_)
  · rw [colV_apply]
  · rw [msg_apply, nrmV_apply]

theorem selfTerm_apply (d2 : FVec Ideal S100000x1 .f32) (h : FVec Ideal S100000x128 .bf16) (i : Fin 100000)
    (f : Fin 128) : selfV d2 h (ix2 i f) = d2 (ix2 i (0 : Fin 1)) * h (ix2 i f) := by
  unfold selfV
  show broadcastInDim S100000x128 ![0, 1] bcast_S100000x1_S100000x128_0_1 d2 (ix2 i f) * h (ix2 i f) = _
  rw [nodeRow_apply]

/-- A layer's self term at `(i, f)`. -/
theorem selfV_apply (d : IVec S1600000 32) (h : FVec Ideal S100000x128 .bf16) (i : Fin 100000) (f : Fin 128) :
    selfV (dis2V d) h (ix2 i f)
      = dis (fun e => d (ix1 e)) i * dis (fun e => d (ix1 e)) i * h (ix2 i f) := by
  rw [selfTerm_apply, dis2V_apply]

end Cert.Gcn.KHost

end
-- ==== Proof.KSpec.lean ====
/-
  The idealized kernel's result is the specification.

  One layer of the kernel, for node features `h` and a bias `b`: the aggregate plus the self term plus the
  bias.  Read at `(i, f)` the aggregate is the sum, over the edges landing on `i`, of the source row's feature
  times the edge's weight; the self term is `dis i · dis i · h i f`: together with the bias, the specification's
  `conv`.  The first pipeline's product is the specification's dense product `mm`; the second pipeline applies
  the first layer inside `relu` and multiplies by the second weights, again an `mm`; the third pipeline closes
  the second layer.  Nothing beyond reading each term at an index is needed: the two sides are arranged alike.
-/
import proofs.«164795_j30382598652232_2_alg».proof.Proof.KHost

noncomputable section

namespace Cert.Gcn.KSpec

open Cert.KernelIdeal Cert.KernelIdeal.Gen Cert.Gcn.KHost
open Idealize.ShloMosaic Idealize.ShloMosaic.TcCoe Idealize.ShloMosaic.ValueIdx

/-- The three pipelines' whole-array functions read at an entry. -/
theorem biased_apply (A Sf : S100000x128.Idx → EReal) (b : S128.Idx → EReal) (i : Fin 100000) (f : Fin 128) :
    K2.biased A Sf b (ix2 i f) = (A (ix2 i f) + Sf (ix2 i f)) + b (ix1 f) := rfl

theorem reluProd_apply (A Sf : S100000x128.Idx → EReal) (b : S128.Idx → EReal) (W : S128x128.Idx → EReal)
    (i : Fin 100000) (f : Fin 128) :
    K1.reluProd A Sf b W (ix2 i f)
      = ∑ c : Fin 128, max ((A (ix2 i c) + Sf (ix2 i c)) + b (ix1 c)) zero * W (ix2 c f) := rfl

theorem prod_apply (X : S100000x128.Idx → EReal) (W : S128x128.Idx → EReal) (i : Fin 100000) (c : Fin 128) :
    K0.prod X W (ix2 i c) = ∑ k : Fin 128, X (ix2 i k) * W (ix2 k c) := rfl

/-- ONE LAYER at `(i, f)`: aggregate plus self term plus bias is the specification's `conv`. -/
theorem layer_apply (s d : IVec S1600000 32) (h : FVec Ideal S100000x128 .bf16) (b : FVec Ideal S128 .f32)
    (i : Fin 100000) (f : Fin 128) :
    (aggV h s d (nrmV s d) (ix2 i f) + selfV (dis2V d) h (ix2 i f)) + b (ix1 f)
      = conv (fun e => s (ix1 e)) (fun e => d (ix1 e)) (fun i f => h (ix2 i f)) (fun f => b (ix1 f)) i f := by
  unfold conv
  rw [aggV_apply, selfV_apply]

/-- The edge words the kernel slices out of the edge array are the specification's. -/
theorem src_eq (x0 : IVec S2x1600000 32) : (fun e => srcV x0 (ix1 e)) = srcOf x0 := funext (srcV_apply x0)
theorem dst_eq (x0 : IVec S2x1600000 32) : (fun e => dstV x0 (ix1 e)) = dstOf x0 := funext (dstV_apply x0)

/-- The first pipeline's product, entry by entry, is the specification's dense product. -/
theorem prod_eq (emb : FVec Ideal S100000x128 .f32) (W1 : FVec Ideal S128x128 .f32) :
    (fun (i : Fin 100000) (c : Fin 128) => K0.prod emb W1 (ix2 i c))
      = mm (fun i c => emb (ix2 i c)) (fun c f => W1 (ix2 c f)) := by
  funext i c
  rw [prod_apply]
  rfl

/-- The second pipeline's activated product, entry by entry: the first layer under `relu`, times the second
    weights. -/
theorem reluProd_eq (s d : IVec S1600000 32) (h : FVec Ideal S100000x128 .bf16) (b : FVec Ideal S128 .f32)
    (W : FVec Ideal S128x128 .f32) :
    (fun (i : Fin 100000) (f : Fin 128) =>
        K1.reluProd (aggV h s d (nrmV s d)) (selfV (dis2V d) h) b W (ix2 i f))
      = mm (fun i c => max (conv (fun e => s (ix1 e)) (fun e => d (ix1 e)) (fun i f => h (ix2 i f))
          (fun f => b (ix1 f)) i c) zero) (fun c f => W (ix2 c f)) := by
  funext i f
  rw [reluProd_apply]
  unfold mm
  refine Finset.sum_congr rfl fun c _ => ?_
  rw [layer_apply]

/-- THE KERNEL'S RESULT IS THE SPECIFICATION'S. -/
theorem kernelOut_eq (x0 : IVec S2x1600000 32) (emb : FVec Ideal S100000x128 .f32) (W1 : FVec Ideal S128x128 .f32)
    (b1 : FVec Ideal S128 .f32) (W2 : FVec Ideal S128x128 .f32) (b2 : FVec Ideal S128 .f32) :
    kernelOut x0 emb W1 b1 W2 b2 = Cert.Gcn.result x0 emb W1 b1 W2 b2 := by
  funext j
  obtain ⟨i, f, rfl⟩ : ∃ (i : Fin 100000) (f : Fin 128), j = ix2 i f := ⟨j 0, j 1, eq_ix2 j⟩
  unfold kernelOut
  rw [biased_apply, layer_apply, reluProd_eq, prod_eq, src_eq, dst_eq]
  unfold Cert.Gcn.result net
  rfl

end Cert.Gcn.KSpec

end
-- ==== Proof.RefRead.lean ====
/-
  The reference program, one operation at a time.  A stage `val_<buffer>` is the value an operation writes, as a
  function of the arguments of the main function it depends on; `val_<buffer>_apply` reads it at an index `i` from
  the operands at an index: an elementwise operation at `i` itself, a layout operation (slice, reshape, broadcast)
  at the index `idx_<buffer> i` computed from the literal shapes, and at the extended reals a dot product with one
  contracted axis as the sum over `k` of the left operand at `lidx_<buffer> i k` times the right operand at
  `ridx_<buffer> i k`.  The concatenations, the scatters and the gathers have a stage and no reading here: which
  element they read depends on an operand's values, and they are read where the index words are known.
-/
import proofs.«164795_j30382598652232_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.Gcn.RefRead

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.slice %arg0 [0:1, 0:1600000] : (tensor<2x1600000xi32>) -> tensor<1x1600000xi32>
def val_main_v0 (x0 : (⟨S2x1600000, .i32⟩ : BufTy).Contents (Elt F)) : (⟨S1x1600000, .i32⟩ : BufTy).Contents (Elt F) :=
  extractStridedSlice S1x1600000 ![0, 0] (x0) slices_S2x1600000_S1x1600000_0_0
abbrev idx_main_v0 (i : S1x1600000.Idx) : S2x1600000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (x0 : (⟨S2x1600000, .i32⟩ : BufTy).Contents (Elt F)) (i : S1x1600000.Idx) :
    val_main_v0 (F := F) x0 i = x0 (idx_main_v0 i) := by
  unfold val_main_v0
  exact extractStridedSlice_apply ![0, 0] x0 slices_S2x1600000_S1x1600000_0_0 i (idx_main_v0 i) (fun a => match a with
    | ⟨0, _⟩ => by show (i 0).val = 0 + (i 0).val; omega
    | ⟨1, _⟩ => by show (i 1).val = 0 + (i 1).val; omega)

-- %1 = stablehlo.reshape %0 : (tensor<1x1600000xi32>) -> tensor<1600000xi32>
def val_main_v1 (x0 : (⟨S2x1600000, .i32⟩ : BufTy).Contents (Elt F)) : (⟨S1600000, .i32⟩ : BufTy).Contents (Elt F) :=
  shapeCast _ (val_main_v0 (F := F) x0) shapeCasts_S1x1600000_S1600000
abbrev idx_main_v1 (i : S1600000.Idx) : S1x1600000.Idx := fun a => match a with
  | ⟨0, _⟩ => ⟨0, Nat.one_pos⟩
  | ⟨1, _⟩ => ⟨((i 0).val) % 1600000, by have h0 : (i 0).val < 1600000 := (i 0).isLt; show ((i 0).val) % 1600000 < 1600000; omega⟩
theorem val_main_v1_apply (x0 : (⟨S2x1600000, .i32⟩ : BufTy).Contents (Elt F)) (i : S1600000.Idx) :
    val_main_v1 (F := F) x0 i = val_main_v0 (F := F) x0 (idx_main_v1 i) := by
  unfold val_main_v1
  generalize val_main_v0 (F := F) x0 = y
  exact shapeCast_apply y shapeCasts_S1x1600000_S1600000 i (idx_main_v1 i)
    (by rewrite [Shape.rowMajor_val_two, Shape.rowMajor_val_one]; have h0 : (i 0).val < 1600000 := (i 0).isLt; show 0 * 1600000 + ((i 0).val) % 1600000 = (i 0).val; omega)

-- %2 = stablehlo.slice %arg0 [1:2, 0:1600000] : (tensor<2x1600000xi32>) -> tensor<1x1600000xi32>
def val_main_v2 (x0 : (⟨S2x1600000, .i32⟩ : BufTy).Contents (Elt F)) : (⟨S1x1600000, .i32⟩ : BufTy).Contents (Elt F) :=
  extractStridedSlice S1x1600000 ![1, 0] (x0) slices_S2x1600000_S1x1600000_1_0
abbrev idx_main_v2 (i : S1x1600000.Idx) : S2x1600000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (x0 : (⟨S2x1600000, .i32⟩ : BufTy).Contents (Elt F)) (i : S1x1600000.Idx) :
    val_main_v2 (F := F) x0 i = x0 (idx_main_v2 i) := by
  unfold val_main_v2
  exact extractStridedSlice_apply ![1, 0] x0 slices_S2x1600000_S1x1600000_1_0 i (idx_main_v2 i) (fun a => match a with
    | ⟨0, _⟩ => by show 1 + (i 0).val = 1 + (i 0).val; omega
    | ⟨1, _⟩ => by show (i 1).val = 0 + (i 1).val; omega)

-- %3 = stablehlo.reshape %2 : (tensor<1x1600000xi32>) -> tensor<1600000xi32>
def val_main_v3 (x0 : (⟨S2x1600000, .i32⟩ : BufTy).Contents (Elt F)) : (⟨S1600000, .i32⟩ : BufTy).Contents (Elt F) :=
  shapeCast _ (val_main_v2 (F := F) x0) shapeCasts_S1x1600000_S1600000
abbrev idx_main_v3 (i : S1600000.Idx) : S1x1600000.Idx := fun a => match a with
  | ⟨0, _⟩ => ⟨0, Nat.one_pos⟩
  | ⟨1, _⟩ => ⟨((i 0).val) % 1600000, by have h0 : (i 0).val < 1600000 := (i 0).isLt; show ((i 0).val) % 1600000 < 1600000; omega⟩
theorem val_main_v3_apply (x0 : (⟨S2x1600000, .i32⟩ : BufTy).Contents (Elt F)) (i : S1600000.Idx) :
    val_main_v3 (F := F) x0 i = val_main_v2 (F := F) x0 (idx_main_v3 i) := by
  unfold val_main_v3
  generalize val_main_v2 (F := F) x0 = y
  exact shapeCast_apply y shapeCasts_S1x1600000_S1600000 i (idx_main_v3 i)
    (by rewrite [Shape.rowMajor_val_two, Shape.rowMajor_val_one]; have h0 : (i 0).val < 1600000 := (i 0).isLt; show 0 * 1600000 + ((i 0).val) % 1600000 = (i 0).val; omega)

-- %4 = stablehlo.dot_general %arg2, %arg3, contracting_dims = [1] x [0], precision = [DEFAULT, DEFAULT] : (tensor<100000x128xf32>, tensor<128x128xf32>) -> tensor<100000x128xf32>
def val_main_v4 (x2 : (⟨S100000x128, .f32⟩ : BufTy).Contents (Elt F)) (x3 : (⟨S128x128, .f32⟩ : BufTy).Contents (Elt F)) : (⟨S100000x128, .f32⟩ : BufTy).Contents (Elt F) :=
  Host.dotGeneral dot_S100000x128_S128x128_S100000x128_1_0_0_1_n_n none (x2) (x3)
theorem lhs_main_v4_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v4_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v4_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v4_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v4 (i : S100000x128.Idx) (k : Fin 128) : S100000x128.Idx := fun a => match a with
  | ⟨0, _⟩ => ⟨(i 0).val, (i 0).isLt⟩
  | ⟨1, _⟩ => ⟨k.val, k.isLt⟩
abbrev ridx_main_v4 (i : S100000x128.Idx) (k : Fin 128) : S128x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v4_apply (x2 : (⟨S100000x128, .f32⟩ : BufTy).Contents (Elt Ideal)) (x3 : (⟨S128x128, .f32⟩ : BufTy).Contents (Elt Ideal)) (i : S100000x128.Idx) :
    val_main_v4 (F := Ideal) x2 x3 i = ∑ k : Fin 128, x2 (lidx_main_v4 i k) * x3 (ridx_main_v4 i k) := by
  unfold val_main_v4
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v4 i k := funext fun a => Fin.ext (by
    match a with
    | ⟨0, _⟩ => exact lhs_main_v4_0 _ _
    | ⟨1, _⟩ => exact (lhs_main_v4_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v4 i k := funext fun a => Fin.ext (by
    match a with
    | ⟨0, _⟩ => exact (rhs_main_v4_0 _ _).trans hk
    | ⟨1, _⟩ => exact rhs_main_v4_1 _ _)
  rw [el, er]

-- %5 = stablehlo.iota dim = 0 : tensor<100000xi32>
def val_main_v5 : (⟨S100000, .i32⟩ : BufTy).Contents (Elt F) :=
  iotaInDim S100000 32 0
theorem val_main_v5_apply (i : S100000.Idx) :
    val_main_v5 (F := F) i = BitVec.ofNat 32 (i 0).val := rfl

-- %6 = stablehlo.concatenate %1, %5, dim = 0 : (tensor<1600000xi32>, tensor<100000xi32>) -> tensor<1700000xi32>
def val_main_v6 (x0 : (⟨S2x1600000, .i32⟩ : BufTy).Contents (Elt F)) : (⟨S1700000, .i32⟩ : BufTy).Contents (Elt F) :=
  concatenate S1700000 0 [⟨S1600000, (val_main_v1 (F := F) x0)⟩, ⟨S100000, (val_main_v5 (F := F))⟩] concatenates_S1600000_S100000_S1700000_d0

-- %7 = stablehlo.concatenate %3, %5, dim = 0 : (tensor<1600000xi32>, tensor<100000xi32>) -> tensor<1700000xi32>
def val_main_v7 (x0 : (⟨S2x1600000, .i32⟩ : BufTy).Contents (Elt F)) : (⟨S1700000, .i32⟩ : BufTy).Contents (Elt F) :=
  concatenate S1700000 0 [⟨S1600000, (val_main_v3 (F := F) x0)⟩, ⟨S100000, (val_main_v5 (F := F))⟩] concatenates_S1600000_S100000_S1700000_d0

-- %cst = stablehlo.constant dense<1.000000e+00> : tensor<f32>
def val_main_cst : (⟨S_, .f32⟩ : BufTy).Contents (Elt F) :=
  constant S_ .f32 0x3F800000#32
theorem val_main_cst_apply (i : S_.Idx) :
    val_main_cst (F := F) i = FloatOps.ofBits .f32 0x3F800000#32 := rfl

-- %8 = stablehlo.broadcast_in_dim %cst, dims = [] : (tensor<f32>) -> tensor<1700000xf32>
def val_main_v8 : (⟨S1700000, .f32⟩ : BufTy).Contents (Elt F) :=
  broadcastInDim S1700000 ![] bcast_S_S1700000 (val_main_cst (F := F))
abbrev idx_main_v8 (i : S1700000.Idx) : S_.Idx := fun a => a.elim0
theorem val_main_v8_apply (i : S1700000.Idx) :
    val_main_v8 (F := F) i = val_main_cst (F := F) (idx_main_v8 i) := by
  unfold val_main_v8
  generalize val_main_cst (F := F) = y
  exact broadcastInDim_apply _ bcast_S_S1700000 y i (idx_main_v8 i) (fun a => a.elim0)

-- %cst_0 = stablehlo.constant dense<0.000000e+00> : tensor<f32>
def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

-- %9 = stablehlo.broadcast_in_dim %cst_0, dims = [] : (tensor<f32>) -> tensor<100000xf32>
def val_main_v9 : (⟨S100000, .f32⟩ : BufTy).Contents (Elt F) :=
  broadcastInDim S100000 ![] bcast_S_S100000 (val_main_cst_0 (F := F))
abbrev idx_main_v9 (i : S100000.Idx) : S_.Idx := fun a => a.elim0
theorem val_main_v9_apply (i : S100000.Idx) :
    val_main_v9 (F := F) i = val_main_cst_0 (F := F) (idx_main_v9 i) := by
  unfold val_main_v9
  generalize val_main_cst_0 (F := F) = y
  exact broadcastInDim_apply _ bcast_S_S100000 y i (idx_main_v9 i) (fun a => a.elim0)

-- %10 = stablehlo.broadcast_in_dim %7, dims = [0] : (tensor<1700000xi32>) -> tensor<1700000x1xi32>
def val_main_v10 (x0 : (⟨S2x1600000, .i32⟩ : BufTy).Contents (Elt F)) : (⟨S1700000x1, .i32⟩ : BufTy).Contents (Elt F) :=
  broadcastInDim S1700000x1 ![0] bcast_S1700000_S1700000x1_0 (val_main_v7 (F := F) x0)
abbrev idx_main_v10 (i : S1700000x1.Idx) : S1700000.Idx := fun a => match a with
  | ⟨0, _⟩ => ⟨(i 0).val, (i 0).isLt⟩
theorem val_main_v10_apply (x0 : (⟨S2x1600000, .i32⟩ : BufTy).Contents (Elt F)) (i : S1700000x1.Idx) :
    val_main_v10 (F := F) x0 i = val_main_v7 (F := F) x0 (idx_main_v10 i) := by
  unfold val_main_v10
  generalize val_main_v7 (F := F) x0 = y
  exact broadcastInDim_apply _ bcast_S1700000_S1700000x1_0 y i (idx_main_v10 i) (fun a => match a with
    | ⟨0, _⟩ => by show (i 0).val = if (1700000 : Nat) = 1 then 0 else (i 0).val; rw [if_neg (by decide)])

-- %11 = "stablehlo.scatter"(%9, %10, %8) <{indices_are_sorted = false, scatter_dimension_numbers = #stablehlo.scatter<inserted_window_dims = [0], scatter_dims_to_operand_dims = [0], index_vector_dim = 1>, unique_indices = false}> ( {
def val_main_v11 (x0 : (⟨S2x1600000, .i32⟩ : BufTy).Contents (Elt F)) : (⟨S100000, .f32⟩ : BufTy).Contents (Elt F) :=
  Host.scatterAdd scatter_S100000_S1700000x1_S1700000_n_0_0_1 (val_main_v9 (F := F)) (val_main_v10 (F := F) x0) (val_main_v8 (F := F))

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %12 = stablehlo.broadcast_in_dim %cst_1, dims = [] : (tensor<f32>) -> tensor<100000xf32>
def val_main_v12 : (⟨S100000, .f32⟩ : BufTy).Contents (Elt F) :=
  broadcastInDim S100000 ![] bcast_S_S100000 (val_main_cst_1 (F := F))
abbrev idx_main_v12 (i : S100000.Idx) : S_.Idx := fun a => a.elim0
theorem val_main_v12_apply (i : S100000.Idx) :
    val_main_v12 (F := F) i = val_main_cst_1 (F := F) (idx_main_v12 i) := by
  unfold val_main_v12
  generalize val_main_cst_1 (F := F) = y
  exact broadcastInDim_apply _ bcast_S_S100000 y i (idx_main_v12 i) (fun a => a.elim0)

-- %13 = stablehlo.compare GT, %11, %12, FLOAT : (tensor<100000xf32>, tensor<100000xf32>) -> tensor<100000xi1>
def val_main_v13 (x0 : (⟨S2x1600000, .i32⟩ : BufTy).Contents (Elt F)) : (⟨S100000, .i1⟩ : BufTy).Contents (Elt F) :=
  cmpf .ogt (val_main_v11 (F := F) x0) (val_main_v12 (F := F))
theorem val_main_v13_apply (x0 : (⟨S2x1600000, .i32⟩ : BufTy).Contents (Elt F)) (i : S100000.Idx) :
    val_main_v13 (F := F) x0 i = FloatOps.cmpf .ogt (val_main_v11 (F := F) x0 i) (val_main_v12 (F := F) i) := rfl

-- %14 = stablehlo.rsqrt %11 : tensor<100000xf32>
def val_main_v14 (x0 : (⟨S2x1600000, .i32⟩ : BufTy).Contents (Elt F)) : (⟨S100000, .f32⟩ : BufTy).Contents (Elt F) :=
  Host.rsqrt (val_main_v11 (F := F) x0)
theorem val_main_v14_apply (x0 : (⟨S2x1600000, .i32⟩ : BufTy).Contents (Elt F)) (i : S100000.Idx) :
    val_main_v14 (F := F) x0 i = FloatOps.hostUnary .rsqrt (val_main_v11 (F := F) x0 i) := rfl

-- %cst_2 = stablehlo.constant dense<0.000000e+00> : tensor<f32>
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- @_where's %0 = stablehlo.convert %arg2 : tensor<f32>, in %15 = func.call @_where(…) (record main_call0)
def val_main_call0_v0 : (⟨S_, .f32⟩ : BufTy).Contents (Elt F) :=
  id (val_main_cst_2 (F := F))
theorem val_main_call0_v0_apply (i : S_.Idx) :
    val_main_call0_v0 (F := F) i = (val_main_cst_2 (F := F) i) := rfl

-- @_where's %1 = stablehlo.broadcast_in_dim %0, dims = [] : (tensor<f32>) -> tensor<100000xf32>, in %15 = func.call @_where(…) (record main_call0)
def val_main_call0_v1 : (⟨S100000, .f32⟩ : BufTy).Contents (Elt F) :=
  broadcastInDim S100000 ![] bcast_S_S100000 (val_main_call0_v0 (F := F))
abbrev idx_main_call0_v1 (i : S100000.Idx) : S_.Idx := fun a => a.elim0
theorem val_main_call0_v1_apply (i : S100000.Idx) :
    val_main_call0_v1 (F := F) i = val_main_call0_v0 (F := F) (idx_main_call0_v1 i) := by
  unfold val_main_call0_v1
  generalize val_main_call0_v0 (F := F) = y
  exact broadcastInDim_apply _ bcast_S_S100000 y i (idx_main_call0_v1 i) (fun a => a.elim0)

-- %15 = func.call @_where(…) (record main_call0) result 0: @_where's %2 = stablehlo.select %arg0, %arg1, %1 : tensor<100000xi1>, tensor<100000xf32>
def val_main_v15 (x0 : (⟨S2x1600000, .i32⟩ : BufTy).Contents (Elt F)) : (⟨S100000, .f32⟩ : BufTy).Contents (Elt F) :=
  select (val_main_v13 (F := F) x0) (val_main_v14 (F := F) x0) (val_main_call0_v1 (F := F))
theorem val_main_v15_apply (x0 : (⟨S2x1600000, .i32⟩ : BufTy).Contents (Elt F)) (i : S100000.Idx) :
    val_main_v15 (F := F) x0 i = Scalar.select (val_main_v13 (F := F) x0 i) (val_main_v14 (F := F) x0 i) (val_main_call0_v1 (F := F) i) := rfl

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %16 = stablehlo.broadcast_in_dim %c, dims = [] : (tensor<i32>) -> tensor<1700000xi32>
def val_main_v16 : (⟨S1700000, .i32⟩ : BufTy).Contents (Elt F) :=
  broadcastInDim S1700000 ![] bcast_S_S1700000 (val_main_c (F := F))
abbrev idx_main_v16 (i : S1700000.Idx) : S_.Idx := fun a => a.elim0
theorem val_main_v16_apply (i : S1700000.Idx) :
    val_main_v16 (F := F) i = val_main_c (F := F) (idx_main_v16 i) := by
  unfold val_main_v16
  generalize val_main_c (F := F) = y
  exact broadcastInDim_apply _ bcast_S_S1700000 y i (idx_main_v16 i) (fun a => a.elim0)

-- %17 = stablehlo.compare LT, %6, %16, SIGNED : (tensor<1700000xi32>, tensor<1700000xi32>) -> tensor<1700000xi1>
def val_main_v17 (x0 : (⟨S2x1600000, .i32⟩ : BufTy).Contents (Elt F)) : (⟨S1700000, .i1⟩ : BufTy).Contents (Elt F) :=
  cmpi .slt (val_main_v6 (F := F) x0) (val_main_v16 (F := F))
theorem val_main_v17_apply (x0 : (⟨S2x1600000, .i32⟩ : BufTy).Contents (Elt F)) (i : S1700000.Idx) :
    val_main_v17 (F := F) x0 i = IntOp.cmpi .slt (val_main_v6 (F := F) x0 i) (val_main_v16 (F := F) i) := rfl

-- %c_3 = stablehlo.constant dense<100000> : tensor<i32>
def val_main_c_3 : (⟨S_, .i32⟩ : BufTy).Contents (Elt F) :=
  constantI S_ 32 100000#32
theorem val_main_c_3_apply (i : S_.Idx) :
    val_main_c_3 (F := F) i = 100000#32 := rfl

-- %18 = stablehlo.broadcast_in_dim %c_3, dims = [] : (tensor<i32>) -> tensor<1700000xi32>
def val_main_v18 : (⟨S1700000, .i32⟩ : BufTy).Contents (Elt F) :=
  broadcastInDim S1700000 ![] bcast_S_S1700000 (val_main_c_3 (F := F))
abbrev idx_main_v18 (i : S1700000.Idx) : S_.Idx := fun a => a.elim0
theorem val_main_v18_apply (i : S1700000.Idx) :
    val_main_v18 (F := F) i = val_main_c_3 (F := F) (idx_main_v18 i) := by
  unfold val_main_v18
  generalize val_main_c_3 (F := F) = y
  exact broadcastInDim_apply _ bcast_S_S1700000 y i (idx_main_v18 i) (fun a => a.elim0)

-- %19 = stablehlo.add %6, %18 : tensor<1700000xi32>
def val_main_v19 (x0 : (⟨S2x1600000, .i32⟩ : BufTy).Contents (Elt F)) : (⟨S1700000, .i32⟩ : BufTy).Contents (Elt F) :=
  addi (val_main_v6 (F := F) x0) (val_main_v18 (F := F))
theorem val_main_v19_apply (x0 : (⟨S2x1600000, .i32⟩ : BufTy).Contents (Elt F)) (i : S1700000.Idx) :
    val_main_v19 (F := F) x0 i = IntOp.addi (val_main_v6 (F := F) x0 i) (val_main_v18 (F := F) i) := rfl

-- %20 = stablehlo.select %17, %19, %6 : tensor<1700000xi1>, tensor<1700000xi32>
def val_main_v20 (x0 : (⟨S2x1600000, .i32⟩ : BufTy).Contents (Elt F)) : (⟨S1700000, .i32⟩ : BufTy).Contents (Elt F) :=
  select (val_main_v17 (F := F) x0) (val_main_v19 (F := F) x0) (val_main_v6 (F := F) x0)
theorem val_main_v20_apply (x0 : (⟨S2x1600000, .i32⟩ : BufTy).Contents (Elt F)) (i : S1700000.Idx) :
    val_main_v20 (F := F) x0 i = Scalar.select (val_main_v17 (F := F) x0 i) (val_main_v19 (F := F) x0 i) (val_main_v6 (F := F) x0 i) := rfl

-- %21 = stablehlo.broadcast_in_dim %20, dims = [0] : (tensor<1700000xi32>) -> tensor<1700000x1xi32>
def val_main_v21 (x0 : (⟨S2x1600000, .i32⟩ : BufTy).Contents (Elt F)) : (⟨S1700000x1, .i32⟩ : BufTy).Contents (Elt F) :=
  broadcastInDim S1700000x1 ![0] bcast_S1700000_S1700000x1_0 (val_main_v20 (F := F) x0)
abbrev idx_main_v21 (i : S1700000x1.Idx) : S1700000.Idx := fun a => match a with
  | ⟨0, _⟩ => ⟨(i 0).val, (i 0).isLt⟩
theorem val_main_v21_apply (x0 : (⟨S2x1600000, .i32⟩ : BufTy).Contents (Elt F)) (i : S1700000x1.Idx) :
    val_main_v21 (F := F) x0 i = val_main_v20 (F := F) x0 (idx_main_v21 i) := by
  unfold val_main_v21
  generalize val_main_v20 (F := F) x0 = y
  exact broadcastInDim_apply _ bcast_S1700000_S1700000x1_0 y i (idx_main_v21 i) (fun a => match a with
    | ⟨0, _⟩ => by show (i 0).val = if (1700000 : Nat) = 1 then 0 else (i 0).val; rw [if_neg (by decide)])

-- %22 = "stablehlo.gather"(%15, %21) <{dimension_numbers = #stablehlo.gather<collapsed_slice_dims = [0], start_index_map = [0], index_vector_dim = 1>, indices_are_sorted = false, slice_sizes = array<i64: 1>}> : (tensor<100000xf32>, tensor<1700000x1xi32>) -> tensor<1700000xf32>
def val_main_v22 (x0 : (⟨S2x1600000, .i32⟩ : BufTy).Contents (Elt F)) : (⟨S1700000, .f32⟩ : BufTy).Contents (Elt F) :=
  Host.gather gather_S100000_S1700000x1_S1700000_n_0_n_n_0_1_1 (val_main_v15 (F := F) x0) (val_main_v21 (F := F) x0)

-- %c_4 = stablehlo.constant dense<0> : tensor<i32>
def val_main_c_4 : (⟨S_, .i32⟩ : BufTy).Contents (Elt F) :=
  constantI S_ 32 0#32
theorem val_main_c_4_apply (i : S_.Idx) :
    val_main_c_4 (F := F) i = 0#32 := rfl

-- %23 = stablehlo.broadcast_in_dim %c_4, dims = [] : (tensor<i32>) -> tensor<1700000xi32>
def val_main_v23 : (⟨S1700000, .i32⟩ : BufTy).Contents (Elt F) :=
  broadcastInDim S1700000 ![] bcast_S_S1700000 (val_main_c_4 (F := F))
abbrev idx_main_v23 (i : S1700000.Idx) : S_.Idx := fun a => a.elim0
theorem val_main_v23_apply (i : S1700000.Idx) :
    val_main_v23 (F := F) i = val_main_c_4 (F := F) (idx_main_v23 i) := by
  unfold val_main_v23
  generalize val_main_c_4 (F := F) = y
  exact broadcastInDim_apply _ bcast_S_S1700000 y i (idx_main_v23 i) (fun a => a.elim0)

-- %24 = stablehlo.compare LT, %7, %23, SIGNED : (tensor<1700000xi32>, tensor<1700000xi32>) -> tensor<1700000xi1>
def val_main_v24 (x0 : (⟨S2x1600000, .i32⟩ : BufTy).Contents (Elt F)) : (⟨S1700000, .i1⟩ : BufTy).Contents (Elt F) :=
  cmpi .slt (val_main_v7 (F := F) x0) (val_main_v23 (F := F))
theorem val_main_v24_apply (x0 : (⟨S2x1600000, .i32⟩ : BufTy).Contents (Elt F)) (i : S1700000.Idx) :
    val_main_v24 (F := F) x0 i = IntOp.cmpi .slt (val_main_v7 (F := F) x0 i) (val_main_v23 (F := F) i) := rfl

-- %c_5 = stablehlo.constant dense<100000> : tensor<i32>
def val_main_c_5 : (⟨S_, .i32⟩ : BufTy).Contents (Elt F) :=
  constantI S_ 32 100000#32
theorem val_main_c_5_apply (i : S_.Idx) :
    val_main_c_5 (F := F) i = 100000#32 := rfl

-- %25 = stablehlo.broadcast_in_dim %c_5, dims = [] : (tensor<i32>) -> tensor<1700000xi32>
def val_main_v25 : (⟨S1700000, .i32⟩ : BufTy).Contents (Elt F) :=
  broadcastInDim S1700000 ![] bcast_S_S1700000 (val_main_c_5 (F := F))
abbrev idx_main_v25 (i : S1700000.Idx) : S_.Idx := fun a => a.elim0
theorem val_main_v25_apply (i : S1700000.Idx) :
    val_main_v25 (F := F) i = val_main_c_5 (F := F) (idx_main_v25 i) := by
  unfold val_main_v25
  generalize val_main_c_5 (F := F) = y
  exact broadcastInDim_apply _ bcast_S_S1700000 y i (idx_main_v25 i) (fun a => a.elim0)

-- %26 = stablehlo.add %7, %25 : tensor<1700000xi32>
def val_main_v26 (x0 : (⟨S2x1600000, .i32⟩ : BufTy).Contents (Elt F)) : (⟨S1700000, .i32⟩ : BufTy).Contents (Elt F) :=
  addi (val_main_v7 (F := F) x0) (val_main_v25 (F := F))
theorem val_main_v26_apply (x0 : (⟨S2x1600000, .i32⟩ : BufTy).Contents (Elt F)) (i : S1700000.Idx) :
    val_main_v26 (F := F) x0 i = IntOp.addi (val_main_v7 (F := F) x0 i) (val_main_v25 (F := F) i) := rfl

-- %27 = stablehlo.select %24, %26, %7 : tensor<1700000xi1>, tensor<1700000xi32>
def val_main_v27 (x0 : (⟨S2x1600000, .i32⟩ : BufTy).Contents (Elt F)) : (⟨S1700000, .i32⟩ : BufTy).Contents (Elt F) :=
  select (val_main_v24 (F := F) x0) (val_main_v26 (F := F) x0) (val_main_v7 (F := F) x0)
theorem val_main_v27_apply (x0 : (⟨S2x1600000, .i32⟩ : BufTy).Contents (Elt F)) (i : S1700000.Idx) :
    val_main_v27 (F := F) x0 i = Scalar.select (val_main_v24 (F := F) x0 i) (val_main_v26 (F := F) x0 i) (val_main_v7 (F := F) x0 i) := rfl

-- %28 = stablehlo.broadcast_in_dim %27, dims = [0] : (tensor<1700000xi32>) -> tensor<1700000x1xi32>
def val_main_v28 (x0 : (⟨S2x1600000, .i32⟩ : BufTy).Contents (Elt F)) : (⟨S1700000x1, .i32⟩ : BufTy).Contents (Elt F) :=
  broadcastInDim S1700000x1 ![0] bcast_S1700000_S1700000x1_0 (val_main_v27 (F := F) x0)
abbrev idx_main_v28 (i : S1700000x1.Idx) : S1700000.Idx := fun a => match a with
  | ⟨0, _⟩ => ⟨(i 0).val, (i 0).isLt⟩
theorem val_main_v28_apply (x0 : (⟨S2x1600000, .i32⟩ : BufTy).Contents (Elt F)) (i : S1700000x1.Idx) :
    val_main_v28 (F := F) x0 i = val_main_v27 (F := F) x0 (idx_main_v28 i) := by
  unfold val_main_v28
  generalize val_main_v27 (F := F) x0 = y
  exact broadcastInDim_apply _ bcast_S1700000_S1700000x1_0 y i (idx_main_v28 i) (fun a => match a with
    | ⟨0, _⟩ => by show (i 0).val = if (1700000 : Nat) = 1 then 0 else (i 0).val; rw [if_neg (by decide)])

-- %29 = "stablehlo.gather"(%15, %28) <{dimension_numbers = #stablehlo.gather<collapsed_slice_dims = [0], start_index_map = [0], index_vector_dim = 1>, indices_are_sorted = false, slice_sizes = array<i64: 1>}> : (tensor<100000xf32>, tensor<1700000x1xi32>) -> tensor<1700000xf32>
def val_main_v29 (x0 : (⟨S2x1600000, .i32⟩ : BufTy).Contents (Elt F)) : (⟨S1700000, .f32⟩ : BufTy).Contents (Elt F) :=
  Host.gather gather_S100000_S1700000x1_S1700000_n_0_n_n_0_1_1 (val_main_v15 (F := F) x0) (val_main_v28 (F := F) x0)

-- %30 = stablehlo.multiply %22, %29 : tensor<1700000xf32>
def val_main_v30 (x0 : (⟨S2x1600000, .i32⟩ : BufTy).Contents (Elt F)) : (⟨S1700000, .f32⟩ : BufTy).Contents (Elt F) :=
  mulf (val_main_v22 (F := F) x0) (val_main_v29 (F := F) x0)
theorem val_main_v30_apply (x0 : (⟨S2x1600000, .i32⟩ : BufTy).Contents (Elt F)) (i : S1700000.Idx) :
    val_main_v30 (F := F) x0 i = FloatOps.mulf (val_main_v22 (F := F) x0 i) (val_main_v29 (F := F) x0 i) := rfl

-- %c_6 = stablehlo.constant dense<0> : tensor<i32>
def val_main_c_6 : (⟨S_, .i32⟩ : BufTy).Contents (Elt F) :=
  constantI S_ 32 0#32
theorem val_main_c_6_apply (i : S_.Idx) :
    val_main_c_6 (F := F) i = 0#32 := rfl

-- %31 = stablehlo.broadcast_in_dim %c_6, dims = [] : (tensor<i32>) -> tensor<1700000xi32>
def val_main_v31 : (⟨S1700000, .i32⟩ : BufTy).Contents (Elt F) :=
  broadcastInDim S1700000 ![] bcast_S_S1700000 (val_main_c_6 (F := F))
abbrev idx_main_v31 (i : S1700000.Idx) : S_.Idx := fun a => a.elim0
theorem val_main_v31_apply (i : S1700000.Idx) :
    val_main_v31 (F := F) i = val_main_c_6 (F := F) (idx_main_v31 i) := by
  unfold val_main_v31
  generalize val_main_c_6 (F := F) = y
  exact broadcastInDim_apply _ bcast_S_S1700000 y i (idx_main_v31 i) (fun a => a.elim0)

-- %32 = stablehlo.compare LT, %6, %31, SIGNED : (tensor<1700000xi32>, tensor<1700000xi32>) -> tensor<1700000xi1>
def val_main_v32 (x0 : (⟨S2x1600000, .i32⟩ : BufTy).Contents (Elt F)) : (⟨S1700000, .i1⟩ : BufTy).Contents (Elt F) :=
  cmpi .slt (val_main_v6 (F := F) x0) (val_main_v31 (F := F))
theorem val_main_v32_apply (x0 : (⟨S2x1600000, .i32⟩ : BufTy).Contents (Elt F)) (i : S1700000.Idx) :
    val_main_v32 (F := F) x0 i = IntOp.cmpi .slt (val_main_v6 (F := F) x0 i) (val_main_v31 (F := F) i) := rfl

-- %c_7 = stablehlo.constant dense<100000> : tensor<i32>
def val_main_c_7 : (⟨S_, .i32⟩ : BufTy).Contents (Elt F) :=
  constantI S_ 32 100000#32
theorem val_main_c_7_apply (i : S_.Idx) :
    val_main_c_7 (F := F) i = 100000#32 := rfl

-- %33 = stablehlo.broadcast_in_dim %c_7, dims = [] : (tensor<i32>) -> tensor<1700000xi32>
def val_main_v33 : (⟨S1700000, .i32⟩ : BufTy).Contents (Elt F) :=
  broadcastInDim S1700000 ![] bcast_S_S1700000 (val_main_c_7 (F := F))
abbrev idx_main_v33 (i : S1700000.Idx) : S_.Idx := fun a => a.elim0
theorem val_main_v33_apply (i : S1700000.Idx) :
    val_main_v33 (F := F) i = val_main_c_7 (F := F) (idx_main_v33 i) := by
  unfold val_main_v33
  generalize val_main_c_7 (F := F) = y
  exact broadcastInDim_apply _ bcast_S_S1700000 y i (idx_main_v33 i) (fun a => a.elim0)

-- %34 = stablehlo.add %6, %33 : tensor<1700000xi32>
def val_main_v34 (x0 : (⟨S2x1600000, .i32⟩ : BufTy).Contents (Elt F)) : (⟨S1700000, .i32⟩ : BufTy).Contents (Elt F) :=
  addi (val_main_v6 (F := F) x0) (val_main_v33 (F := F))
theorem val_main_v34_apply (x0 : (⟨S2x1600000, .i32⟩ : BufTy).Contents (Elt F)) (i : S1700000.Idx) :
    val_main_v34 (F := F) x0 i = IntOp.addi (val_main_v6 (F := F) x0 i) (val_main_v33 (F := F) i) := rfl

-- %35 = stablehlo.select %32, %34, %6 : tensor<1700000xi1>, tensor<1700000xi32>
def val_main_v35 (x0 : (⟨S2x1600000, .i32⟩ : BufTy).Contents (Elt F)) : (⟨S1700000, .i32⟩ : BufTy).Contents (Elt F) :=
  select (val_main_v32 (F := F) x0) (val_main_v34 (F := F) x0) (val_main_v6 (F := F) x0)
theorem val_main_v35_apply (x0 : (⟨S2x1600000, .i32⟩ : BufTy).Contents (Elt F)) (i : S1700000.Idx) :
    val_main_v35 (F := F) x0 i = Scalar.select (val_main_v32 (F := F) x0 i) (val_main_v34 (F := F) x0 i) (val_main_v6 (F := F) x0 i) := rfl

-- %36 = stablehlo.broadcast_in_dim %35, dims = [0] : (tensor<1700000xi32>) -> tensor<1700000x1xi32>
def val_main_v36 (x0 : (⟨S2x1600000, .i32⟩ : BufTy).Contents (Elt F)) : (⟨S1700000x1, .i32⟩ : BufTy).Contents (Elt F) :=
  broadcastInDim S1700000x1 ![0] bcast_S1700000_S1700000x1_0 (val_main_v35 (F := F) x0)
abbrev idx_main_v36 (i : S1700000x1.Idx) : S1700000.Idx := fun a => match a with
  | ⟨0, _⟩ => ⟨(i 0).val, (i 0).isLt⟩
theorem val_main_v36_apply (x0 : (⟨S2x1600000, .i32⟩ : BufTy).Contents (Elt F)) (i : S1700000x1.Idx) :
    val_main_v36 (F := F) x0 i = val_main_v35 (F := F) x0 (idx_main_v36 i) := by
  unfold val_main_v36
  generalize val_main_v35 (F := F) x0 = y
  exact broadcastInDim_apply _ bcast_S1700000_S1700000x1_0 y i (idx_main_v36 i) (fun a => match a with
    | ⟨0, _⟩ => by show (i 0).val = if (1700000 : Nat) = 1 then 0 else (i 0).val; rw [if_neg (by decide)])

-- %37 = "stablehlo.gather"(%4, %36) <{dimension_numbers = #stablehlo.gather<offset_dims = [1], collapsed_slice_dims = [0], start_index_map = [0], index_vector_dim = 1>, indices_are_sorted = false, slice_sizes = array<i64: 1, 128>}> : (tensor<100000x128xf32>, tensor<1700000x1xi32>) -> tensor<1700000x128xf32>
def val_main_v37 (x0 : (⟨S2x1600000, .i32⟩ : BufTy).Contents (Elt F)) (x2 : (⟨S100000x128, .f32⟩ : BufTy).Contents (Elt F)) (x3 : (⟨S128x128, .f32⟩ : BufTy).Contents (Elt F)) : (⟨S1700000x128, .f32⟩ : BufTy).Contents (Elt F) :=
  Host.gather gather_S100000x128_S1700000x1_S1700000x128_1_0_n_n_0_1_1128 (val_main_v4 (F := F) x2 x3) (val_main_v36 (F := F) x0)

-- %38 = stablehlo.broadcast_in_dim %30, dims = [0] : (tensor<1700000xf32>) -> tensor<1700000x1xf32>
def val_main_v38 (x0 : (⟨S2x1600000, .i32⟩ : BufTy).Contents (Elt F)) : (⟨S1700000x1, .f32⟩ : BufTy).Contents (Elt F) :=
  broadcastInDim S1700000x1 ![0] bcast_S1700000_S1700000x1_0 (val_main_v30 (F := F) x0)
abbrev idx_main_v38 (i : S1700000x1.Idx) : S1700000.Idx := fun a => match a with
  | ⟨0, _⟩ => ⟨(i 0).val, (i 0).isLt⟩
theorem val_main_v38_apply (x0 : (⟨S2x1600000, .i32⟩ : BufTy).Contents (Elt F)) (i : S1700000x1.Idx) :
    val_main_v38 (F := F) x0 i = val_main_v30 (F := F) x0 (idx_main_v38 i) := by
  unfold val_main_v38
  generalize val_main_v30 (F := F) x0 = y
  exact broadcastInDim_apply _ bcast_S1700000_S1700000x1_0 y i (idx_main_v38 i) (fun a => match a with
    | ⟨0, _⟩ => by show (i 0).val = if (1700000 : Nat) = 1 then 0 else (i 0).val; rw [if_neg (by decide)])

-- %39 = stablehlo.broadcast_in_dim %38, dims = [0, 1] : (tensor<1700000x1xf32>) -> tensor<1700000x128xf32>
def val_main_v39 (x0 : (⟨S2x1600000, .i32⟩ : BufTy).Contents (Elt F)) : (⟨S1700000x128, .f32⟩ : BufTy).Contents (Elt F) :=
  broadcastInDim S1700000x128 ![0, 1] bcast_S1700000x1_S1700000x128_0_1 (val_main_v38 (F := F) x0)
abbrev idx_main_v39 (i : S1700000x128.Idx) : S1700000x1.Idx := fun a => match a with
  | ⟨0, _⟩ => ⟨(i 0).val, (i 0).isLt⟩
  | ⟨1, _⟩ => ⟨0, Nat.one_pos⟩
theorem val_main_v39_apply (x0 : (⟨S2x1600000, .i32⟩ : BufTy).Contents (Elt F)) (i : S1700000x128.Idx) :
    val_main_v39 (F := F) x0 i = val_main_v38 (F := F) x0 (idx_main_v39 i) := by
  unfold val_main_v39
  generalize val_main_v38 (F := F) x0 = y
  exact broadcastInDim_apply _ bcast_S1700000x1_S1700000x128_0_1 y i (idx_main_v39 i) (fun a => match a with
    | ⟨0, _⟩ => by show (i 0).val = if (1700000 : Nat) = 1 then 0 else (i 0).val; rw [if_neg (by decide)]
    | ⟨1, _⟩ => by show 0 = if (1 : Nat) = 1 then 0 else (i 1).val; rw [if_pos rfl])

-- %40 = stablehlo.multiply %37, %39 : tensor<1700000x128xf32>
def val_main_v40 (x0 : (⟨S2x1600000, .i32⟩ : BufTy).Contents (Elt F)) (x2 : (⟨S100000x128, .f32⟩ : BufTy).Contents (Elt F)) (x3 : (⟨S128x128, .f32⟩ : BufTy).Contents (Elt F)) : (⟨S1700000x128, .f32⟩ : BufTy).Contents (Elt F) :=
  mulf (val_main_v37 (F := F) x0 x2 x3) (val_main_v39 (F := F) x0)
theorem val_main_v40_apply (x0 : (⟨S2x1600000, .i32⟩ : BufTy).Contents (Elt F)) (x2 : (⟨S100000x128, .f32⟩ : BufTy).Contents (Elt F)) (x3 : (⟨S128x128, .f32⟩ : BufTy).Contents (Elt F)) (i : S1700000x128.Idx) :
    val_main_v40 (F := F) x0 x2 x3 i = FloatOps.mulf (val_main_v37 (F := F) x0 x2 x3 i) (val_main_v39 (F := F) x0 i) := rfl

-- %cst_8 = stablehlo.constant dense<0.000000e+00> : tensor<f32>
def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

-- %41 = stablehlo.broadcast_in_dim %cst_8, dims = [] : (tensor<f32>) -> tensor<100000x128xf32>
def val_main_v41 : (⟨S100000x128, .f32⟩ : BufTy).Contents (Elt F) :=
  broadcastInDim S100000x128 ![] bcast_S_S100000x128 (val_main_cst_8 (F := F))
abbrev idx_main_v41 (i : S100000x128.Idx) : S_.Idx := fun a => a.elim0
theorem val_main_v41_apply (i : S100000x128.Idx) :
    val_main_v41 (F := F) i = val_main_cst_8 (F := F) (idx_main_v41 i) := by
  unfold val_main_v41
  generalize val_main_cst_8 (F := F) = y
  exact broadcastInDim_apply _ bcast_S_S100000x128 y i (idx_main_v41 i) (fun a => a.elim0)

-- %42 = stablehlo.broadcast_in_dim %7, dims = [0] : (tensor<1700000xi32>) -> tensor<1700000x1xi32>
def val_main_v42 (x0 : (⟨S2x1600000, .i32⟩ : BufTy).Contents (Elt F)) : (⟨S1700000x1, .i32⟩ : BufTy).Contents (Elt F) :=
  broadcastInDim S1700000x1 ![0] bcast_S1700000_S1700000x1_0 (val_main_v7 (F := F) x0)
abbrev idx_main_v42 (i : S1700000x1.Idx) : S1700000.Idx := fun a => match a with
  | ⟨0, _⟩ => ⟨(i 0).val, (i 0).isLt⟩
theorem val_main_v42_apply (x0 : (⟨S2x1600000, .i32⟩ : BufTy).Contents (Elt F)) (i : S1700000x1.Idx) :
    val_main_v42 (F := F) x0 i = val_main_v7 (F := F) x0 (idx_main_v42 i) := by
  unfold val_main_v42
  generalize val_main_v7 (F := F) x0 = y
  exact broadcastInDim_apply _ bcast_S1700000_S1700000x1_0 y i (idx_main_v42 i) (fun a => match a with
    | ⟨0, _⟩ => by show (i 0).val = if (1700000 : Nat) = 1 then 0 else (i 0).val; rw [if_neg (by decide)])

-- %43 = "stablehlo.scatter"(%41, %42, %40) <{indices_are_sorted = false, scatter_dimension_numbers = #stablehlo.scatter<update_window_dims = [1], inserted_window_dims = [0], scatter_dims_to_operand_dims = [0], index_vector_dim = 1>, unique_indices = false}> ( {
def val_main_v43 (x0 : (⟨S2x1600000, .i32⟩ : BufTy).Contents (Elt F)) (x2 : (⟨S100000x128, .f32⟩ : BufTy).Contents (Elt F)) (x3 : (⟨S128x128, .f32⟩ : BufTy).Contents (Elt F)) : (⟨S100000x128, .f32⟩ : BufTy).Contents (Elt F) :=
  Host.scatterAdd scatter_S100000x128_S1700000x1_S1700000x128_1_0_0_1 (val_main_v41 (F := F)) (val_main_v42 (F := F) x0) (val_main_v40 (F := F) x0 x2 x3)

-- %44 = stablehlo.broadcast_in_dim %arg4, dims = [1] : (tensor<128xf32>) -> tensor<1x128xf32>
def val_main_v44 (x4 : (⟨S128, .f32⟩ : BufTy).Contents (Elt F)) : (⟨S1x128, .f32⟩ : BufTy).Contents (Elt F) :=
  broadcastInDim S1x128 ![1] bcast_S128_S1x128_1 (x4)
abbrev idx_main_v44 (i : S1x128.Idx) : S128.Idx := fun a => match a with
  | ⟨0, _⟩ => ⟨(i 1).val, (i 1).isLt⟩
theorem val_main_v44_apply (x4 : (⟨S128, .f32⟩ : BufTy).Contents (Elt F)) (i : S1x128.Idx) :
    val_main_v44 (F := F) x4 i = x4 (idx_main_v44 i) := by
  unfold val_main_v44
  exact broadcastInDim_apply _ bcast_S128_S1x128_1 x4 i (idx_main_v44 i) (fun a => match a with
    | ⟨0, _⟩ => by show (i 1).val = if (128 : Nat) = 1 then 0 else (i 1).val; rw [if_neg (by decide)])

-- %45 = stablehlo.broadcast_in_dim %44, dims = [0, 1] : (tensor<1x128xf32>) -> tensor<100000x128xf32>
def val_main_v45 (x4 : (⟨S128, .f32⟩ : BufTy).Contents (Elt F)) : (⟨S100000x128, .f32⟩ : BufTy).Contents (Elt F) :=
  broadcastInDim S100000x128 ![0, 1] bcast_S1x128_S100000x128_0_1 (val_main_v44 (F := F) x4)
abbrev idx_main_v45 (i : S100000x128.Idx) : S1x128.Idx := fun a => match a with
  | ⟨0, _⟩ => ⟨0, Nat.one_pos⟩
  | ⟨1, _⟩ => ⟨(i 1).val, (i 1).isLt⟩
theorem val_main_v45_apply (x4 : (⟨S128, .f32⟩ : BufTy).Contents (Elt F)) (i : S100000x128.Idx) :
    val_main_v45 (F := F) x4 i = val_main_v44 (F := F) x4 (idx_main_v45 i) := by
  unfold val_main_v45
  generalize val_main_v44 (F := F) x4 = y
  exact broadcastInDim_apply _ bcast_S1x128_S100000x128_0_1 y i (idx_main_v45 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %46 = stablehlo.add %43, %45 : tensor<100000x128xf32>
def val_main_v46 (x0 : (⟨S2x1600000, .i32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  addf (val_main_v43 (F := F) x0 x2 x3) (val_main_v45 (F := F) x4)
theorem val_main_v46_apply (x0 : (⟨S2x1600000, .i32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) (i : S100000x128.Idx) :
    val_main_v46 (F := F) x0 x2 x3 x4 i = FloatOps.addf (val_main_v43 (F := F) x0 x2 x3 i) (val_main_v45 (F := F) x4 i) := rfl

-- @relu's %cst = stablehlo.constant dense<0.000000e+00> : tensor<f32>, in %47 = func.call @relu(…) (record main_call1)
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

-- @relu's %0 = stablehlo.broadcast_in_dim %cst, dims = [] : (tensor<f32>) -> tensor<100000x128xf32>, in %47 = func.call @relu(…) (record main_call1)
def val_main_call1_v0 : (⟨S100000x128, .f32⟩ : BufTy).Contents (Elt F) :=
  broadcastInDim S100000x128 ![] bcast_S_S100000x128 (val_main_call1_cst (F := F))
abbrev idx_main_call1_v0 (i : S100000x128.Idx) : S_.Idx := fun a => a.elim0
theorem val_main_call1_v0_apply (i : S100000x128.Idx) :
    val_main_call1_v0 (F := F) i = val_main_call1_cst (F := F) (idx_main_call1_v0 i) := by
  unfold val_main_call1_v0
  generalize val_main_call1_cst (F := F) = y
  exact broadcastInDim_apply _ bcast_S_S100000x128 y i (idx_main_call1_v0 i) (fun a => a.elim0)

-- %47 = func.call @relu(…) (record main_call1) result 0: @relu's %1 = stablehlo.maximum %arg0, %0 : tensor<100000x128xf32>
def val_main_v47 (x0 : (⟨S2x1600000, .i32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) : (⟨S100000x128, .f32⟩ : BufTy).Contents (Elt F) :=
  maximumf (val_main_v46 (F := F) x0 x2 x3 x4) (val_main_call1_v0 (F := F))
theorem val_main_v47_apply (x0 : (⟨S2x1600000, .i32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) (i : S100000x128.Idx) :
    val_main_v47 (F := F) x0 x2 x3 x4 i = FloatOps.maximumf (val_main_v46 (F := F) x0 x2 x3 x4 i) (val_main_call1_v0 (F := F) i) := rfl

-- %48 = stablehlo.dot_general %47, %arg5, contracting_dims = [1] x [0], precision = [DEFAULT, DEFAULT] : (tensor<100000x128xf32>, tensor<128x128xf32>) -> tensor<100000x128xf32>
def val_main_v48 (x0 : (⟨S2x1600000, .i32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S100000x128, .f32⟩ : BufTy).Contents (Elt F) :=
  Host.dotGeneral dot_S100000x128_S128x128_S100000x128_1_0_0_1_n_n none (val_main_v47 (F := F) x0 x2 x3 x4) (x5)
theorem lhs_main_v48_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v48_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v48_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v48_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v48 (i : S100000x128.Idx) (k : Fin 128) : S100000x128.Idx := fun a => match a with
  | ⟨0, _⟩ => ⟨(i 0).val, (i 0).isLt⟩
  | ⟨1, _⟩ => ⟨k.val, k.isLt⟩
abbrev ridx_main_v48 (i : S100000x128.Idx) (k : Fin 128) : S128x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v48_apply (x0 : (⟨S2x1600000, .i32⟩ : BufTy).Contents (Elt Ideal)) (x2 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (i : S100000x128.Idx) :
    val_main_v48 (F := Ideal) x0 x2 x3 x4 x5 i = ∑ k : Fin 128, (val_main_v47 (F := Ideal) x0 x2 x3 x4) (lidx_main_v48 i k) * x5 (ridx_main_v48 i k) := by
  unfold val_main_v48
  generalize val_main_v47 (F := Ideal) x0 x2 x3 x4 = y0
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v48 i k := funext fun a => Fin.ext (by
    match a with
    | ⟨0, _⟩ => exact lhs_main_v48_0 _ _
    | ⟨1, _⟩ => exact (lhs_main_v48_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v48 i k := funext fun a => Fin.ext (by
    match a with
    | ⟨0, _⟩ => exact (rhs_main_v48_0 _ _).trans hk
    | ⟨1, _⟩ => exact rhs_main_v48_1 _ _)
  rw [el, er]

-- %49 = stablehlo.iota dim = 0 : tensor<100000xi32>
def val_main_v49 : (⟨S100000, .i32⟩ : BufTy).Contents (Elt F) :=
  iotaInDim S100000 32 0
theorem val_main_v49_apply (i : S100000.Idx) :
    val_main_v49 (F := F) i = BitVec.ofNat 32 (i 0).val := rfl

-- %50 = stablehlo.concatenate %1, %49, dim = 0 : (tensor<1600000xi32>, tensor<100000xi32>) -> tensor<1700000xi32>
def val_main_v50 (x0 : (⟨S2x1600000, .i32⟩ : BufTy).Contents (Elt F)) : (⟨S1700000, .i32⟩ : BufTy).Contents (Elt F) :=
  concatenate S1700000 0 [⟨S1600000, (val_main_v1 (F := F) x0)⟩, ⟨S100000, (val_main_v49 (F := F))⟩] concatenates_S1600000_S100000_S1700000_d0

-- %51 = stablehlo.concatenate %3, %49, dim = 0 : (tensor<1600000xi32>, tensor<100000xi32>) -> tensor<1700000xi32>
def val_main_v51 (x0 : (⟨S2x1600000, .i32⟩ : BufTy).Contents (Elt F)) : (⟨S1700000, .i32⟩ : BufTy).Contents (Elt F) :=
  concatenate S1700000 0 [⟨S1600000, (val_main_v3 (F := F) x0)⟩, ⟨S100000, (val_main_v49 (F := F))⟩] concatenates_S1600000_S100000_S1700000_d0

-- %cst_9 = stablehlo.constant dense<1.000000e+00> : tensor<f32>
def val_main_cst_9 : (⟨S_, .f32⟩ : BufTy).Contents (Elt F) :=
  constant S_ .f32 0x3F800000#32
theorem val_main_cst_9_apply (i : S_.Idx) :
    val_main_cst_9 (F := F) i = FloatOps.ofBits .f32 0x3F800000#32 := rfl

-- %52 = stablehlo.broadcast_in_dim %cst_9, dims = [] : (tensor<f32>) -> tensor<1700000xf32>
def val_main_v52 : (⟨S1700000, .f32⟩ : BufTy).Contents (Elt F) :=
  broadcastInDim S1700000 ![] bcast_S_S1700000 (val_main_cst_9 (F := F))
abbrev idx_main_v52 (i : S1700000.Idx) : S_.Idx := fun a => a.elim0
theorem val_main_v52_apply (i : S1700000.Idx) :
    val_main_v52 (F := F) i = val_main_cst_9 (F := F) (idx_main_v52 i) := by
  unfold val_main_v52
  generalize val_main_cst_9 (F := F) = y
  exact broadcastInDim_apply _ bcast_S_S1700000 y i (idx_main_v52 i) (fun a => a.elim0)

-- %cst_10 = stablehlo.constant dense<0.000000e+00> : tensor<f32>
def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

-- %53 = stablehlo.broadcast_in_dim %cst_10, dims = [] : (tensor<f32>) -> tensor<100000xf32>
def val_main_v53 : (⟨S100000, .f32⟩ : BufTy).Contents (Elt F) :=
  broadcastInDim S100000 ![] bcast_S_S100000 (val_main_cst_10 (F := F))
abbrev idx_main_v53 (i : S100000.Idx) : S_.Idx := fun a => a.elim0
theorem val_main_v53_apply (i : S100000.Idx) :
    val_main_v53 (F := F) i = val_main_cst_10 (F := F) (idx_main_v53 i) := by
  unfold val_main_v53
  generalize val_main_cst_10 (F := F) = y
  exact broadcastInDim_apply _ bcast_S_S100000 y i (idx_main_v53 i) (fun a => a.elim0)

-- %54 = stablehlo.broadcast_in_dim %51, dims = [0] : (tensor<1700000xi32>) -> tensor<1700000x1xi32>
def val_main_v54 (x0 : (⟨S2x1600000, .i32⟩ : BufTy).Contents (Elt F)) : (⟨S1700000x1, .i32⟩ : BufTy).Contents (Elt F) :=
  broadcastInDim S1700000x1 ![0] bcast_S1700000_S1700000x1_0 (val_main_v51 (F := F) x0)
abbrev idx_main_v54 (i : S1700000x1.Idx) : S1700000.Idx := fun a => match a with
  | ⟨0, _⟩ => ⟨(i 0).val, (i 0).isLt⟩
theorem val_main_v54_apply (x0 : (⟨S2x1600000, .i32⟩ : BufTy).Contents (Elt F)) (i : S1700000x1.Idx) :
    val_main_v54 (F := F) x0 i = val_main_v51 (F := F) x0 (idx_main_v54 i) := by
  unfold val_main_v54
  generalize val_main_v51 (F := F) x0 = y
  exact broadcastInDim_apply _ bcast_S1700000_S1700000x1_0 y i (idx_main_v54 i) (fun a => match a with
    | ⟨0, _⟩ => by show (i 0).val = if (1700000 : Nat) = 1 then 0 else (i 0).val; rw [if_neg (by decide)])

-- %55 = "stablehlo.scatter"(%53, %54, %52) <{indices_are_sorted = false, scatter_dimension_numbers = #stablehlo.scatter<inserted_window_dims = [0], scatter_dims_to_operand_dims = [0], index_vector_dim = 1>, unique_indices = false}> ( {
def val_main_v55 (x0 : (⟨S2x1600000, .i32⟩ : BufTy).Contents (Elt F)) : (⟨S100000, .f32⟩ : BufTy).Contents (Elt F) :=
  Host.scatterAdd scatter_S100000_S1700000x1_S1700000_n_0_0_1 (val_main_v53 (F := F)) (val_main_v54 (F := F) x0) (val_main_v52 (F := F))

-- %cst_11 = stablehlo.constant dense<0.000000e+00> : tensor<f32>
def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

-- %56 = stablehlo.broadcast_in_dim %cst_11, dims = [] : (tensor<f32>) -> tensor<100000xf32>
def val_main_v56 : (⟨S100000, .f32⟩ : BufTy).Contents (Elt F) :=
  broadcastInDim S100000 ![] bcast_S_S100000 (val_main_cst_11 (F := F))
abbrev idx_main_v56 (i : S100000.Idx) : S_.Idx := fun a => a.elim0
theorem val_main_v56_apply (i : S100000.Idx) :
    val_main_v56 (F := F) i = val_main_cst_11 (F := F) (idx_main_v56 i) := by
  unfold val_main_v56
  generalize val_main_cst_11 (F := F) = y
  exact broadcastInDim_apply _ bcast_S_S100000 y i (idx_main_v56 i) (fun a => a.elim0)

-- %57 = stablehlo.compare GT, %55, %56, FLOAT : (tensor<100000xf32>, tensor<100000xf32>) -> tensor<100000xi1>
def val_main_v57 (x0 : (⟨S2x1600000, .i32⟩ : BufTy).Contents (Elt F)) : (⟨S100000, .i1⟩ : BufTy).Contents (Elt F) :=
  cmpf .ogt (val_main_v55 (F := F) x0) (val_main_v56 (F := F))
theorem val_main_v57_apply (x0 : (⟨S2x1600000, .i32⟩ : BufTy).Contents (Elt F)) (i : S100000.Idx) :
    val_main_v57 (F := F) x0 i = FloatOps.cmpf .ogt (val_main_v55 (F := F) x0 i) (val_main_v56 (F := F) i) := rfl

-- %58 = stablehlo.rsqrt %55 : tensor<100000xf32>
def val_main_v58 (x0 : (⟨S2x1600000, .i32⟩ : BufTy).Contents (Elt F)) : (⟨S100000, .f32⟩ : BufTy).Contents (Elt F) :=
  Host.rsqrt (val_main_v55 (F := F) x0)
theorem val_main_v58_apply (x0 : (⟨S2x1600000, .i32⟩ : BufTy).Contents (Elt F)) (i : S100000.Idx) :
    val_main_v58 (F := F) x0 i = FloatOps.hostUnary .rsqrt (val_main_v55 (F := F) x0 i) := rfl

-- %cst_12 = stablehlo.constant dense<0.000000e+00> : tensor<f32>
def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl

-- @_where's %0 = stablehlo.convert %arg2 : tensor<f32>, in %59 = func.call @_where(…) (record main_call2)
def val_main_call2_v0 : (⟨S_, .f32⟩ : BufTy).Contents (Elt F) :=
  id (val_main_cst_12 (F := F))
theorem val_main_call2_v0_apply (i : S_.Idx) :
    val_main_call2_v0 (F := F) i = (val_main_cst_12 (F := F) i) := rfl

-- @_where's %1 = stablehlo.broadcast_in_dim %0, dims = [] : (tensor<f32>) -> tensor<100000xf32>, in %59 = func.call @_where(…) (record main_call2)
def val_main_call2_v1 : (⟨S100000, .f32⟩ : BufTy).Contents (Elt F) :=
  broadcastInDim S100000 ![] bcast_S_S100000 (val_main_call2_v0 (F := F))
abbrev idx_main_call2_v1 (i : S100000.Idx) : S_.Idx := fun a => a.elim0
theorem val_main_call2_v1_apply (i : S100000.Idx) :
    val_main_call2_v1 (F := F) i = val_main_call2_v0 (F := F) (idx_main_call2_v1 i) := by
  unfold val_main_call2_v1
  generalize val_main_call2_v0 (F := F) = y
  exact broadcastInDim_apply _ bcast_S_S100000 y i (idx_main_call2_v1 i) (fun a => a.elim0)

-- %59 = func.call @_where(…) (record main_call2) result 0: @_where's %2 = stablehlo.select %arg0, %arg1, %1 : tensor<100000xi1>, tensor<100000xf32>
def val_main_v59 (x0 : (⟨S2x1600000, .i32⟩ : BufTy).Contents (Elt F)) : (⟨S100000, .f32⟩ : BufTy).Contents (Elt F) :=
  select (val_main_v57 (F := F) x0) (val_main_v58 (F := F) x0) (val_main_call2_v1 (F := F))
theorem val_main_v59_apply (x0 : (⟨S2x1600000, .i32⟩ : BufTy).Contents (Elt F)) (i : S100000.Idx) :
    val_main_v59 (F := F) x0 i = Scalar.select (val_main_v57 (F := F) x0 i) (val_main_v58 (F := F) x0 i) (val_main_call2_v1 (F := F) i) := rfl

-- %c_13 = stablehlo.constant dense<0> : tensor<i32>
def val_main_c_13 : (⟨S_, .i32⟩ : BufTy).Contents (Elt F) :=
  constantI S_ 32 0#32
theorem val_main_c_13_apply (i : S_.Idx) :
    val_main_c_13 (F := F) i = 0#32 := rfl

-- %60 = stablehlo.broadcast_in_dim %c_13, dims = [] : (tensor<i32>) -> tensor<1700000xi32>
def val_main_v60 : (⟨S1700000, .i32⟩ : BufTy).Contents (Elt F) :=
  broadcastInDim S1700000 ![] bcast_S_S1700000 (val_main_c_13 (F := F))
abbrev idx_main_v60 (i : S1700000.Idx) : S_.Idx := fun a => a.elim0
theorem val_main_v60_apply (i : S1700000.Idx) :
    val_main_v60 (F := F) i = val_main_c_13 (F := F) (idx_main_v60 i) := by
  unfold val_main_v60
  generalize val_main_c_13 (F := F) = y
  exact broadcastInDim_apply _ bcast_S_S1700000 y i (idx_main_v60 i) (fun a => a.elim0)

-- %61 = stablehlo.compare LT, %50, %60, SIGNED : (tensor<1700000xi32>, tensor<1700000xi32>) -> tensor<1700000xi1>
def val_main_v61 (x0 : (⟨S2x1600000, .i32⟩ : BufTy).Contents (Elt F)) : (⟨S1700000, .i1⟩ : BufTy).Contents (Elt F) :=
  cmpi .slt (val_main_v50 (F := F) x0) (val_main_v60 (F := F))
theorem val_main_v61_apply (x0 : (⟨S2x1600000, .i32⟩ : BufTy).Contents (Elt F)) (i : S1700000.Idx) :
    val_main_v61 (F := F) x0 i = IntOp.cmpi .slt (val_main_v50 (F := F) x0 i) (val_main_v60 (F := F) i) := rfl

-- %c_14 = stablehlo.constant dense<100000> : tensor<i32>
def val_main_c_14 : (⟨S_, .i32⟩ : BufTy).Contents (Elt F) :=
  constantI S_ 32 100000#32
theorem val_main_c_14_apply (i : S_.Idx) :
    val_main_c_14 (F := F) i = 100000#32 := rfl

-- %62 = stablehlo.broadcast_in_dim %c_14, dims = [] : (tensor<i32>) -> tensor<1700000xi32>
def val_main_v62 : (⟨S1700000, .i32⟩ : BufTy).Contents (Elt F) :=
  broadcastInDim S1700000 ![] bcast_S_S1700000 (val_main_c_14 (F := F))
abbrev idx_main_v62 (i : S1700000.Idx) : S_.Idx := fun a => a.elim0
theorem val_main_v62_apply (i : S1700000.Idx) :
    val_main_v62 (F := F) i = val_main_c_14 (F := F) (idx_main_v62 i) := by
  unfold val_main_v62
  generalize val_main_c_14 (F := F) = y
  exact broadcastInDim_apply _ bcast_S_S1700000 y i (idx_main_v62 i) (fun a => a.elim0)

-- %63 = stablehlo.add %50, %62 : tensor<1700000xi32>
def val_main_v63 (x0 : (⟨S2x1600000, .i32⟩ : BufTy).Contents (Elt F)) : (⟨S1700000, .i32⟩ : BufTy).Contents (Elt F) :=
  addi (val_main_v50 (F := F) x0) (val_main_v62 (F := F))
theorem val_main_v63_apply (x0 : (⟨S2x1600000, .i32⟩ : BufTy).Contents (Elt F)) (i : S1700000.Idx) :
    val_main_v63 (F := F) x0 i = IntOp.addi (val_main_v50 (F := F) x0 i) (val_main_v62 (F := F) i) := rfl

-- %64 = stablehlo.select %61, %63, %50 : tensor<1700000xi1>, tensor<1700000xi32>
def val_main_v64 (x0 : (⟨S2x1600000, .i32⟩ : BufTy).Contents (Elt F)) : (⟨S1700000, .i32⟩ : BufTy).Contents (Elt F) :=
  select (val_main_v61 (F := F) x0) (val_main_v63 (F := F) x0) (val_main_v50 (F := F) x0)
theorem val_main_v64_apply (x0 : (⟨S2x1600000, .i32⟩ : BufTy).Contents (Elt F)) (i : S1700000.Idx) :
    val_main_v64 (F := F) x0 i = Scalar.select (val_main_v61 (F := F) x0 i) (val_main_v63 (F := F) x0 i) (val_main_v50 (F := F) x0 i) := rfl

-- %65 = stablehlo.broadcast_in_dim %64, dims = [0] : (tensor<1700000xi32>) -> tensor<1700000x1xi32>
def val_main_v65 (x0 : (⟨S2x1600000, .i32⟩ : BufTy).Contents (Elt F)) : (⟨S1700000x1, .i32⟩ : BufTy).Contents (Elt F) :=
  broadcastInDim S1700000x1 ![0] bcast_S1700000_S1700000x1_0 (val_main_v64 (F := F) x0)
abbrev idx_main_v65 (i : S1700000x1.Idx) : S1700000.Idx := fun a => match a with
  | ⟨0, _⟩ => ⟨(i 0).val, (i 0).isLt⟩
theorem val_main_v65_apply (x0 : (⟨S2x1600000, .i32⟩ : BufTy).Contents (Elt F)) (i : S1700000x1.Idx) :
    val_main_v65 (F := F) x0 i = val_main_v64 (F := F) x0 (idx_main_v65 i) := by
  unfold val_main_v65
  generalize val_main_v64 (F := F) x0 = y
  exact broadcastInDim_apply _ bcast_S1700000_S1700000x1_0 y i (idx_main_v65 i) (fun a => match a with
    | ⟨0, _⟩ => by show (i 0).val = if (1700000 : Nat) = 1 then 0 else (i 0).val; rw [if_neg (by decide)])

-- %66 = "stablehlo.gather"(%59, %65) <{dimension_numbers = #stablehlo.gather<collapsed_slice_dims = [0], start_index_map = [0], index_vector_dim = 1>, indices_are_sorted = false, slice_sizes = array<i64: 1>}> : (tensor<100000xf32>, tensor<1700000x1xi32>) -> tensor<1700000xf32>
def val_main_v66 (x0 : (⟨S2x1600000, .i32⟩ : BufTy).Contents (Elt F)) : (⟨S1700000, .f32⟩ : BufTy).Contents (Elt F) :=
  Host.gather gather_S100000_S1700000x1_S1700000_n_0_n_n_0_1_1 (val_main_v59 (F := F) x0) (val_main_v65 (F := F) x0)

-- %c_15 = stablehlo.constant dense<0> : tensor<i32>
def val_main_c_15 : (⟨S_, .i32⟩ : BufTy).Contents (Elt F) :=
  constantI S_ 32 0#32
theorem val_main_c_15_apply (i : S_.Idx) :
    val_main_c_15 (F := F) i = 0#32 := rfl

-- %67 = stablehlo.broadcast_in_dim %c_15, dims = [] : (tensor<i32>) -> tensor<1700000xi32>
def val_main_v67 : (⟨S1700000, .i32⟩ : BufTy).Contents (Elt F) :=
  broadcastInDim S1700000 ![] bcast_S_S1700000 (val_main_c_15 (F := F))
abbrev idx_main_v67 (i : S1700000.Idx) : S_.Idx := fun a => a.elim0
theorem val_main_v67_apply (i : S1700000.Idx) :
    val_main_v67 (F := F) i = val_main_c_15 (F := F) (idx_main_v67 i) := by
  unfold val_main_v67
  generalize val_main_c_15 (F := F) = y
  exact broadcastInDim_apply _ bcast_S_S1700000 y i (idx_main_v67 i) (fun a => a.elim0)

-- %68 = stablehlo.compare LT, %51, %67, SIGNED : (tensor<1700000xi32>, tensor<1700000xi32>) -> tensor<1700000xi1>
def val_main_v68 (x0 : (⟨S2x1600000, .i32⟩ : BufTy).Contents (Elt F)) : (⟨S1700000, .i1⟩ : BufTy).Contents (Elt F) :=
  cmpi .slt (val_main_v51 (F := F) x0) (val_main_v67 (F := F))
theorem val_main_v68_apply (x0 : (⟨S2x1600000, .i32⟩ : BufTy).Contents (Elt F)) (i : S1700000.Idx) :
    val_main_v68 (F := F) x0 i = IntOp.cmpi .slt (val_main_v51 (F := F) x0 i) (val_main_v67 (F := F) i) := rfl

-- %c_16 = stablehlo.constant dense<100000> : tensor<i32>
def val_main_c_16 : (⟨S_, .i32⟩ : BufTy).Contents (Elt F) :=
  constantI S_ 32 100000#32
theorem val_main_c_16_apply (i : S_.Idx) :
    val_main_c_16 (F := F) i = 100000#32 := rfl

-- %69 = stablehlo.broadcast_in_dim %c_16, dims = [] : (tensor<i32>) -> tensor<1700000xi32>
def val_main_v69 : (⟨S1700000, .i32⟩ : BufTy).Contents (Elt F) :=
  broadcastInDim S1700000 ![] bcast_S_S1700000 (val_main_c_16 (F := F))
abbrev idx_main_v69 (i : S1700000.Idx) : S_.Idx := fun a => a.elim0
theorem val_main_v69_apply (i : S1700000.Idx) :
    val_main_v69 (F := F) i = val_main_c_16 (F := F) (idx_main_v69 i) := by
  unfold val_main_v69
  generalize val_main_c_16 (F := F) = y
  exact broadcastInDim_apply _ bcast_S_S1700000 y i (idx_main_v69 i) (fun a => a.elim0)

-- %70 = stablehlo.add %51, %69 : tensor<1700000xi32>
def val_main_v70 (x0 : (⟨S2x1600000, .i32⟩ : BufTy).Contents (Elt F)) : (⟨S1700000, .i32⟩ : BufTy).Contents (Elt F) :=
  addi (val_main_v51 (F := F) x0) (val_main_v69 (F := F))
theorem val_main_v70_apply (x0 : (⟨S2x1600000, .i32⟩ : BufTy).Contents (Elt F)) (i : S1700000.Idx) :
    val_main_v70 (F := F) x0 i = IntOp.addi (val_main_v51 (F := F) x0 i) (val_main_v69 (F := F) i) := rfl

-- %71 = stablehlo.select %68, %70, %51 : tensor<1700000xi1>, tensor<1700000xi32>
def val_main_v71 (x0 : (⟨S2x1600000, .i32⟩ : BufTy).Contents (Elt F)) : (⟨S1700000, .i32⟩ : BufTy).Contents (Elt F) :=
  select (val_main_v68 (F := F) x0) (val_main_v70 (F := F) x0) (val_main_v51 (F := F) x0)
theorem val_main_v71_apply (x0 : (⟨S2x1600000, .i32⟩ : BufTy).Contents (Elt F)) (i : S1700000.Idx) :
    val_main_v71 (F := F) x0 i = Scalar.select (val_main_v68 (F := F) x0 i) (val_main_v70 (F := F) x0 i) (val_main_v51 (F := F) x0 i) := rfl

-- %72 = stablehlo.broadcast_in_dim %71, dims = [0] : (tensor<1700000xi32>) -> tensor<1700000x1xi32>
def val_main_v72 (x0 : (⟨S2x1600000, .i32⟩ : BufTy).Contents (Elt F)) : (⟨S1700000x1, .i32⟩ : BufTy).Contents (Elt F) :=
  broadcastInDim S1700000x1 ![0] bcast_S1700000_S1700000x1_0 (val_main_v71 (F := F) x0)
abbrev idx_main_v72 (i : S1700000x1.Idx) : S1700000.Idx := fun a => match a with
  | ⟨0, _⟩ => ⟨(i 0).val, (i 0).isLt⟩
theorem val_main_v72_apply (x0 : (⟨S2x1600000, .i32⟩ : BufTy).Contents (Elt F)) (i : S1700000x1.Idx) :
    val_main_v72 (F := F) x0 i = val_main_v71 (F := F) x0 (idx_main_v72 i) := by
  unfold val_main_v72
  generalize val_main_v71 (F := F) x0 = y
  exact broadcastInDim_apply _ bcast_S1700000_S1700000x1_0 y i (idx_main_v72 i) (fun a => match a with
    | ⟨0, _⟩ => by show (i 0).val = if (1700000 : Nat) = 1 then 0 else (i 0).val; rw [if_neg (by decide)])

-- %73 = "stablehlo.gather"(%59, %72) <{dimension_numbers = #stablehlo.gather<collapsed_slice_dims = [0], start_index_map = [0], index_vector_dim = 1>, indices_are_sorted = false, slice_sizes = array<i64: 1>}> : (tensor<100000xf32>, tensor<1700000x1xi32>) -> tensor<1700000xf32>
def val_main_v73 (x0 : (⟨S2x1600000, .i32⟩ : BufTy).Contents (Elt F)) : (⟨S1700000, .f32⟩ : BufTy).Contents (Elt F) :=
  Host.gather gather_S100000_S1700000x1_S1700000_n_0_n_n_0_1_1 (val_main_v59 (F := F) x0) (val_main_v72 (F := F) x0)

-- %74 = stablehlo.multiply %66, %73 : tensor<1700000xf32>
def val_main_v74 (x0 : (⟨S2x1600000, .i32⟩ : BufTy).Contents (Elt F)) : (⟨S1700000, .f32⟩ : BufTy).Contents (Elt F) :=
  mulf (val_main_v66 (F := F) x0) (val_main_v73 (F := F) x0)
theorem val_main_v74_apply (x0 : (⟨S2x1600000, .i32⟩ : BufTy).Contents (Elt F)) (i : S1700000.Idx) :
    val_main_v74 (F := F) x0 i = FloatOps.mulf (val_main_v66 (F := F) x0 i) (val_main_v73 (F := F) x0 i) := rfl

-- %c_17 = stablehlo.constant dense<0> : tensor<i32>
def val_main_c_17 : (⟨S_, .i32⟩ : BufTy).Contents (Elt F) :=
  constantI S_ 32 0#32
theorem val_main_c_17_apply (i : S_.Idx) :
    val_main_c_17 (F := F) i = 0#32 := rfl

-- %75 = stablehlo.broadcast_in_dim %c_17, dims = [] : (tensor<i32>) -> tensor<1700000xi32>
def val_main_v75 : (⟨S1700000, .i32⟩ : BufTy).Contents (Elt F) :=
  broadcastInDim S1700000 ![] bcast_S_S1700000 (val_main_c_17 (F := F))
abbrev idx_main_v75 (i : S1700000.Idx) : S_.Idx := fun a => a.elim0
theorem val_main_v75_apply (i : S1700000.Idx) :
    val_main_v75 (F := F) i = val_main_c_17 (F := F) (idx_main_v75 i) := by
  unfold val_main_v75
  generalize val_main_c_17 (F := F) = y
  exact broadcastInDim_apply _ bcast_S_S1700000 y i (idx_main_v75 i) (fun a => a.elim0)

-- %76 = stablehlo.compare LT, %50, %75, SIGNED : (tensor<1700000xi32>, tensor<1700000xi32>) -> tensor<1700000xi1>
def val_main_v76 (x0 : (⟨S2x1600000, .i32⟩ : BufTy).Contents (Elt F)) : (⟨S1700000, .i1⟩ : BufTy).Contents (Elt F) :=
  cmpi .slt (val_main_v50 (F := F) x0) (val_main_v75 (F := F))
theorem val_main_v76_apply (x0 : (⟨S2x1600000, .i32⟩ : BufTy).Contents (Elt F)) (i : S1700000.Idx) :
    val_main_v76 (F := F) x0 i = IntOp.cmpi .slt (val_main_v50 (F := F) x0 i) (val_main_v75 (F := F) i) := rfl

-- %c_18 = stablehlo.constant dense<100000> : tensor<i32>
def val_main_c_18 : (⟨S_, .i32⟩ : BufTy).Contents (Elt F) :=
  constantI S_ 32 100000#32
theorem val_main_c_18_apply (i : S_.Idx) :
    val_main_c_18 (F := F) i = 100000#32 := rfl

-- %77 = stablehlo.broadcast_in_dim %c_18, dims = [] : (tensor<i32>) -> tensor<1700000xi32>
def val_main_v77 : (⟨S1700000, .i32⟩ : BufTy).Contents (Elt F) :=
  broadcastInDim S1700000 ![] bcast_S_S1700000 (val_main_c_18 (F := F))
abbrev idx_main_v77 (i : S1700000.Idx) : S_.Idx := fun a => a.elim0
theorem val_main_v77_apply (i : S1700000.Idx) :
    val_main_v77 (F := F) i = val_main_c_18 (F := F) (idx_main_v77 i) := by
  unfold val_main_v77
  generalize val_main_c_18 (F := F) = y
  exact broadcastInDim_apply _ bcast_S_S1700000 y i (idx_main_v77 i) (fun a => a.elim0)

-- %78 = stablehlo.add %50, %77 : tensor<1700000xi32>
def val_main_v78 (x0 : (⟨S2x1600000, .i32⟩ : BufTy).Contents (Elt F)) : (⟨S1700000, .i32⟩ : BufTy).Contents (Elt F) :=
  addi (val_main_v50 (F := F) x0) (val_main_v77 (F := F))
theorem val_main_v78_apply (x0 : (⟨S2x1600000, .i32⟩ : BufTy).Contents (Elt F)) (i : S1700000.Idx) :
    val_main_v78 (F := F) x0 i = IntOp.addi (val_main_v50 (F := F) x0 i) (val_main_v77 (F := F) i) := rfl

-- %79 = stablehlo.select %76, %78, %50 : tensor<1700000xi1>, tensor<1700000xi32>
def val_main_v79 (x0 : (⟨S2x1600000, .i32⟩ : BufTy).Contents (Elt F)) : (⟨S1700000, .i32⟩ : BufTy).Contents (Elt F) :=
  select (val_main_v76 (F := F) x0) (val_main_v78 (F := F) x0) (val_main_v50 (F := F) x0)
theorem val_main_v79_apply (x0 : (⟨S2x1600000, .i32⟩ : BufTy).Contents (Elt F)) (i : S1700000.Idx) :
    val_main_v79 (F := F) x0 i = Scalar.select (val_main_v76 (F := F) x0 i) (val_main_v78 (F := F) x0 i) (val_main_v50 (F := F) x0 i) := rfl

-- %80 = stablehlo.broadcast_in_dim %79, dims = [0] : (tensor<1700000xi32>) -> tensor<1700000x1xi32>
def val_main_v80 (x0 : (⟨S2x1600000, .i32⟩ : BufTy).Contents (Elt F)) : (⟨S1700000x1, .i32⟩ : BufTy).Contents (Elt F) :=
  broadcastInDim S1700000x1 ![0] bcast_S1700000_S1700000x1_0 (val_main_v79 (F := F) x0)
abbrev idx_main_v80 (i : S1700000x1.Idx) : S1700000.Idx := fun a => match a with
  | ⟨0, _⟩ => ⟨(i 0).val, (i 0).isLt⟩
theorem val_main_v80_apply (x0 : (⟨S2x1600000, .i32⟩ : BufTy).Contents (Elt F)) (i : S1700000x1.Idx) :
    val_main_v80 (F := F) x0 i = val_main_v79 (F := F) x0 (idx_main_v80 i) := by
  unfold val_main_v80
  generalize val_main_v79 (F := F) x0 = y
  exact broadcastInDim_apply _ bcast_S1700000_S1700000x1_0 y i (idx_main_v80 i) (fun a => match a with
    | ⟨0, _⟩ => by show (i 0).val = if (1700000 : Nat) = 1 then 0 else (i 0).val; rw [if_neg (by decide)])

-- %81 = "stablehlo.gather"(%48, %80) <{dimension_numbers = #stablehlo.gather<offset_dims = [1], collapsed_slice_dims = [0], start_index_map = [0], index_vector_dim = 1>, indices_are_sorted = false, slice_sizes = array<i64: 1, 128>}> : (tensor<100000x128xf32>, tensor<1700000x1xi32>) -> tensor<1700000x128xf32>
def val_main_v81 (x0 : (⟨S2x1600000, .i32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S1700000x128, .f32⟩ : BufTy).Contents (Elt F) :=
  Host.gather gather_S100000x128_S1700000x1_S1700000x128_1_0_n_n_0_1_1128 (val_main_v48 (F := F) x0 x2 x3 x4 x5) (val_main_v80 (F := F) x0)

-- %82 = stablehlo.broadcast_in_dim %74, dims = [0] : (tensor<1700000xf32>) -> tensor<1700000x1xf32>
def val_main_v82 (x0 : (⟨S2x1600000, .i32⟩ : BufTy).Contents (Elt F)) : (⟨S1700000x1, .f32⟩ : BufTy).Contents (Elt F) :=
  broadcastInDim S1700000x1 ![0] bcast_S1700000_S1700000x1_0 (val_main_v74 (F := F) x0)
abbrev idx_main_v82 (i : S1700000x1.Idx) : S1700000.Idx := fun a => match a with
  | ⟨0, _⟩ => ⟨(i 0).val, (i 0).isLt⟩
theorem val_main_v82_apply (x0 : (⟨S2x1600000, .i32⟩ : BufTy).Contents (Elt F)) (i : S1700000x1.Idx) :
    val_main_v82 (F := F) x0 i = val_main_v74 (F := F) x0 (idx_main_v82 i) := by
  unfold val_main_v82
  generalize val_main_v74 (F := F) x0 = y
  exact broadcastInDim_apply _ bcast_S1700000_S1700000x1_0 y i (idx_main_v82 i) (fun a => match a with
    | ⟨0, _⟩ => by show (i 0).val = if (1700000 : Nat) = 1 then 0 else (i 0).val; rw [if_neg (by decide)])

-- %83 = stablehlo.broadcast_in_dim %82, dims = [0, 1] : (tensor<1700000x1xf32>) -> tensor<1700000x128xf32>
def val_main_v83 (x0 : (⟨S2x1600000, .i32⟩ : BufTy).Contents (Elt F)) : (⟨S1700000x128, .f32⟩ : BufTy).Contents (Elt F) :=
  broadcastInDim S1700000x128 ![0, 1] bcast_S1700000x1_S1700000x128_0_1 (val_main_v82 (F := F) x0)
abbrev idx_main_v83 (i : S1700000x128.Idx) : S1700000x1.Idx := fun a => match a with
  | ⟨0, _⟩ => ⟨(i 0).val, (i 0).isLt⟩
  | ⟨1, _⟩ => ⟨0, Nat.one_pos⟩
theorem val_main_v83_apply (x0 : (⟨S2x1600000, .i32⟩ : BufTy).Contents (Elt F)) (i : S1700000x128.Idx) :
    val_main_v83 (F := F) x0 i = val_main_v82 (F := F) x0 (idx_main_v83 i) := by
  unfold val_main_v83
  generalize val_main_v82 (F := F) x0 = y
  exact broadcastInDim_apply _ bcast_S1700000x1_S1700000x128_0_1 y i (idx_main_v83 i) (fun a => match a with
    | ⟨0, _⟩ => by show (i 0).val = if (1700000 : Nat) = 1 then 0 else (i 0).val; rw [if_neg (by decide)]
    | ⟨1, _⟩ => by show 0 = if (1 : Nat) = 1 then 0 else (i 1).val; rw [if_pos rfl])

-- %84 = stablehlo.multiply %81, %83 : tensor<1700000x128xf32>
def val_main_v84 (x0 : (⟨S2x1600000, .i32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S1700000x128, .f32⟩ : BufTy).Contents (Elt F) :=
  mulf (val_main_v81 (F := F) x0 x2 x3 x4 x5) (val_main_v83 (F := F) x0)
theorem val_main_v84_apply (x0 : (⟨S2x1600000, .i32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (i : S1700000x128.Idx) :
    val_main_v84 (F := F) x0 x2 x3 x4 x5 i = FloatOps.mulf (val_main_v81 (F := F) x0 x2 x3 x4 x5 i) (val_main_v83 (F := F) x0 i) := rfl

-- %cst_19 = stablehlo.constant dense<0.000000e+00> : tensor<f32>
def val_main_cst_19 : (⟨S_, .f32⟩ : BufTy).Contents (Elt F) :=
  constant S_ .f32 0x00000000#32
theorem val_main_cst_19_apply (i : S_.Idx) :
    val_main_cst_19 (F := F) i = FloatOps.ofBits .f32 0x00000000#32 := rfl

-- %85 = stablehlo.broadcast_in_dim %cst_19, dims = [] : (tensor<f32>) -> tensor<100000x128xf32>
def val_main_v85 : (⟨S100000x128, .f32⟩ : BufTy).Contents (Elt F) :=
  broadcastInDim S100000x128 ![] bcast_S_S100000x128 (val_main_cst_19 (F := F))
abbrev idx_main_v85 (i : S100000x128.Idx) : S_.Idx := fun a => a.elim0
theorem val_main_v85_apply (i : S100000x128.Idx) :
    val_main_v85 (F := F) i = val_main_cst_19 (F := F) (idx_main_v85 i) := by
  unfold val_main_v85
  generalize val_main_cst_19 (F := F) = y
  exact broadcastInDim_apply _ bcast_S_S100000x128 y i (idx_main_v85 i) (fun a => a.elim0)

-- %86 = stablehlo.broadcast_in_dim %51, dims = [0] : (tensor<1700000xi32>) -> tensor<1700000x1xi32>
def val_main_v86 (x0 : (⟨S2x1600000, .i32⟩ : BufTy).Contents (Elt F)) : (⟨S1700000x1, .i32⟩ : BufTy).Contents (Elt F) :=
  broadcastInDim S1700000x1 ![0] bcast_S1700000_S1700000x1_0 (val_main_v51 (F := F) x0)
abbrev idx_main_v86 (i : S1700000x1.Idx) : S1700000.Idx := fun a => match a with
  | ⟨0, _⟩ => ⟨(i 0).val, (i 0).isLt⟩
theorem val_main_v86_apply (x0 : (⟨S2x1600000, .i32⟩ : BufTy).Contents (Elt F)) (i : S1700000x1.Idx) :
    val_main_v86 (F := F) x0 i = val_main_v51 (F := F) x0 (idx_main_v86 i) := by
  unfold val_main_v86
  generalize val_main_v51 (F := F) x0 = y
  exact broadcastInDim_apply _ bcast_S1700000_S1700000x1_0 y i (idx_main_v86 i) (fun a => match a with
    | ⟨0, _⟩ => by show (i 0).val = if (1700000 : Nat) = 1 then 0 else (i 0).val; rw [if_neg (by decide)])

-- %87 = "stablehlo.scatter"(%85, %86, %84) <{indices_are_sorted = false, scatter_dimension_numbers = #stablehlo.scatter<update_window_dims = [1], inserted_window_dims = [0], scatter_dims_to_operand_dims = [0], index_vector_dim = 1>, unique_indices = false}> ( {
def val_main_v87 (x0 : (⟨S2x1600000, .i32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S100000x128, .f32⟩ : BufTy).Contents (Elt F) :=
  Host.scatterAdd scatter_S100000x128_S1700000x1_S1700000x128_1_0_0_1 (val_main_v85 (F := F)) (val_main_v86 (F := F) x0) (val_main_v84 (F := F) x0 x2 x3 x4 x5)

-- %88 = stablehlo.broadcast_in_dim %arg6, dims = [1] : (tensor<128xf32>) -> tensor<1x128xf32>
def val_main_v88 (x6 : (⟨S128, .f32⟩ : BufTy).Contents (Elt F)) : (⟨S1x128, .f32⟩ : BufTy).Contents (Elt F) :=
  broadcastInDim S1x128 ![1] bcast_S128_S1x128_1 (x6)
abbrev idx_main_v88 (i : S1x128.Idx) : S128.Idx := fun a => match a with
  | ⟨0, _⟩ => ⟨(i 1).val, (i 1).isLt⟩
theorem val_main_v88_apply (x6 : (⟨S128, .f32⟩ : BufTy).Contents (Elt F)) (i : S1x128.Idx) :
    val_main_v88 (F := F) x6 i = x6 (idx_main_v88 i) := by
  unfold val_main_v88
  exact broadcastInDim_apply _ bcast_S128_S1x128_1 x6 i (idx_main_v88 i) (fun a => match a with
    | ⟨0, _⟩ => by show (i 1).val = if (128 : Nat) = 1 then 0 else (i 1).val; rw [if_neg (by decide)])

-- %89 = stablehlo.broadcast_in_dim %88, dims = [0, 1] : (tensor<1x128xf32>) -> tensor<100000x128xf32>
def val_main_v89 (x6 : (⟨S128, .f32⟩ : BufTy).Contents (Elt F)) : (⟨S100000x128, .f32⟩ : BufTy).Contents (Elt F) :=
  broadcastInDim S100000x128 ![0, 1] bcast_S1x128_S100000x128_0_1 (val_main_v88 (F := F) x6)
abbrev idx_main_v89 (i : S100000x128.Idx) : S1x128.Idx := fun a => match a with
  | ⟨0, _⟩ => ⟨0, Nat.one_pos⟩
  | ⟨1, _⟩ => ⟨(i 1).val, (i 1).isLt⟩
theorem val_main_v89_apply (x6 : (⟨S128, .f32⟩ : BufTy).Contents (Elt F)) (i : S100000x128.Idx) :
    val_main_v89 (F := F) x6 i = val_main_v88 (F := F) x6 (idx_main_v89 i) := by
  unfold val_main_v89
  generalize val_main_v88 (F := F) x6 = y
  exact broadcastInDim_apply _ bcast_S1x128_S100000x128_0_1 y i (idx_main_v89 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %90 = stablehlo.add %87, %89 : tensor<100000x128xf32>
def val_main_v90 (x0 : (⟨S2x1600000, .i32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) : (⟨S100000x128, .f32⟩ : BufTy).Contents (Elt F) :=
  addf (val_main_v87 (F := F) x0 x2 x3 x4 x5) (val_main_v89 (F := F) x6)
theorem val_main_v90_apply (x0 : (⟨S2x1600000, .i32⟩ : BufTy).Contents (Elt F)) (x2 : (⟨S100000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (i : S100000x128.Idx) :
    val_main_v90 (F := F) x0 x2 x3 x4 x5 x6 i = FloatOps.addf (val_main_v87 (F := F) x0 x2 x3 x4 x5 i) (val_main_v89 (F := F) x6 i) := rfl

end Cert.Gcn.RefRead

end
-- ==== Proof.RefRun.lean ====
/-
  The reference program's run.  Its main function is a list of host operations, each writing one buffer as a pure
  function of buffers written before it; run in order from any memory with zero counters, every weakly fair
  execution terminates, the arguments end unchanged, and the result buffer holds the operations' composed term of
  the arguments, which is the last stage of the reading, `val_main_v90`.
-/
import proofs.«164795_j30382598652232_2_alg».proof.Proof.Gen.ReferenceIdeal
import proofs.«164795_j30382598652232_2_alg».proof.Proof.RefRead
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 119 operations, in order (a called function's operations stand in its call's place, spelt `TRef.…`). -/
abbrev ops : List (HloOp τ sig (Elt F)) :=
  [ unary main_arg0 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg0 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg2 main_arg3 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v4 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg5 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v49 (iotaInDim S100000 32 0),
    binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S1700000 ![] bcast_S_S1700000 : (⟨S_, .i32⟩ : BufTy).Contents (Elt F) → (⟨S1700000, .i32⟩ : BufTy).Contents (Elt F)),
    binary main_v50 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v62 (broadcastInDim S1700000 ![] bcast_S_S1700000 : (⟨S_, .i32⟩ : BufTy).Contents (Elt F) → (⟨S1700000, .i32⟩ : BufTy).Contents (Elt F)),
    binary main_v50 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v67 (broadcastInDim S1700000 ![] bcast_S_S1700000 : (⟨S_, .i32⟩ : BufTy).Contents (Elt F) → (⟨S1700000, .i32⟩ : BufTy).Contents (Elt F)),
    binary main_v51 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v69 (broadcastInDim S1700000 ![] bcast_S_S1700000 : (⟨S_, .i32⟩ : BufTy).Contents (Elt F) → (⟨S1700000, .i32⟩ : BufTy).Contents (Elt F)),
    binary main_v51 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v73 main_v74 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v75 (broadcastInDim S1700000 ![] bcast_S_S1700000 : (⟨S_, .i32⟩ : BufTy).Contents (Elt F) → (⟨S1700000, .i32⟩ : BufTy).Contents (Elt F)),
    binary main_v50 main_v75 main_v76 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v77 (broadcastInDim S1700000 ![] bcast_S_S1700000 : (⟨S_, .i32⟩ : BufTy).Contents (Elt F) → (⟨S1700000, .i32⟩ : BufTy).Contents (Elt F)),
    binary main_v50 main_v77 main_v78 (addi : (⟨S1700000, .i32⟩ : BufTy).Contents (Elt F) → (⟨S1700000, .i32⟩ : BufTy).Contents (Elt F) → (⟨S1700000, .i32⟩ : BufTy).Contents (Elt F)),
    ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v79 main_v80 (broadcastInDim S1700000x1 ![0] bcast_S1700000_S1700000x1_0 : (⟨S1700000, .i32⟩ : BufTy).Contents (Elt F) → (⟨S1700000x1, .i32⟩ : BufTy).Contents (Elt F)),
    binary main_v48 main_v80 main_v81 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v74 main_v82 (broadcastInDim S1700000x1 ![0] bcast_S1700000_S1700000x1_0 : (⟨S1700000, .f32⟩ : BufTy).Contents (Elt F) → (⟨S1700000x1, .f32⟩ : BufTy).Contents (Elt F)),
    unary main_v82 main_v83 (broadcastInDim S1700000x128 ![0, 1] bcast_S1700000x1_S1700000x128_0_1 : (⟨S1700000x1, .f32⟩ : BufTy).Contents (Elt F) → (⟨S1700000x128, .f32⟩ : BufTy).Contents (Elt F)),
    binary main_v81 main_v83 main_v84 (mulf : (⟨S1700000x128, .f32⟩ : BufTy).Contents (Elt F) → (⟨S1700000x128, .f32⟩ : BufTy).Contents (Elt F) → (⟨S1700000x128, .f32⟩ : BufTy).Contents (Elt F)),
    nullary main_cst_19 (constant S_ .f32 0x00000000#32),
    unary main_cst_19 main_v85 (broadcastInDim S100000x128 ![] bcast_S_S100000x128 : (⟨S_, .f32⟩ : BufTy).Contents (Elt F) → (⟨S100000x128, .f32⟩ : BufTy).Contents (Elt F)),
    unary main_v51 main_v86 (broadcastInDim S1700000x1 ![0] bcast_S1700000_S1700000x1_0 : (⟨S1700000, .i32⟩ : BufTy).Contents (Elt F) → (⟨S1700000x1, .i32⟩ : BufTy).Contents (Elt F)),
    ternary main_v85 main_v86 main_v84 main_v87 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v87 main_v89 main_v90 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
set_option maxHeartbeats 47600000 in
/-- On every device, for any float values, from any memory with zero counters: every weakly fair execution of
    the main function terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90)
        = Cert.Gcn.RefRead.val_main_v90 (F := F) (m ((c.tc : Thread nD τ).loc main_arg0))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v90).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.Gcn.RefRun

end
-- ==== Proof.RefAlg.lean ====
/-
  The algebra behind one layer of the graph convolution, apart from any program.

  The reference lists its messages as 1,700,000 update rows: the 1,600,000 edges followed by one self loop per
  node, row `1600000 + n` carrying the number `n` itself as both its source and its target word.  A row lands on
  node `i` when its target word, read signed, is `i`.  So a sum over the rows landing on `i` is the sum over the
  edges landing on `i` plus the one self-loop row `1600000 + i`; the self loop's word is a node number, which
  wrapping and clamping leave alone.  With the float one read as the real `1` the degree is a count plus one, hence
  positive, and the guarded `deg ^ (-1/2)` is the plain one.
-/
import proofs.«164795_j30382598652232_2_alg».proof.Proof.Spec
import Idealize.ShloMosaic.PureOps.Ideal.Laws

noncomputable section

namespace Cert.Gcn.Ref

open Idealize.ShloMosaic Idealize.ShloMosaic.ValueIdx Cert.Gcn

/-! ## The two float words -/

theorem one_eq : (one : EReal) = 1 := by
  simp [one, Ideal.ofBits, Ideal.ieee, -EReal.coe_mul]; norm_num

theorem zero_eq : (zero : EReal) = 0 := Ideal.ofBits_zero_f32

/-! ## A node number as an index word -/

theorem toInt_ofNat_node (n : Nat) (h : n < 100000) : (BitVec.ofNat 32 n).toInt = (n : Int) := by
  have e : n % 2 ^ 32 = n := Nat.mod_eq_of_lt (by omega)
  rw [BitVec.toInt_eq_toNat_cond, BitVec.toNat_ofNat, e, if_pos (by omega)]

/-- A word that is not negative is kept by the wrap. -/
theorem wrap_of_nonneg (v : BitVec 32) (h : 0 ≤ v.toInt) : wrap v = v := by
  have hs : v.slt 0#32 = false := by
    rw [BitVec.slt]; simp; omega
  unfold wrap IntOp.cmpi Scalar.select
  simp [hs]

theorem wrap_ofNat_node (n : Fin 100000) : wrap (BitVec.ofNat 32 n.val) = BitVec.ofNat 32 n.val :=
  wrap_of_nonneg _ (by rw [toInt_ofNat_node _ n.isLt]; omega)

theorem row_ofNat_node (n : Fin 100000) : row (BitVec.ofNat 32 n.val) = n := by
  refine Fin.ext ?_
  show min (BitVec.ofNat 32 n.val).toInt.toNat (100000 - 1) = n.val
  rw [toInt_ofNat_node _ n.isLt]
  have := n.isLt
  omega

/-! ## The update rows: the edges, then one self loop per node -/

/-- The word of update row `k`: the edge's word, or past the edges the node number `k - 1600000`. -/
def app (w : Fin 1600000 → BitVec 32) (k : Fin 1700000) : BitVec 32 :=
  if h : k.val < 1600000 then w ⟨k.val, h⟩ else BitVec.ofNat 32 (k.val - 1600000)

theorem app_edge (w : Fin 1600000 → BitVec 32) (e : Fin 1600000) (h : e.val < 1700000) : app w ⟨e.val, h⟩ = w e := by
  unfold app; rw [dif_pos e.isLt]

theorem app_loop (w : Fin 1600000 → BitVec 32) (n : Fin 100000) (h : 1600000 + n.val < 1700000) :
    app w ⟨1600000 + n.val, h⟩ = BitVec.ofNat 32 n.val := by
  unfold app; rw [dif_neg (by show ¬ (1600000 + n.val < 1600000); omega)]
  show BitVec.ofNat 32 (1600000 + n.val - 1600000) = _
  rw [Nat.add_sub_cancel_left]

/-- A sum over the 1,700,000 rows is the sum over the edges plus the sum over the self loops. -/
theorem sum_rows_split {M : Type} [AddCommMonoid M] (g : Fin 1700000 → M) :
    ∑ k : Fin 1700000, g k
      = (∑ e : Fin 1600000, g ⟨e.val, by omega⟩) + ∑ n : Fin 100000, g ⟨1600000 + n.val, by omega⟩ :=
  Fin.sum_univ_add (M := M) (a := 1600000) (b := 100000) g

/-- THE SPLIT: a sum over the rows landing on node `i` of a function of the rows' two words is the sum over the
    edges landing on `i` plus the value at the self loop of `i`. -/
theorem sum_landing_rows (s d : Fin 1600000 → BitVec 32) (i : Fin 100000) (G : BitVec 32 → BitVec 32 → EReal) :
    ∑ k ∈ Finset.univ.filter (fun k : Fin 1700000 => (app d k).toInt = (i.val : Int)), G (app s k) (app d k)
      = (∑ e ∈ landing d i, G (s e) (d e)) + G (BitVec.ofNat 32 i.val) (BitVec.ofNat 32 i.val) := by
  have hedges : (∑ e : Fin 1600000, if (app d ⟨e.val, by omega⟩).toInt = (i.val : Int)
        then G (app s ⟨e.val, by omega⟩) (app d ⟨e.val, by omega⟩) else 0) = ∑ e ∈ landing d i, G (s e) (d e) := by
    unfold landing
    rw [Finset.sum_filter]
    refine Finset.sum_congr rfl fun e _ => ?_
    rw [app_edge, app_edge]
  have hcond : ∀ n : Fin 100000, ((BitVec.ofNat 32 n.val).toInt = (i.val : Int)) ↔ n = i := by
    intro n
    rw [toInt_ofNat_node _ n.isLt]
    constructor
    · intro h; exact Fin.ext (by omega)
    · rintro rfl; rfl
  have hloops : (∑ n : Fin 100000, if (app d ⟨1600000 + n.val, by omega⟩).toInt = (i.val : Int)
        then G (app s ⟨1600000 + n.val, by omega⟩) (app d ⟨1600000 + n.val, by omega⟩) else 0)
      = G (BitVec.ofNat 32 i.val) (BitVec.ofNat 32 i.val) := by
    simp only [app_loop, hcond]
    rw [Finset.sum_ite_eq' Finset.univ i]
    simp
  rw [Finset.sum_filter, sum_rows_split, hedges, hloops]

/-! ## The degree is positive -/

theorem deg_pos (d : Fin 1600000 → BitVec 32) (i : Fin 100000) : 0 < deg d i := by
  unfold deg
  rw [one_eq, Finset.sum_const, nsmul_one]
  exact Right.add_pos_of_nonneg_of_pos (by exact_mod_cast Nat.zero_le _) zero_lt_one

/-- The guarded `deg ^ (-1/2)`, the guard being true. -/
theorem select_dis (d : Fin 1600000 → BitVec 32) (i : Fin 100000) (z : EReal) :
    Scalar.select (Ideal.cmp .ogt (deg d i) zero) (Ideal.rsqrt (deg d i)) z = dis d i := by
  have hc : Ideal.cmp .ogt (deg d i) zero = 1#1 := by
    simp [Ideal.cmp, zero_eq, deg_pos d i]
  rw [hc, select_one]
  rfl

/-- The degree as the reference sums it: zero plus one per row landing on `i`. -/
theorem deg_rows (d : Fin 1600000 → BitVec 32) (i : Fin 100000) :
    zero + ∑ _k ∈ Finset.univ.filter (fun k : Fin 1700000 => (app d k).toInt = (i.val : Int)), one = deg d i := by
  rw [sum_landing_rows d d i (fun _ _ => one), zero_eq, zero_add]
  rfl

/-! ## One layer -/

/-- One layer as the reference sums it — zero plus, over the rows landing on `i`, the gathered feature times the
    product of the two gathered `dis`, plus the bias — is the specification's layer. -/
theorem conv_rows (s d : Fin 1600000 → BitVec 32) (h : Fin 100000 → Fin 128 → EReal) (b : Fin 128 → EReal)
    (i : Fin 100000) (f : Fin 128) :
    (zero + ∑ k ∈ Finset.univ.filter (fun k : Fin 1700000 => (app d k).toInt = (i.val : Int)),
        h (row (wrap (app s k))) f * (dis d (row (wrap (app s k))) * dis d (row (wrap (app d k))))) + b f
      = conv s d h b i f := by
  rw [sum_landing_rows s d i (fun a c => h (row (wrap a)) f * (dis d (row (wrap a)) * dis d (row (wrap c)))),
    zero_eq, zero_add, wrap_ofNat_node, row_ofNat_node]
  unfold conv agg nrm
  rw [mul_comm (h i f)]

end Cert.Gcn.Ref

end
-- ==== Proof.RefStages.lean ====
/-
  The reference program's stages, read at an index, up to the per-row weights.

  The two concatenated index arrays at update row `k` are the edge's word, or past the edges the node number
  `k - 1600000`; the wrapped arrays are `wrap` of those, and the index columns hold the same words; the first
  scatter, ones into zeros, is the degree, and the guarded reciprocal square root of it is `dis`; the two flat
  gathers read `dis` at the rows of the wrapped words, and their product is the weight of the update row.
-/
import proofs.«164795_j30382598652232_2_alg».proof.Proof.RefAlg
import proofs.«164795_j30382598652232_2_alg».proof.Proof.LibGatherRows
import proofs.«164795_j30382598652232_2_alg».proof.Proof.LibGatherRows2
import proofs.«164795_j30382598652232_2_alg».proof.Proof.LibScatterRows
import proofs.«164795_j30382598652232_2_alg».proof.Proof.RefRead

noncomputable section

namespace Cert.Gcn.Ref

open Cert.ReferenceIdeal Cert.ReferenceIdeal.Gen Cert.Gcn.RefRead Idealize.ShloMosaic
  Idealize.ShloMosaic.ValueIdx Cert.Gcn

/-! ## The index words -/

theorem v1_at (x0 : (⟨S2x1600000, .i32⟩ : BufTy).Contents (Elt Ideal)) (e : Fin 1600000) :
    val_main_v1 (F := Ideal) x0 (ix1 e) = srcOf x0 e := by
  rw [val_main_v1_apply, val_main_v0_apply]
  refine congrArg x0 (funext fun a => Fin.ext ?_)
  match a with
  | ⟨0, _⟩ => rfl
  | ⟨1, _⟩ => exact Nat.mod_eq_of_lt e.isLt

theorem v3_at (x0 : (⟨S2x1600000, .i32⟩ : BufTy).Contents (Elt Ideal)) (e : Fin 1600000) :
    val_main_v3 (F := Ideal) x0 (ix1 e) = dstOf x0 e := by
  rw [val_main_v3_apply, val_main_v2_apply]
  refine congrArg x0 (funext fun a => Fin.ext ?_)
  match a with
  | ⟨0, _⟩ => rfl
  | ⟨1, _⟩ => exact Nat.mod_eq_of_lt e.isLt

/-- The edges' words followed by the node numbers, read at update row `k`. -/
theorem concat_at (w : S1600000.Idx → BitVec 32) (k : Fin 1700000) :
    concatenate S1700000 0 [⟨S1600000, w⟩, ⟨S100000, iotaInDim S100000 32 0⟩]
        concatenates_S1600000_S100000_S1700000_d0 (ix1 k)
      = app (fun e => w (ix1 e)) k := by
  unfold app
  by_cases h : k.val < 1600000
  · rw [dif_pos h]
    exact concatenate_pair_apply_left (0 : Fin S1700000.rank) w (iotaInDim S100000 32 0)
      concatenates_S1600000_S100000_S1700000_d0 (ix1 k) rfl (ix1 ⟨k.val, h⟩) (fun b => match b with | ⟨0, _⟩ => rfl)
  · rw [dif_neg h]
    exact concatenate_pair_apply_right (0 : Fin S1700000.rank) w (iotaInDim S100000 32 0)
      concatenates_S1600000_S100000_S1700000_d0 (ix1 k) rfl rfl (ix1 ⟨k.val - 1600000, by have := k.isLt; omega⟩)
      (fun b hb => absurd (Subsingleton.elim _ _) hb)
      (by show k.val - 1600000 + 1600000 = k.val; omega)

theorem v6_at (x0 : (⟨S2x1600000, .i32⟩ : BufTy).Contents (Elt Ideal)) (k : Fin 1700000) :
    val_main_v6 (F := Ideal) x0 (ix1 k) = app (srcOf x0) k := by
  unfold val_main_v6 val_main_v5
  rw [concat_at]
  exact congrArg (fun w => app w k) (funext fun e => v1_at x0 e)

theorem v7_at (x0 : (⟨S2x1600000, .i32⟩ : BufTy).Contents (Elt Ideal)) (k : Fin 1700000) :
    val_main_v7 (F := Ideal) x0 (ix1 k) = app (dstOf x0) k := by
  unfold val_main_v7 val_main_v5
  rw [concat_at]
  exact congrArg (fun w => app w k) (funext fun e => v3_at x0 e)

/-! ## The wrapped words, and the index columns -/

theorem v20_at (x0 : (⟨S2x1600000, .i32⟩ : BufTy).Contents (Elt Ideal)) (k : Fin 1700000) :
    val_main_v20 (F := Ideal) x0 (ix1 k) = wrap (app (srcOf x0) k) := by
  rw [val_main_v20_apply, val_main_v17_apply, val_main_v19_apply, val_main_v16_apply, val_main_v18_apply,
    val_main_c_apply, val_main_c_3_apply, v6_at]
  rfl

theorem v27_at (x0 : (⟨S2x1600000, .i32⟩ : BufTy).Contents (Elt Ideal)) (k : Fin 1700000) :
    val_main_v27 (F := Ideal) x0 (ix1 k) = wrap (app (dstOf x0) k) := by
  rw [val_main_v27_apply, val_main_v24_apply, val_main_v26_apply, val_main_v23_apply, val_main_v25_apply,
    val_main_c_4_apply, val_main_c_5_apply, v7_at]
  rfl

theorem v35_at (x0 : (⟨S2x1600000, .i32⟩ : BufTy).Contents (Elt Ideal)) (k : Fin 1700000) :
    val_main_v35 (F := Ideal) x0 (ix1 k) = wrap (app (srcOf x0) k) := by
  rw [val_main_v35_apply, val_main_v32_apply, val_main_v34_apply, val_main_v31_apply, val_main_v33_apply,
    val_main_c_6_apply, val_main_c_7_apply, v6_at]
  rfl

/-- The column index `(k, 0)` read back as the flat index `k`. -/
theorem v10_at (x0 : (⟨S2x1600000, .i32⟩ : BufTy).Contents (Elt Ideal)) (k : Fin 1700000) :
    val_main_v10 (F := Ideal) x0 (ix2 k (0 : Fin 1)) = app (dstOf x0) k := by
  rw [val_main_v10_apply, ← v7_at]
  exact congrArg _ (funext fun a => match a with | ⟨0, _⟩ => rfl)

theorem v42_at (x0 : (⟨S2x1600000, .i32⟩ : BufTy).Contents (Elt Ideal)) (k : Fin 1700000) :
    val_main_v42 (F := Ideal) x0 (ix2 k (0 : Fin 1)) = app (dstOf x0) k := by
  rw [val_main_v42_apply, ← v7_at]
  exact congrArg _ (funext fun a => match a with | ⟨0, _⟩ => rfl)

theorem v21_at (x0 : (⟨S2x1600000, .i32⟩ : BufTy).Contents (Elt Ideal)) (k : Fin 1700000) :
    val_main_v21 (F := Ideal) x0 (ix2 k (0 : Fin 1)) = wrap (app (srcOf x0) k) := by
  rw [val_main_v21_apply, ← v20_at]
  exact congrArg _ (funext fun a => match a with | ⟨0, _⟩ => rfl)

theorem v28_at (x0 : (⟨S2x1600000, .i32⟩ : BufTy).Contents (Elt Ideal)) (k : Fin 1700000) :
    val_main_v28 (F := Ideal) x0 (ix2 k (0 : Fin 1)) = wrap (app (dstOf x0) k) := by
  rw [val_main_v28_apply, ← v27_at]
  exact congrArg _ (funext fun a => match a with | ⟨0, _⟩ => rfl)

theorem v36_at (x0 : (⟨S2x1600000, .i32⟩ : BufTy).Contents (Elt Ideal)) (k : Fin 1700000) :
    val_main_v36 (F := Ideal) x0 (ix2 k (0 : Fin 1)) = wrap (app (srcOf x0) k) := by
  rw [val_main_v36_apply, ← v35_at]
  exact congrArg _ (funext fun a => match a with | ⟨0, _⟩ => rfl)

/-! ## The constant arrays -/

theorem v8_at (k : Fin 1700000) : val_main_v8 (F := Ideal) (ix1 k) = one := by
  rw [val_main_v8_apply, val_main_cst_apply]; rfl

theorem v9_at (n : Fin 100000) : val_main_v9 (F := Ideal) (ix1 n) = zero := by
  rw [val_main_v9_apply, val_main_cst_0_apply]; rfl

theorem v41_at (i : Fin 100000) (f : Fin 128) : val_main_v41 (F := Ideal) (ix2 i f) = zero := by
  rw [val_main_v41_apply, val_main_cst_8_apply]; rfl

/-! ## The printed dimension records are the generic ones, and the host scatter at the extended reals -/

theorem scatterFlat_eq : scatter_S100000_S1700000x1_S1700000_n_0_0_1
    = ScatterRows.flatDims 100000 1700000 scatter_S100000_S1700000x1_S1700000_n_0_0_1_wf := rfl

theorem scatterRows_eq : scatter_S100000x128_S1700000x1_S1700000x128_1_0_0_1
    = ScatterRows.rowDims 100000 1700000 128 scatter_S100000x128_S1700000x1_S1700000x128_1_0_0_1_wf := rfl

theorem gatherFlat_eq : gather_S100000_S1700000x1_S1700000_n_0_n_n_0_1_1
    = GatherRows.rowDims 100000 1700000 gather_S100000_S1700000x1_S1700000_n_0_n_n_0_1_1_wf := rfl

theorem gatherMat_eq : gather_S100000x128_S1700000x1_S1700000x128_1_0_n_n_0_1_1128
    = GatherRows2.matDims 100000 1700000 128 gather_S100000x128_S1700000x1_S1700000x128_1_0_n_n_0_1_1128_wf := rfl

/-- At the extended reals the host's accumulating scatter is the exact sum. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

/-! ## The degree and `dis` -/

theorem v11_at (x0 : (⟨S2x1600000, .i32⟩ : BufTy).Contents (Elt Ideal)) (n : Fin 100000) :
    val_main_v11 (F := Ideal) x0 (ix1 n) = deg (dstOf x0) n := by
  unfold val_main_v11
  rw [scatterAdd_ideal, scatterFlat_eq, ScatterRows.scatterAdd_flat_apply]
  simp only [v9_at, v8_at, v10_at]
  rw [deg_rows]

theorem v15_at (x0 : (⟨S2x1600000, .i32⟩ : BufTy).Contents (Elt Ideal)) (n : Fin 100000) :
    val_main_v15 (F := Ideal) x0 (ix1 n) = dis (dstOf x0) n := by
  rw [val_main_v15_apply, val_main_v13_apply, val_main_v14_apply, val_main_v12_apply, val_main_cst_1_apply,
    val_main_call0_v1_apply, val_main_call0_v0_apply, val_main_cst_2_apply, v11_at, Ideal.cmpf_def,
    Ideal.hostUnary_rsqrt_def, Ideal.ofBits_def, select_dis]

/-! ## The gathered `dis` and their product -/

/-- The flat gather of `dis` at an index column, read at update row `k`. -/
theorem gather_dis_at (x0 : (⟨S2x1600000, .i32⟩ : BufTy).Contents (Elt Ideal))
    (col : (⟨S1700000x1, .i32⟩ : BufTy).Contents (Elt Ideal)) (k : Fin 1700000) :
    Host.gather gather_S100000_S1700000x1_S1700000_n_0_n_n_0_1_1 (val_main_v15 (F := Ideal) x0) col (ix1 k)
      = dis (dstOf x0) (row (col (ix2 k (0 : Fin 1)))) := by
  rw [gatherFlat_eq, GatherRows.gather_rows_apply (by omega)]
  exact v15_at x0 (row (col (ix2 k (0 : Fin 1))))

theorem v22_at (x0 : (⟨S2x1600000, .i32⟩ : BufTy).Contents (Elt Ideal)) (k : Fin 1700000) :
    val_main_v22 (F := Ideal) x0 (ix1 k) = dis (dstOf x0) (row (wrap (app (srcOf x0) k))) := by
  unfold val_main_v22
  rw [gather_dis_at, v21_at]

theorem v29_at (x0 : (⟨S2x1600000, .i32⟩ : BufTy).Contents (Elt Ideal)) (k : Fin 1700000) :
    val_main_v29 (F := Ideal) x0 (ix1 k) = dis (dstOf x0) (row (wrap (app (dstOf x0) k))) := by
  unfold val_main_v29
  rw [gather_dis_at, v28_at]

theorem v39_at (x0 : (⟨S2x1600000, .i32⟩ : BufTy).Contents (Elt Ideal)) (k : Fin 1700000) (f : Fin 128) :
    val_main_v39 (F := Ideal) x0 (ix2 k f)
      = dis (dstOf x0) (row (wrap (app (srcOf x0) k))) * dis (dstOf x0) (row (wrap (app (dstOf x0) k))) := by
  rw [val_main_v39_apply, val_main_v38_apply]
  have e : idx_main_v38 (idx_main_v39 (ix2 k f)) = ix1 k := funext fun a => match a with | ⟨0, _⟩ => rfl
  rw [e, val_main_v30_apply, v22_at, v29_at, Ideal.mulf_def]

end Cert.Gcn.Ref

end
-- ==== Proof.RefSpec.lean ====
/-
  The reference program read at an index is the specification.

  One layer's second scatter sums, over the update rows landing on a node, the gathered feature times the row's
  weight; with the split of the rows into the landing edges and the node's self loop, and the bias added, that is
  the specification's layer of the gathered features.  The first layer gathers the dense product of the embeddings
  with the first weight matrix; the second repeats the first, operation for operation, on the dense product of the
  rectified first layer with the second weight matrix.
-/
import proofs.«164795_j30382598652232_2_alg».proof.Proof.RefStages

noncomputable section

namespace Cert.Gcn.Ref

open Cert.ReferenceIdeal Cert.ReferenceIdeal.Gen Cert.Gcn.RefRead Idealize.ShloMosaic
  Idealize.ShloMosaic.ValueIdx Cert.Gcn

/-! ## One layer -/

/-- The row gather of node features `y` at an index column, read at update row `k` and feature `f`. -/
theorem gather_feat_at (y : FVec Ideal S100000x128 .f32)
    (col : (⟨S1700000x1, .i32⟩ : BufTy).Contents (Elt Ideal)) (k : Fin 1700000) (f : Fin 128) :
    Host.gather gather_S100000x128_S1700000x1_S1700000x128_1_0_n_n_0_1_1128 y col (ix2 k f)
      = y (ix2 (row (col (ix2 k (0 : Fin 1)))) f) := by
  rw [gatherMat_eq, GatherRows2.gather_mat_apply (by omega)]
  rfl

/-- One layer's scatter result as a function of the node features `y` it gathers: both layers are this. -/
def layerOut (x0 : (⟨S2x1600000, .i32⟩ : BufTy).Contents (Elt Ideal))
    (y : FVec Ideal S100000x128 .f32) : FVec Ideal S100000x128 .f32 :=
  Host.scatterAdd (F := Ideal) (φ := .f32) scatter_S100000x128_S1700000x1_S1700000x128_1_0_0_1
    (val_main_v41 (F := Ideal)) (val_main_v42 (F := Ideal) x0)
    (mulf (F := Ideal) (φ := .f32)
      (Host.gather gather_S100000x128_S1700000x1_S1700000x128_1_0_n_n_0_1_1128 y (val_main_v36 (F := Ideal) x0))
      (val_main_v39 (F := Ideal) x0))

theorem layerOut_at (x0 : (⟨S2x1600000, .i32⟩ : BufTy).Contents (Elt Ideal))
    (y : FVec Ideal S100000x128 .f32) (b : FVec Ideal S128 .f32) (i : Fin 100000) (f : Fin 128) :
    layerOut x0 y (ix2 i f) + b (ix1 f)
      = conv (srcOf x0) (dstOf x0) (fun n c => y (ix2 n c)) (fun c => b (ix1 c)) i f := by
  unfold layerOut
  rw [scatterAdd_ideal, scatterRows_eq, ScatterRows.scatterAdd_rows_apply]
  simp only [v41_at, v42_at, mulf_apply, gather_feat_at, v36_at, v39_at]
  exact conv_rows (srcOf x0) (dstOf x0) (fun n c => y (ix2 n c)) (fun c => b (ix1 c)) i f

/-! ## The dense products, the biases, the chain -/

theorem v4_at (x2 : (⟨S100000x128, .f32⟩ : BufTy).Contents (Elt Ideal))
    (x3 : (⟨S128x128, .f32⟩ : BufTy).Contents (Elt Ideal)) (n : Fin 100000) (c : Fin 128) :
    val_main_v4 (F := Ideal) x2 x3 (ix2 n c) = mm (fun i c => x2 (ix2 i c)) (fun c f => x3 (ix2 c f)) n c := by
  rw [val_main_v4_apply]
  unfold mm
  refine Finset.sum_congr rfl fun k _ => ?_
  have el : lidx_main_v4 (ix2 n c) k = ix2 n k := funext fun a => match a with | ⟨0, _⟩ => rfl | ⟨1, _⟩ => rfl
  have er : ridx_main_v4 (ix2 n c) k = ix2 k c := funext fun a => match a with | ⟨0, _⟩ => rfl | ⟨1, _⟩ => rfl
  rw [el, er]

theorem v45_at (x4 : (⟨S128, .f32⟩ : BufTy).Contents (Elt Ideal)) (i : Fin 100000) (f : Fin 128) :
    val_main_v45 (F := Ideal) x4 (ix2 i f) = x4 (ix1 f) := by
  rw [val_main_v45_apply, val_main_v44_apply]
  exact congrArg x4 (funext fun a => match a with | ⟨0, _⟩ => rfl)

theorem v89_at (x6 : (⟨S128, .f32⟩ : BufTy).Contents (Elt Ideal)) (i : Fin 100000) (f : Fin 128) :
    val_main_v89 (F := Ideal) x6 (ix2 i f) = x6 (ix1 f) := by
  rw [val_main_v89_apply, val_main_v88_apply]
  exact congrArg x6 (funext fun a => match a with | ⟨0, _⟩ => rfl)

theorem v43_eq (x0 : (⟨S2x1600000, .i32⟩ : BufTy).Contents (Elt Ideal))
    (x2 : (⟨S100000x128, .f32⟩ : BufTy).Contents (Elt Ideal)) (x3 : (⟨S128x128, .f32⟩ : BufTy).Contents (Elt Ideal)) :
    val_main_v43 (F := Ideal) x0 x2 x3 = layerOut x0 (val_main_v4 (F := Ideal) x2 x3) := rfl

/-- The second layer's index arrays, constants and row weights are the first layer's, operation for operation. -/
theorem v87_eq (x0 : (⟨S2x1600000, .i32⟩ : BufTy).Contents (Elt Ideal))
    (x2 : (⟨S100000x128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) :
    val_main_v87 (F := Ideal) x0 x2 x3 x4 x5 = layerOut x0 (val_main_v48 (F := Ideal) x0 x2 x3 x4 x5) := rfl

/-- The first layer, rectified. -/
theorem v47_at (x0 : (⟨S2x1600000, .i32⟩ : BufTy).Contents (Elt Ideal))
    (x2 : (⟨S100000x128, .f32⟩ : BufTy).Contents (Elt Ideal)) (x3 : (⟨S128x128, .f32⟩ : BufTy).Contents (Elt Ideal))
    (x4 : (⟨S128, .f32⟩ : BufTy).Contents (Elt Ideal)) (i : Fin 100000) (c : Fin 128) :
    val_main_v47 (F := Ideal) x0 x2 x3 x4 (ix2 i c)
      = max (conv (srcOf x0) (dstOf x0) (mm (fun i c => x2 (ix2 i c)) (fun c f => x3 (ix2 c f)))
          (fun f => x4 (ix1 f)) i c) zero := by
  have hy : (fun n c => val_main_v4 (F := Ideal) x2 x3 (ix2 n c))
      = mm (fun i c => x2 (ix2 i c)) (fun c f => x3 (ix2 c f)) := funext fun n => funext fun c => v4_at x2 x3 n c
  rw [val_main_v47_apply, val_main_v46_apply, val_main_call1_v0_apply, val_main_call1_cst_apply, v43_eq, v45_at,
    Ideal.maximumf_def, Ideal.addf_def, Ideal.ofBits_def, layerOut_at x0 (val_main_v4 (F := Ideal) x2 x3) x4 i c, hy]

theorem v48_at (x0 : (⟨S2x1600000, .i32⟩ : BufTy).Contents (Elt Ideal))
    (x2 : (⟨S100000x128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (n : Fin 100000) (c : Fin 128) :
    val_main_v48 (F := Ideal) x0 x2 x3 x4 x5 (ix2 n c)
      = mm (fun i c => max (conv (srcOf x0) (dstOf x0) (mm (fun i c => x2 (ix2 i c)) (fun c f => x3 (ix2 c f)))
          (fun f => x4 (ix1 f)) i c) zero) (fun c f => x5 (ix2 c f)) n c := by
  rw [val_main_v48_apply]
  refine Finset.sum_congr rfl fun k _ => ?_
  have el : lidx_main_v48 (ix2 n c) k = ix2 n k := funext fun a => match a with | ⟨0, _⟩ => rfl | ⟨1, _⟩ => rfl
  have er : ridx_main_v48 (ix2 n c) k = ix2 k c := funext fun a => match a with | ⟨0, _⟩ => rfl | ⟨1, _⟩ => rfl
  rw [el, er, v47_at]

/-- THE REFERENCE IS THE SPECIFICATION. -/
theorem ref_is_spec (x0 : (⟨S2x1600000, .i32⟩ : BufTy).Contents (Elt Ideal))
    (x2 : (⟨S100000x128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    Cert.Gcn.RefRead.val_main_v90 (F := Ideal) x0 x2 x3 x4 x5 x6 = Cert.Gcn.result x0 x2 x3 x4 x5 x6 := by
  funext j
  obtain ⟨i, f, rfl⟩ : ∃ (i : Fin 100000) (f : Fin 128), j = ix2 i f := ⟨j 0, j 1, eq_ix2 j⟩
  have hy : (fun n c => val_main_v48 (F := Ideal) x0 x2 x3 x4 x5 (ix2 n c))
      = mm (fun i c => max (conv (srcOf x0) (dstOf x0) (mm (fun i c => x2 (ix2 i c)) (fun c f => x3 (ix2 c f)))
          (fun f => x4 (ix1 f)) i c) zero) (fun c f => x5 (ix2 c f)) :=
    funext fun n => funext fun c => v48_at x0 x2 x3 x4 x5 n c
  rw [val_main_v90_apply, v87_eq, v89_at, Ideal.addf_def,
    layerOut_at x0 (val_main_v48 (F := Ideal) x0 x2 x3 x4 x5) x6 i f, hy]
  rfl

end Cert.Gcn.Ref

end
-- ==== Proof.lean ====
/-
  The certificate's five claims.

  The kernel is a two-layer graph convolution with self loops and symmetric normalisation: three pipelines (a dense
  product; an activated dense product; a biased sum) among host stretches that compute the degree normalisation,
  gather and scale the neighbours' rows and scatter-add them over the target nodes.  The kernel keeps the self
  loops out of the edge list and adds each node's own row, scaled by `dis²`, inside the pipelines; the reference
  appends one self-loop edge per node to the edge list and scatter-adds everything.

  Both idealized programs compute the same function of the arguments on the extended reals (`Cert.Gcn.result`):
  at node `i` the reference's scatter-add over the appended list splits into the real edges landing on `i` and
  the one self-loop edge `i → i`, whose message `h i · (dis i · dis i)` is the kernel's self term; the degree,
  one per landing edge plus one, is positive, so the reference's guarded `rsqrt` is the plain one.  Only
  commutativity and associativity of sum and product are used, so the precondition is never opened.

  The three frames: the printed kernel's and the idealized kernel's runs terminate without fault with the
  arguments unchanged (each program's three pipelines and host stretches as a chain of segments); the reference
  is a line of host operations.  The idealization rewrote no operation, so there is nothing to preserve.
-/
import proofs.«164795_j30382598652232_2_alg».proof.Defs
import proofs.«164795_j30382598652232_2_alg».proof.Proof.Gen.Kernel
import proofs.«164795_j30382598652232_2_alg».proof.Proof.Gen.Kernel.Skeleton
import proofs.«164795_j30382598652232_2_alg».proof.Proof.Gen.Kernel.Launch
import proofs.«164795_j30382598652232_2_alg».proof.Proof.Gen.Kernel.Points
import proofs.«164795_j30382598652232_2_alg».proof.Proof.Gen.Kernel.Frame
import proofs.«164795_j30382598652232_2_alg».proof.Proof.Gen.KernelIdeal
import proofs.«164795_j30382598652232_2_alg».proof.Proof.Gen.KernelIdeal.Skeleton
import proofs.«164795_j30382598652232_2_alg».proof.Proof.Gen.KernelIdeal.Launch
import proofs.«164795_j30382598652232_2_alg».proof.Proof.Gen.KernelIdeal.Points
import proofs.«164795_j30382598652232_2_alg».proof.Proof.Gen.KernelIdeal.Frame
import proofs.«164795_j30382598652232_2_alg».proof.Proof.Gen.ReferenceIdeal
import proofs.«164795_j30382598652232_2_alg».proof.Proof.Gen.Pre_finite_inputs
import proofs.«164795_j30382598652232_2_alg».proof.Proof.KRun
import proofs.«164795_j30382598652232_2_alg».proof.Proof.KValue
import proofs.«164795_j30382598652232_2_alg».proof.Proof.KSpec
import proofs.«164795_j30382598652232_2_alg».proof.Proof.RefRun
import proofs.«164795_j30382598652232_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Gcn.RefRun.run (F := Ideal) m ρ)

theorem preserves : Cert.preserves_Kernel_KernelIdeal := trivial

section
open Cert.KernelIdeal Cert.KernelIdeal.Gen

/-- The idealized kernel's run, its result array at the specification of the arguments. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v66)
          = Cert.Gcn.result (m ((c.tc : Thread nD τ).loc main_arg0)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run Cert.KernelIdeal.defs _ _).mono (fun r h c =>
    ⟨(h c _ (mem_uc main_v66 (by decide))).trans
        ((Cert.Gcn.KValue.value m ρ c).trans (Cert.Gcn.KSpec.kernelOut_eq _ _ _ _ _ _)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c)⟩)
    (Cert.Gcn.KRun.run_all (F := Ideal) m ρ)

end

/-- From memories agreeing on the arguments both idealized programs end with the specification of those
    arguments in their result arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.Gcn.RefRun.run (F := Ideal) m' ρ')
  rw [Cert.Gcn.Ref.ref_is_spec, (hagree c).1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
